-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048 : Shape := ⟨2, ![64, 2048]⟩
abbrev S64x131072 : Shape := ⟨2, ![64, 131072]⟩
abbrev S2048x2048 : Shape := ⟨2, ![2048, 2048]⟩
abbrev S256x256 : Shape := ⟨2, ![256, 256]⟩
abbrev S256x2048 : Shape := ⟨2, ![256, 2048]⟩
abbrev S2048x256 : Shape := ⟨2, ![2048, 256]⟩
abbrev S65x128 : Shape := ⟨2, ![65, 128]⟩
abbrev S128 : Shape := ⟨1, ![128]⟩
abbrev S65x64 : Shape := ⟨2, ![65, 64]⟩
abbrev S64 : Shape := ⟨1, ![64]⟩
abbrev S_ : Shape := ⟨0, ![]⟩

class Facts : Prop where
  bcast_S_S64x2048 : S_.BroadcastsInDim S64x2048 (![] : Fin 0 → Fin S64x2048.rank)
  reducesTo_S64x2048_S_d0_1 : S64x2048.ReducesTo [0, 1] S_
  h_S_ : 0 < S_.numel
  bcast_S_S64x131072 : S_.BroadcastsInDim S64x131072 (![] : Fin 0 → Fin S64x131072.rank)
  reducesTo_S64x131072_S_d0_1 : S64x131072.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S256x256 : S_.BroadcastsInDim S256x256 (![] : Fin 0 → Fin S256x256.rank)
  reducesTo_S256x256_S_d0_1 : S256x256.ReducesTo [0, 1] S_
  bcast_S_S256x2048 : S_.BroadcastsInDim S256x2048 (![] : Fin 0 → Fin S256x2048.rank)
  reducesTo_S256x2048_S_d0_1 : S256x2048.ReducesTo [0, 1] S_
  bcast_S_S2048x256 : S_.BroadcastsInDim S2048x256 (![] : Fin 0 → Fin S2048x256.rank)
  reducesTo_S2048x256_S_d0_1 : S2048x256.ReducesTo [0, 1] S_
  bcast_S_S65x128 : S_.BroadcastsInDim S65x128 (![] : Fin 0 → Fin S65x128.rank)
  reducesTo_S65x128_S_d0_1 : S65x128.ReducesTo [0, 1] S_
  bcast_S_S128 : S_.BroadcastsInDim S128 (![] : Fin 0 → Fin S128.rank)
  reducesTo_S128_S_d0 : S128.ReducesTo [0] S_
  bcast_S_S65x64 : S_.BroadcastsInDim S65x64 (![] : Fin 0 → Fin S65x64.rank)
  reducesTo_S65x64_S_d0_1 : S65x64.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S128 .f32) (main_arg12 : FVec F S65x64 .f32) (main_arg13 : FVec F S64 .f32) (main_v48 : IVec S_ 1) (main_v49 : FVec F S65x128 .f32) (main_v50 : FVec F S65x128 .f32) : IVec S_ 1 :=
  let main_v51 : IVec S65x128 1 := cmpf .olt main_v49 main_v50
  let main_c_19 : IVec S_ 1 := constantI S_ 1 1#1
  let main_v52 : IVec S_ 1 := (fun x v => Host.reduce IntOp.andi x v reducesTo_S65x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S65x64 .f32 := Host.absf main_arg12
  let main_cst_22 : FVec F S_ .f32 := constant S_ .f32 0x7F800000#32
  let main_v60 : FVec F S65x64 .f32 := broadcastInDim S65x64 ![] bcast_S_S65x64 main_cst_22
  let main_v61 : IVec S65x64 1 := cmpf .olt main_v59 main_v60
  let main_c_23 : IVec S_ 1 := constantI S_ 1 1#1
  let main_v62 : IVec S_ 1 := (fun x v => Host.reduce IntOp.andi x v reducesTo_S65x64_S_d0_1 h_S_) main_v61 main_c_23
  let main_v63 : IVec S_ 1 := andi main_v58 main_v62
  let main_v64 : FVec F S64 .f32 := Host.absf main_arg13
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_v63 main_v67

def fn_part2 {F : FTy → Type} [FloatOps F] (main_arg7 : FVec F S128 .f32) (main_arg8 : FVec F S65x64 .f32) (main_arg9 : FVec F S64 .f32) (main_arg10 : FVec F S65x128 .f32) (main_arg11 : FVec F S128 .f32) (main_arg12 : FVec F S65x64 .f32) (main_arg13 : FVec F S64 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S65x64 .f32 := Host.absf main_arg8
  let main_cst_14 : FVec F S_ .f32 := constant S_ .f32 0x7F800000#32
  let main_v40 : FVec F S65x64 .f32 := broadcastInDim S65x64 ![] bcast_S_S65x64 main_cst_14
  let main_v41 : IVec S65x64 1 := cmpf .olt main_v39 main_v40
  let main_c_15 : IVec S_ 1 := constantI S_ 1 1#1
  let main_v42 : IVec S_ 1 := (fun x v => Host.reduce IntOp.andi x v reducesTo_S65x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S65x128 .f32 := Host.absf main_arg10
  let main_cst_18 : FVec F S_ .f32 := constant S_ .f32 0x7F800000#32
  let main_v50 : FVec F S65x128 .f32 := broadcastInDim S65x128 ![] bcast_S_S65x128 main_cst_18
  fn_part3 (F := F) main_arg11 main_arg12 main_arg13 main_v48 main_v49 main_v50

def fn_part1 {F : FTy → Type} [FloatOps F] (main_arg4 : FVec F S256x2048 .f32) (main_arg5 : FVec F S2048x256 .f32) (main_arg6 : FVec F S65x128 .f32) (main_arg7 : FVec F S128 .f32) (main_arg8 : FVec F S65x64 .f32) (main_arg9 : FVec F S64 .f32) (main_arg10 : FVec F S65x128 .f32) (main_arg11 : FVec F S128 .f32) (main_arg12 : FVec F S65x64 .f32) (main_arg13 : FVec F S64 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x2048 .f32 := Host.absf main_arg4
  let main_cst_6 : FVec F S_ .f32 := constant S_ .f32 0x7F800000#32
  let main_v20 : FVec F S256x2048 .f32 := broadcastInDim S256x2048 ![] bcast_S_S256x2048 main_cst_6
  let main_v21 : IVec S256x2048 1 := cmpf .olt main_v19 main_v20
  let main_c_7 : IVec S_ 1 := constantI S_ 1 1#1
  let main_v22 : IVec S_ 1 := (fun x v => Host.reduce IntOp.andi x v reducesTo_S256x2048_S_d0_1 h_S_) main_v21 main_c_7
  let main_v23 : IVec S_ 1 := andi main_v18 main_v22
  let main_v24 : FVec F S2048x256 .f32 := Host.absf main_arg5
  let main_cst_8 : FVec F S_ .f32 := constant S_ .f32 0x7F800000#32
  let main_v25 : FVec F S2048x256 .f32 := broadcastInDim S2048x256 ![] bcast_S_S2048x256 main_cst_8
  let main_v26 : IVec S2048x256 1 := cmpf .olt main_v24 main_v25
  let main_c_9 : IVec S_ 1 := constantI S_ 1 1#1
  let main_v27 : IVec S_ 1 := (fun x v => Host.reduce IntOp.andi x v reducesTo_S2048x256_S_d0_1 h_S_) main_v26 main_c_9
  let main_v28 : IVec S_ 1 := andi main_v23 main_v27
  let main_v29 : FVec F S65x128 .f32 := Host.absf main_arg6
  let main_cst_10 : FVec F S_ .f32 := constant S_ .f32 0x7F800000#32
  let main_v30 : FVec F S65x128 .f32 := broadcastInDim S65x128 ![] bcast_S_S65x128 main_cst_10
  let main_v31 : IVec S65x128 1 := cmpf .olt main_v29 main_v30
  let main_c_11 : IVec S_ 1 := constantI S_ 1 1#1
  let main_v32 : IVec S_ 1 := (fun x v => Host.reduce IntOp.andi x v reducesTo_S65x128_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S64x2048 .f32) (main_arg1 : FVec F S64x131072 .f32) (main_arg2 : FVec F S2048x2048 .f32) (main_arg3 : FVec F S256x256 .f32) (main_arg4 : FVec F S256x2048 .f32) (main_arg5 : FVec F S2048x256 .f32) (main_arg6 : FVec F S65x128 .f32) (main_arg7 : FVec F S128 .f32) (main_arg8 : FVec F S65x64 .f32) (main_arg9 : FVec F S64 .f32) (main_arg10 : FVec F S65x128 .f32) (main_arg11 : FVec F S128 .f32) (main_arg12 : FVec F S65x64 .f32) (main_arg13 : FVec F S64 .f32) : IVec S_ 1 :=
  let main_v0 : FVec F S64x2048 .f32 := Host.absf main_arg0
  let main_cst : FVec F S_ .f32 := constant S_ .f32 0x7F800000#32
  let main_v1 : FVec F S64x2048 .f32 := broadcastInDim S64x2048 ![] bcast_S_S64x2048 main_cst
  let main_v2 : IVec S64x2048 1 := cmpf .olt main_v0 main_v1
  let main_c : IVec S_ 1 := constantI S_ 1 1#1
  let main_v3 : IVec S_ 1 := (fun x v => Host.reduce IntOp.andi x v reducesTo_S64x2048_S_d0_1 h_S_) main_v2 main_c
  let main_v4 : FVec F S64x131072 .f32 := Host.absf main_arg1
  let main_cst_0 : FVec F S_ .f32 := constant S_ .f32 0x7F800000#32
  let main_v5 : FVec F S64x131072 .f32 := broadcastInDim S64x131072 ![] bcast_S_S64x131072 main_cst_0
  let main_v6 : IVec S64x131072 1 := cmpf .olt main_v4 main_v5
  let main_c_1 : IVec S_ 1 := constantI S_ 1 1#1
  let main_v7 : IVec S_ 1 := (fun x v => Host.reduce IntOp.andi x v reducesTo_S64x131072_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_arg9 main_arg10 main_arg11 main_arg12 main_arg13 main_v13 main_v16
-- ==== Kernel.lean ====
abbrev S64x2048 : Shape := ⟨2, ![64, 2048]⟩
abbrev S64x131072 : Shape := ⟨2, ![64, 131072]⟩
abbrev S2048x2048 : Shape := ⟨2, ![2048, 2048]⟩
abbrev S256x256 : Shape := ⟨2, ![256, 256]⟩
abbrev S256x2048 : Shape := ⟨2, ![256, 2048]⟩
abbrev S2048x256 : Shape := ⟨2, ![2048, 256]⟩
abbrev S65x128 : Shape := ⟨2, ![65, 128]⟩
abbrev S128 : Shape := ⟨1, ![128]⟩
abbrev S65x64 : Shape := ⟨2, ![65, 64]⟩
abbrev S64 : Shape := ⟨1, ![64]⟩
abbrev S64x2048x64 : Shape := ⟨3, ![64, 2048, 64]⟩
abbrev S64x2048x1 : Shape := ⟨3, ![64, 2048, 1]⟩
abbrev S64x2048x65 : Shape := ⟨3, ![64, 2048, 65]⟩
abbrev S2048x64x65 : Shape := ⟨3, ![2048, 64, 65]⟩
abbrev S2048x4160 : Shape := ⟨2, ![2048, 4160]⟩
abbrev S256x4160 : Shape := ⟨2, ![256, 4160]⟩
abbrev S128x2048 : Shape := ⟨2, ![128, 2048]⟩
abbrev S128x4160 : Shape := ⟨2, ![128, 4160]⟩
abbrev S131072x65 : Shape := ⟨2, ![131072, 65]⟩
abbrev S1x128 : Shape := ⟨2, ![1, 128]⟩
abbrev S131072x128 : Shape := ⟨2, ![131072, 128]⟩
abbrev S4096x65 : Shape := ⟨2, ![4096, 65]⟩
abbrev S4096x128 : Shape := ⟨2, ![4096, 128]⟩
abbrev S2048x64x128 : Shape := ⟨3, ![2048, 64, 128]⟩
abbrev S64x2048x128 : Shape := ⟨3, ![64, 2048, 128]⟩
abbrev S64x128x128 : Shape := ⟨3, ![64, 128, 128]⟩
abbrev S64x128x64 : Shape := ⟨3, ![64, 128, 64]⟩
abbrev S1x64 : Shape := ⟨2, ![1, 64]⟩
abbrev S131072x64 : Shape := ⟨2, ![131072, 64]⟩
abbrev S4096x64 : Shape := ⟨2, ![4096, 64]⟩
abbrev S2048x64x64 : Shape := ⟨3, ![2048, 64, 64]⟩
abbrev S64x8192 : Shape := ⟨2, ![64, 8192]⟩

abbrev nBuf : Space → Nat
  | .hbm => 49
  | .vmem => 54
  | .smem => 0
  | _ => 0

abbrev bufTy : (tb : Table) → Fin (tcTables nBuf tb) → BufTy
  | .hbm, ⟨0, _⟩ => ⟨S64x2048, .f32⟩
  | .hbm, ⟨1, _⟩ => ⟨S64x131072, .f32⟩
  | .hbm, ⟨2, _⟩ => ⟨S2048x2048, .f32⟩
  | .hbm, ⟨3, _⟩ => ⟨S256x256, .f32⟩
  | .hbm, ⟨4, _⟩ => ⟨S256x2048, .f32⟩
  | .hbm, ⟨5, _⟩ => ⟨S2048x256, .f32⟩
  | .hbm, ⟨6, _⟩ => ⟨S65x128, .f32⟩
  | .hbm, ⟨7, _⟩ => ⟨S128, .f32⟩
  | .hbm, ⟨8, _⟩ => ⟨S65x64, .f32⟩
  | .hbm, ⟨9, _⟩ => ⟨S64, .f32⟩
  | .hbm, ⟨10, _⟩ => ⟨S65x128, .f32⟩
  | .hbm, ⟨11, _⟩ => ⟨S128, .f32⟩
  | .hbm, ⟨12, _⟩ => ⟨S65x64, .f32⟩
  | .hbm, ⟨13, _⟩ => ⟨S64, .f32⟩
  | .hbm, ⟨14, _⟩ => ⟨S2048x2048, .bf16⟩
  | .hbm, ⟨15, _⟩ => ⟨S256x2048, .bf16⟩
  | .hbm, ⟨16, _⟩ => ⟨S2048x256, .bf16⟩
  | .hbm, ⟨17, _⟩ => ⟨S64x2048x64, .f32⟩
  | .hbm, ⟨18, _⟩ => ⟨S64x2048x1, .f32⟩
  | .hbm, ⟨19, _⟩ => ⟨S64x2048x65, .f32⟩
  | .hbm, ⟨20, _⟩ => ⟨S2048x64x65, .f32⟩
  | .hbm, ⟨21, _⟩ => ⟨S2048x4160, .f32⟩
  | .hbm, ⟨22, _⟩ => ⟨S2048x4160, .bf16⟩
  | .hbm, ⟨23, _⟩ => ⟨S256x4160, .bf16⟩
  | .hbm, ⟨24, _⟩ => ⟨S2048x4160, .bf16⟩
  | .hbm, ⟨25, _⟩ => ⟨S131072x65, .bf16⟩
  | .hbm, ⟨26, _⟩ => ⟨S65x128, .bf16⟩
  | .hbm, ⟨27, _⟩ => ⟨S1x128, .f32⟩
  | .hbm, ⟨28, _⟩ => ⟨S131072x128, .bf16⟩
  | .hbm, ⟨29, _⟩ => ⟨S2048x64x128, .bf16⟩
  | .hbm, ⟨30, _⟩ => ⟨S64x2048x128, .bf16⟩
  | .hbm, ⟨31, _⟩ => ⟨S64x2048x64, .f32⟩
  | .hbm, ⟨32, _⟩ => ⟨S64x2048x64, .f32⟩
  | .hbm, ⟨33, _⟩ => ⟨S64x2048x65, .f32⟩
  | .hbm, ⟨34, _⟩ => ⟨S2048x64x65, .f32⟩
  | .hbm, ⟨35, _⟩ => ⟨S2048x4160, .f32⟩
  | .hbm, ⟨36, _⟩ => ⟨S2048x4160, .bf16⟩
  | .hbm, ⟨37, _⟩ => ⟨S256x4160, .bf16⟩
  | .hbm, ⟨38, _⟩ => ⟨S2048x4160, .bf16⟩
  | .hbm, ⟨39, _⟩ => ⟨S131072x65, .bf16⟩
  | .hbm, ⟨40, _⟩ => ⟨S65x64, .bf16⟩
  | .hbm, ⟨41, _⟩ => ⟨S1x64, .f32⟩
  | .hbm, ⟨42, _⟩ => ⟨S131072x64, .bf16⟩
  | .hbm, ⟨43, _⟩ => ⟨S2048x64x64, .bf16⟩
  | .hbm, ⟨44, _⟩ => ⟨S64x2048x64, .bf16⟩
  | .hbm, ⟨45, _⟩ => ⟨S64x131072, .bf16⟩
  | .hbm, ⟨46, _⟩ => ⟨S64x131072, .f32⟩
  | .hbm, ⟨47, _⟩ => ⟨S64x131072, .f32⟩
  | .hbm, ⟨48, _⟩ => ⟨S64x131072, .f32⟩
  | .local _ .vmem, ⟨0, _⟩ => ⟨S128x2048, .bf16⟩
  | .local _ .vmem, ⟨1, _⟩ => ⟨S128x2048, .bf16⟩
  | .local _ .vmem, ⟨2, _⟩ => ⟨S2048x4160, .bf16⟩
  | .local _ .vmem, ⟨3, _⟩ => ⟨S128x4160, .bf16⟩
  | .local _ .vmem, ⟨4, _⟩ => ⟨S128x4160, .bf16⟩
  | .local _ .vmem, ⟨5, _⟩ => ⟨S256x2048, .bf16⟩
  | .local _ .vmem, ⟨6, _⟩ => ⟨S256x2048, .bf16⟩
  | .local _ .vmem, ⟨7, _⟩ => ⟨S2048x4160, .bf16⟩
  | .local _ .vmem, ⟨8, _⟩ => ⟨S256x256, .bf16⟩
  | .local _ .vmem, ⟨9, _⟩ => ⟨S256x256, .bf16⟩
  | .local _ .vmem, ⟨10, _⟩ => ⟨S256x4160, .bf16⟩
  | .local _ .vmem, ⟨11, _⟩ => ⟨S256x4160, .bf16⟩
  | .local _ .vmem, ⟨12, _⟩ => ⟨S256x4160, .bf16⟩
  | .local _ .vmem, ⟨13, _⟩ => ⟨S4096x65, .bf16⟩
  | .local _ .vmem, ⟨14, _⟩ => ⟨S4096x65, .bf16⟩
  | .local _ .vmem, ⟨15, _⟩ => ⟨S65x128, .bf16⟩
  | .local _ .vmem, ⟨16, _⟩ => ⟨S1x128, .f32⟩
  | .local _ .vmem, ⟨17, _⟩ => ⟨S4096x128, .bf16⟩
  | .local _ .vmem, ⟨18, _⟩ => ⟨S4096x128, .bf16⟩
  | .local _ .vmem, ⟨19, _⟩ => ⟨S64x128x128, .bf16⟩
  | .local _ .vmem, ⟨20, _⟩ => ⟨S64x128x128, .bf16⟩
  | .local _ .vmem, ⟨21, _⟩ => ⟨S64x128x64, .f32⟩
  | .local _ .vmem, ⟨22, _⟩ => ⟨S64x128x64, .f32⟩
  | .local _ .vmem, ⟨23, _⟩ => ⟨S64x128x64, .f32⟩
  | .local _ .vmem, ⟨24, _⟩ => ⟨S64x128x64, .f32⟩
  | .local _ .vmem, ⟨25, _⟩ => ⟨S64x128x64, .f32⟩
  | .local _ .vmem, ⟨26, _⟩ => ⟨S64x128x64, .f32⟩
  | .local _ .vmem, ⟨27, _⟩ => ⟨S128x2048, .bf16⟩
  | .local _ .vmem, ⟨28, _⟩ => ⟨S128x2048, .bf16⟩
  | .local _ .vmem, ⟨29, _⟩ => ⟨S2048x4160, .bf16⟩
  | .local _ .vmem, ⟨30, _⟩ => ⟨S128x4160, .bf16⟩
  | .local _ .vmem, ⟨31, _⟩ => ⟨S128x4160, .bf16⟩
  | .local _ .vmem, ⟨32, _⟩ => ⟨S256x2048, .bf16⟩
  | .local _ .vmem, ⟨33, _⟩ => ⟨S256x2048, .bf16⟩
  | .local _ .vmem, ⟨34, _⟩ => ⟨S2048x4160, .bf16⟩
  | .local _ .vmem, ⟨35, _⟩ => ⟨S256x256, .bf16⟩
  | .local _ .vmem, ⟨36, _⟩ => ⟨S256x256, .bf16⟩
  | .local _ .vmem, ⟨37, _⟩ => ⟨S256x4160, .bf16⟩
  | .local _ .vmem, ⟨38, _⟩ => ⟨S256x4160, .bf16⟩
  | .local _ .vmem, ⟨39, _⟩ => ⟨S256x4160, .bf16⟩
  | .local _ .vmem, ⟨40, _⟩ => ⟨S4096x65, .bf16⟩
  | .local _ .vmem, ⟨41, _⟩ => ⟨S4096x65, .bf16⟩
  | .local _ .vmem, ⟨42, _⟩ => ⟨S65x64, .bf16⟩
  | .local _ .vmem, ⟨43, _⟩ => ⟨S1x64, .f32⟩
  | .local _ .vmem, ⟨44, _⟩ => ⟨S4096x64, .bf16⟩
  | .local _ .vmem, ⟨45, _⟩ => ⟨S4096x64, .bf16⟩
  | .local _ .vmem, ⟨46, _⟩ => ⟨S64x8192, .bf16⟩
  | .local _ .vmem, ⟨47, _⟩ => ⟨S64x8192, .bf16⟩
  | .local _ .vmem, ⟨48, _⟩ => ⟨S64x8192, .f32⟩
  | .local _ .vmem, ⟨49, _⟩ => ⟨S64x8192, .f32⟩
  | .local _ .vmem, ⟨50, _⟩ => ⟨S64x8192, .f32⟩
  | .local _ .vmem, ⟨51, _⟩ => ⟨S64x8192, .f32⟩
  | .local _ .vmem, ⟨52, _⟩ => ⟨S64x8192, .f32⟩
  | .local _ .vmem, ⟨53, _⟩ => ⟨S64x8192, .f32⟩
  | _, _ => ⟨S64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17_0 : Ref sig .tc := ⟨.hbm, 31, rfl⟩
abbrev main_v17_1 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg3_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg2_0 : Ref sig .tc := ⟨.vmem, 30, rfl⟩
abbrev cc4_stg2_1 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg2_0 : Ref sig .tc := ⟨.vmem, 35, rfl⟩
abbrev cc5_stg2_1 : Ref sig .tc := ⟨.vmem, 36, rfl⟩
abbrev cc5_stg3_0 : Ref sig .tc := ⟨.vmem, 37, rfl⟩
abbrev cc5_stg4_0 : Ref sig .tc := ⟨.vmem, 38, rfl⟩
abbrev cc5_stg4_1 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg2_0 : Ref sig .tc := ⟨.vmem, 43, rfl⟩
abbrev cc6_stg3_0 : Ref sig .tc := ⟨.vmem, 44, rfl⟩
abbrev cc6_stg3_1 : Ref sig .tc := ⟨.vmem, 45, rfl⟩
abbrev cc7_stg0_0 : Ref sig .tc := ⟨.vmem, 46, rfl⟩
abbrev cc7_stg0_1 : Ref sig .tc := ⟨.vmem, 47, rfl⟩
abbrev cc7_stg1_0 : Ref sig .tc := ⟨.vmem, 48, rfl⟩
abbrev cc7_stg1_1 : Ref sig .tc := ⟨.vmem, 49, rfl⟩
abbrev cc7_stg2_0 : Ref sig .tc := ⟨.vmem, 50, rfl⟩
abbrev cc7_stg2_1 : Ref sig .tc := ⟨.vmem, 51, rfl⟩
abbrev cc7_stg3_0 : Ref sig .tc := ⟨.vmem, 52, rfl⟩
abbrev cc7_stg3_1 : Ref sig .tc := ⟨.vmem, 53, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem3_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem3_1 : DmaSem sig := 26
abbrev cc4_sem0_0 : DmaSem sig := 27
abbrev cc4_sem0_1 : DmaSem sig := 28
abbrev cc4_sem1_0 : DmaSem sig := 29
abbrev cc4_sem2_0 : DmaSem sig := 30
abbrev cc4_sem2_1 : DmaSem sig := 31
abbrev cc5_sem0_0 : DmaSem sig := 32
abbrev cc5_sem0_1 : DmaSem sig := 33
abbrev cc5_sem1_0 : DmaSem sig := 34
abbrev cc5_sem2_0 : DmaSem sig := 35
abbrev cc5_sem2_1 : DmaSem sig := 36
abbrev cc5_sem3_0 : DmaSem sig := 37
abbrev cc5_sem4_0 : DmaSem sig := 38
abbrev cc5_sem4_1 : DmaSem sig := 39
abbrev cc6_sem0_0 : DmaSem sig := 40
abbrev cc6_sem0_1 : DmaSem sig := 41
abbrev cc6_sem1_0 : DmaSem sig := 42
abbrev cc6_sem2_0 : DmaSem sig := 43
abbrev cc6_sem3_0 : DmaSem sig := 44
abbrev cc6_sem3_1 : DmaSem sig := 45
abbrev cc7_sem0_0 : DmaSem sig := 46
abbrev cc7_sem0_1 : DmaSem sig := 47
abbrev cc7_sem1_0 : DmaSem sig := 48
abbrev cc7_sem1_1 : DmaSem sig := 49
abbrev cc7_sem2_0 : DmaSem sig := 50
abbrev cc7_sem2_1 : DmaSem sig := 51
abbrev cc7_sem3_0 : DmaSem sig := 52
abbrev cc7_sem3_1 : DmaSem sig := 53

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x4160 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x4160 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x4160 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x4160 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x4160 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x65 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S65x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4096x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![16], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage3_0 : Fin 2 → Memref sig .tc .vmem S64x128x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S64x128x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S64x128x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S64x128x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![2], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S128x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S2048x4160 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S128x4160 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S256x2048 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S2048x4160 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S256x256 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S256x4160 .bf16 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S256x4160 .bf16 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![32], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4096x65 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S65x64 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S4096x64 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![16], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

def cc7_transform_1 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage7_0 : Fin 2 → Memref sig .tc .vmem S64x8192 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S64x8192 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S64x8192 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S64x8192 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

class Facts₀ : Prop where
  bitsLt_bf16_f32 : FTy.bits .bf16 < FTy.bits .f32
  shapeCasts_S64x131072_S64x2048x64 : S64x131072.ShapeCasts S64x2048x64
  shapeCasts_S64x2048_S64x2048x1 : S64x2048.ShapeCasts S64x2048x1
  concatenates_S64x2048x1_S64x2048x64_S64x2048x65_d2 : Shape.Concatenates [S64x2048x1, S64x2048x64] S64x2048x65 2
  transposes_S64x2048x65_S2048x64x65_1_0_2 : S64x2048x65.Transposes [1, 0, 2] S2048x64x65
  shapeCasts_S2048x64x65_S2048x4160 : S2048x64x65.ShapeCasts S2048x4160
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S2048x4160_S2048x4160_0_0 : ∀ a, (![0, 0] : Fin 2 → Nat) a + S2048x4160.size a ≤ S2048x4160.size a
  h_S2048x4160 : 0 < S2048x4160.numel
  shapeCasts_S2048x4160_S2048x4160 : S2048x4160.ShapeCasts S2048x4160
  inb_S128x4160_S128x4160_0_0 : ∀ a, (![0, 0] : Fin 2 → Nat) a + S128x4160.size a ≤ S128x4160.size a
  h_S128x4160 : 0 < S128x4160.numel
  packedbf16_S128x4160_S128x4160_0_0 : (Rect.unit (s := S128x4160) ![0, 0] S128x4160.size inb_S128x4160_S128x4160_0_0).PackedRows (EltTy.packing .bf16)
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x4160_S256x4160_0_0 : ∀ a, (![0, 0] : Fin 2 → Nat) a + S256x4160.size a ≤ S256x4160.size a
  h_S256x4160 : 0 < S256x4160.numel
  shapeCasts_S256x4160_S256x4160 : S256x4160.ShapeCasts S256x4160
  packedbf16_S256x4160_S256x4160_0_0 : (Rect.unit (s := S256x4160) ![0, 0] S256x4160.size inb_S256x4160_S256x4160_0_0).PackedRows (EltTy.packing .bf16)
  shapeCasts_S2048x4160_S131072x65 : S2048x4160.ShapeCasts S131072x65
  shapeCasts_S128_S1x128 : S128.ShapeCasts S1x128
  inb_S4096x65_S4096x65_0_0 : ∀ a, (![0, 0] : Fin 2 → Nat) a + S4096x65.size a ≤ S4096x65.size a
  h_S4096x65 : 0 < S4096x65.numel
  shapeCasts_S4096x65_S4096x65 : S4096x65.ShapeCasts S4096x65
  inb_S65x128_S65x128_0_0 : ∀ a, (![0, 0] : Fin 2 → Nat) a + S65x128.size a ≤ S65x128.size a
  h_S65x128 : 0 < S65x128.numel
  shapeCasts_S65x128_S65x128 : S65x128.ShapeCasts S65x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  inb_S4096x128_S4096x128_0_0 : ∀ a, (![0, 0] : Fin 2 → Nat) a + S4096x128.size a ≤ S4096x128.size a
  h_S4096x128 : 0 < S4096x128.numel
  packedbf16_S4096x128_S4096x128_0_0 : (Rect.unit (s := S4096x128) ![0, 0] S4096x128.size inb_S4096x128_S4096x128_0_0).PackedRows (EltTy.packing .bf16)
  shapeCasts_S131072x128_S2048x64x128 : S131072x128.ShapeCasts S2048x64x128
  transposes_S2048x64x128_S64x2048x128_1_0_2 : S2048x64x128.Transposes [1, 0, 2] S64x2048x128
  inb_S64x128x128_S64x128x128_0_0_0 : ∀ a, (![0, 0, 0] : Fin 3 → Nat) a + S64x128x128.size a ≤ S64x128x128.size a
  h_S64x128x128 : 0 < S64x128x128.numel
  shapeCasts_S64x128x128_S64x128x128 : S64x128x128.ShapeCasts S64x128x128
  slices_S64x128x128_o0_0_0_S64x128x64 : S64x128x128.Slices ![0, 0, 0] S64x128x64
  slices_S64x128x128_o0_0_64_S64x128x64 : S64x128x128.Slices ![0, 0, 64] S64x128x64
  inb_S64x128x64_S64x128x64_0_0_0 : ∀ a, (![0, 0, 0] : Fin 3 → Nat) a + S64x128x64.size a ≤ S64x128x64.size a
  h_S64x128x64 : 0 < S64x128x64.numel
  shapeCasts_S64x128x64_S64x128x64 : S64x128x64.ShapeCasts S64x128x64
  shapeCasts_S64_S1x64 : S64.ShapeCasts S1x64
  inb_S65x64_S65x64_0_0 : ∀ a, (![0, 0] : Fin 2 → Nat) a + S65x64.size a ≤ S65x64.size a
  h_S65x64 : 0 < S65x64.numel
  shapeCasts_S65x64_S65x64 : S65x64.ShapeCasts S65x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  inb_S4096x64_S4096x64_0_0 : ∀ a, (![0, 0] : Fin 2 → Nat) a + S4096x64.size a ≤ S4096x64.size a
  h_S4096x64 : 0 < S4096x64.numel
  packedbf16_S4096x64_S4096x64_0_0 : (Rect.unit (s := S4096x64) ![0, 0] S4096x64.size inb_S4096x64_S4096x64_0_0).PackedRows (EltTy.packing .bf16)
  shapeCasts_S131072x64_S2048x64x64 : S131072x64.ShapeCasts S2048x64x64
  transposes_S2048x64x64_S64x2048x64_1_0_2 : S2048x64x64.Transposes [1, 0, 2] S64x2048x64
  shapeCasts_S64x2048x64_S64x131072 : S64x2048x64.ShapeCasts S64x131072
  inb_S64x8192_S64x8192_0_0 : ∀ a, (![0, 0] : Fin 2 → Nat) a + S64x8192.size a ≤ S64x8192.size a
  h_S64x8192 : 0 < S64x8192.numel
  shapeCasts_S64x8192_S64x8192 : S64x8192.ShapeCasts S64x8192
  dot_S128x2048_S2048x4160_S128x4160_1_0_0_1_n_n_wf : DotDims.WF S128x2048 S2048x4160 S128x4160 [1] [0] [0] [1] [] []
  dot_S256x2048_S2048x4160_S256x4160_1_0_0_1_n_n_wf : DotDims.WF S256x2048 S2048x4160 S256x4160 [1] [0] [0] [1] [] []
  dot_S256x256_S256x4160_S256x4160_1_0_0_1_n_n_wf : DotDims.WF S256x256 S256x4160 S256x4160 [1] [0] [0] [1] [] []
  dot_S4096x65_S65x128_S4096x128_1_0_0_1_n_n_wf : DotDims.WF S4096x65 S65x128 S4096x128 [1] [0] [0] [1] [] []
  dot_S4096x65_S65x64_S4096x64_1_0_0_1_n_n_wf : DotDims.WF S4096x65 S65x64 S4096x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S256x2048.size a
  hwx0_0 : ∀ i : grid0.Coords, EltTy.bits .bf16 = 32 ∨ (Rect.block (s := S256x2048) S128x2048.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x4160.size a ≤ S2048x4160.size a
  hwx0_1 : ∀ i : grid0.Coords, EltTy.bits .bf16 = 32 ∨ (Rect.block (s := S2048x4160) S2048x4160.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x4160.size a ≤ S256x4160.size a
  hwx0_2 : ∀ i : grid0.Coords, EltTy.bits .bf16 = 32 ∨ (Rect.block (s := S256x4160) S128x4160.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x2048.size a ≤ S2048x2048.size a
  hwx1_0 : ∀ i : grid1.Coords, EltTy.bits .bf16 = 32 ∨ (Rect.block (s := S2048x2048) S256x2048.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x4160.size a ≤ S2048x4160.size a
  hwx1_1 : ∀ i : grid1.Coords, EltTy.bits .bf16 = 32 ∨ (Rect.block (s := S2048x4160) S2048x4160.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S2048x256.size a
  hwx1_2 : ∀ i : grid1.Coords, EltTy.bits .bf16 = 32 ∨ (Rect.block (s := S2048x256) S256x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x4160.size a ≤ S256x4160.size a
  hwx1_3 : ∀ i : grid1.Coords, EltTy.bits .bf16 = 32 ∨ (Rect.block (s := S256x4160) S256x4160.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x4160.size a ≤ S2048x4160.size a
  hwx1_4 : ∀ i : grid1.Coords, EltTy.bits .bf16 = 32 ∨ (Rect.block (s := S2048x4160) S256x4160.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x65.size a ≤ S131072x65.size a
  hwx2_0 : ∀ i : grid2.Coords, EltTy.bits .bf16 = 32 ∨ (Rect.block (s := S131072x65) S4096x65.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S65x128.size a ≤ S65x128.size a
  hwx2_1 : ∀ i : grid2.Coords, EltTy.bits .bf16 = 32 ∨ (Rect.block (s := S65x128) S65x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4096x128.size a ≤ S131072x128.size a
  hwx2_3 : ∀ i : grid2.Coords, EltTy.bits .bf16 = 32 ∨ (Rect.block (s := S131072x128) S4096x128.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S64x128x128.size a ≤ S64x2048x128.size a
  hwx3_0 : ∀ i : grid3.Coords, EltTy.bits .bf16 = 32 ∨ (Rect.block (s := S64x2048x128) S64x128x128.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S64x128x64.size a ≤ S64x2048x64.size a
  hwx3_1 : ∀ i : grid3.Coords, EltTy.bits .f32 = 32 ∨ (Rect.block (s := S64x2048x64) S64x128x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S64x128x64.size a ≤ S64x2048x64.size a
  hwx3_2 : ∀ i : grid3.Coords, EltTy.bits .f32 = 32 ∨ (Rect.block (s := S64x2048x64) S64x128x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S64x128x64.size a ≤ S64x2048x64.size a
  hwx3_3 : ∀ i : grid3.Coords, EltTy.bits .f32 = 32 ∨ (Rect.block (s := S64x2048x64) S64x128x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S128x2048.size a ≤ S256x2048.size a
  hwx4_0 : ∀ i : grid4.Coords, EltTy.bits .bf16 = 32 ∨ (Rect.block (s := S256x2048) S128x2048.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S2048x4160.size a ≤ S2048x4160.size a
  hwx4_1 : ∀ i : grid4.Coords, EltTy.bits .bf16 = 32 ∨ (Rect.block (s := S2048x4160) S2048x4160.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S128x4160.size a ≤ S256x4160.size a
  hwx4_2 : ∀ i : grid4.Coords, EltTy.bits .bf16 = 32 ∨ (Rect.block (s := S256x4160) S128x4160.size (cc4_transform_2 i) (hinb4_2 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S256x2048.size a ≤ S2048x2048.size a
  hwx5_0 : ∀ i : grid5.Coords, EltTy.bits .bf16 = 32 ∨ (Rect.block (s := S2048x2048) S256x2048.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S2048x4160.size a ≤ S2048x4160.size a
  hwx5_1 : ∀ i : grid5.Coords, EltTy.bits .bf16 = 32 ∨ (Rect.block (s := S2048x4160) S2048x4160.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S256x256.size a ≤ S2048x256.size a
  hwx5_2 : ∀ i : grid5.Coords, EltTy.bits .bf16 = 32 ∨ (Rect.block (s := S2048x256) S256x256.size (cc5_transform_2 i) (hinb5_2 i)).WholeWords (EltTy.packing .bf16)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S256x4160.size a ≤ S256x4160.size a
  hwx5_3 : ∀ i : grid5.Coords, EltTy.bits .bf16 = 32 ∨ (Rect.block (s := S256x4160) S256x4160.size (cc5_transform_3 i) (hinb5_3 i)).WholeWords (EltTy.packing .bf16)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S256x4160.size a ≤ S2048x4160.size a
  hwx5_4 : ∀ i : grid5.Coords, EltTy.bits .bf16 = 32 ∨ (Rect.block (s := S2048x4160) S256x4160.size (cc5_transform_4 i) (hinb5_4 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4096x65.size a ≤ S131072x65.size a
  hwx6_0 : ∀ i : grid6.Coords, EltTy.bits .bf16 = 32 ∨ (Rect.block (s := S131072x65) S4096x65.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S65x64.size a ≤ S65x64.size a
  hwx6_1 : ∀ i : grid6.Coords, EltTy.bits .bf16 = 32 ∨ (Rect.block (s := S65x64) S65x64.size (cc6_transform_1 i) (hinb6_1 i)).WholeWords (EltTy.packing .bf16)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S4096x64.size a ≤ S131072x64.size a
  hwx6_3 : ∀ i : grid6.Coords, EltTy.bits .bf16 = 32 ∨ (Rect.block (s := S131072x64) S4096x64.size (cc6_transform_3 i) (hinb6_3 i)).WholeWords (EltTy.packing .bf16)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S64x8192.size a ≤ S64x131072.size a
  hwx7_0 : ∀ i : grid7.Coords, EltTy.bits .bf16 = 32 ∨ (Rect.block (s := S64x131072) S64x8192.size (cc7_transform_0 i) (hinb7_0 i)).WholeWords (EltTy.packing .bf16)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S64x8192.size a ≤ S64x131072.size a
  hwx7_1 : ∀ i : grid7.Coords, EltTy.bits .f32 = 32 ∨ (Rect.block (s := S64x131072) S64x8192.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S64x8192.size a ≤ S64x131072.size a
  hwx7_2 : ∀ i : grid7.Coords, EltTy.bits .f32 = 32 ∨ (Rect.block (s := S64x131072) S64x8192.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S64x8192.size a ≤ S64x131072.size a
  hwx7_3 : ∀ i : grid7.Coords, EltTy.bits .f32 = 32 ∨ (Rect.block (s := S64x131072) S64x8192.size (cc7_transform_3 i) (hinb7_3 i)).WholeWords (EltTy.packing .f32)

variable [Facts₀]

def dot_S128x2048_S2048x4160_S128x4160_1_0_0_1_n_n : DotDims S128x2048 S2048x4160 S128x4160 where
  lhsContracting := [1]
  rhsContracting := [0]
  lhsNonContracting := [0]
  rhsNonContracting := [1]
  lhsBatch := []
  rhsBatch := []
  wf := dot_S128x2048_S2048x4160_S128x4160_1_0_0_1_n_n_wf
def dot_S256x2048_S2048x4160_S256x4160_1_0_0_1_n_n : DotDims S256x2048 S2048x4160 S256x4160 where
  lhsContracting := [1]
  rhsContracting := [0]
  lhsNonContracting := [0]
  rhsNonContracting := [1]
  lhsBatch := []
  rhsBatch := []
  wf := dot_S256x2048_S2048x4160_S256x4160_1_0_0_1_n_n_wf
def dot_S256x256_S256x4160_S256x4160_1_0_0_1_n_n : DotDims S256x256 S256x4160 S256x4160 where
  lhsContracting := [1]
  rhsContracting := [0]
  lhsNonContracting := [0]
  rhsNonContracting := [1]
  lhsBatch := []
  rhsBatch := []
  wf := dot_S256x256_S256x4160_S256x4160_1_0_0_1_n_n_wf
def dot_S4096x65_S65x128_S4096x128_1_0_0_1_n_n : DotDims S4096x65 S65x128 S4096x128 where
  lhsContracting := [1]
  rhsContracting := [0]
  lhsNonContracting := [0]
  rhsNonContracting := [1]
  lhsBatch := []
  rhsBatch := []
  wf := dot_S4096x65_S65x128_S4096x128_1_0_0_1_n_n_wf
def dot_S4096x65_S65x64_S4096x64_1_0_0_1_n_n : DotDims S4096x65 S65x64 S4096x64 where
  lhsContracting := [1]
  rhsContracting := [0]
  lhsNonContracting := [0]
  rhsNonContracting := [1]
  lhsBatch := []
  rhsBatch := []
  wf := dot_S4096x65_S65x64_S4096x64_1_0_0_1_n_n_wf

abbrev win0_0 : Pipeline.Window sig grid0 :=
  Pipeline.Window.ofSpec (Memref.whole main_v1) S128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S2048x4160.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S128x4160.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S256x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S2048x4160.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S256x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9) S256x4160.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v10) S256x4160.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v11) S4096x65.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S65x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v13) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v14) S4096x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v16) S64x128x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v3) S64x128x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v17_0) S64x128x64.size cc3_transform_2 reads3_2 true false 2 stage3_2 sem3_2
    hrank3 hreads3_2 hinb3_2 nbuf3_2 (Memref.isWhole_whole _) hwx3_2 hstage3_2

abbrev win3_3 : Pipeline.Window sig grid3 :=
  Pipeline.Window.ofSpec (Memref.whole main_v17_1) S64x128x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v1) S128x2048.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v21) S2048x4160.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v22) S128x4160.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v0) S256x2048.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v21) S2048x4160.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v2) S256x256.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v22) S256x4160.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v23) S256x4160.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v24) S4096x65.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v25) S65x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v26) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v27) S4096x64.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v30) S64x8192.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v31) S64x8192.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v32) S64x8192.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v33) S64x8192.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S64x2048 : Shape := ⟨2, ![64, 2048]⟩
abbrev S64x131072 : Shape := ⟨2, ![64, 131072]⟩
abbrev S2048x2048 : Shape := ⟨2, ![2048, 2048]⟩
abbrev S256x256 : Shape := ⟨2, ![256, 256]⟩
abbrev S256x2048 : Shape := ⟨2, ![256, 2048]⟩
abbrev S2048x256 : Shape := ⟨2, ![2048, 256]⟩
abbrev S65x128 : Shape := ⟨2, ![65, 128]⟩
abbrev S128 : Shape := ⟨1, ![128]⟩
abbrev S65x64 : Shape := ⟨2, ![65, 64]⟩
abbrev S64 : Shape := ⟨1, ![64]⟩
abbrev S64x2048x1 : Shape := ⟨3, ![64, 2048, 1]⟩
abbrev S64x2048x64 : Shape := ⟨3, ![64, 2048, 64]⟩
abbrev S64x2048x65 : Shape := ⟨3, ![64, 2048, 65]⟩
abbrev S2048x65x64 : Shape := ⟨3, ![2048, 65, 64]⟩
abbrev S2048x4160 : Shape := ⟨2, ![2048, 4160]⟩
abbrev S256x4160 : Shape := ⟨2, ![256, 4160]⟩
abbrev S_ : Shape := ⟨0, ![]⟩
abbrev S131072x65 : Shape := ⟨2, ![131072, 65]⟩
abbrev S131072x128 : Shape := ⟨2, ![131072, 128]⟩
abbrev S1x128 : Shape := ⟨2, ![1, 128]⟩
abbrev S256x65x64 : Shape := ⟨3, ![256, 65, 64]⟩
abbrev S64x256x65 : Shape := ⟨3, ![64, 256, 65]⟩
abbrev S16384x65 : Shape := ⟨2, ![16384, 65]⟩
abbrev S16384x128 : Shape := ⟨2, ![16384, 128]⟩
abbrev S64x2048x128 : Shape := ⟨3, ![64, 2048, 128]⟩
abbrev S64x256x128 : Shape := ⟨3, ![64, 256, 128]⟩
abbrev S131072x64 : Shape := ⟨2, ![131072, 64]⟩
abbrev S1x64 : Shape := ⟨2, ![1, 64]⟩
abbrev S16384x64 : Shape := ⟨2, ![16384, 64]⟩
abbrev S64x256x64 : Shape := ⟨3, ![64, 256, 64]⟩

abbrev nBuf : Space → Nat
  | .hbm => 123
  | .vmem => 0
  | .smem => 0
  | _ => 0

abbrev bufTy : (tb : Table) → Fin (tcTables nBuf tb) → BufTy
  | .hbm, ⟨0, _⟩ => ⟨S64x2048, .f32⟩
  | .hbm, ⟨1, _⟩ => ⟨S64x131072, .f32⟩
  | .hbm, ⟨2, _⟩ => ⟨S2048x2048, .f32⟩
  | .hbm, ⟨3, _⟩ => ⟨S256x256, .f32⟩
  | .hbm, ⟨4, _⟩ => ⟨S256x2048, .f32⟩
  | .hbm, ⟨5, _⟩ => ⟨S2048x256, .f32⟩
  | .hbm, ⟨6, _⟩ => ⟨S65x128, .f32⟩
  | .hbm, ⟨7, _⟩ => ⟨S128, .f32⟩
  | .hbm, ⟨8, _⟩ => ⟨S65x64, .f32⟩
  | .hbm, ⟨9, _⟩ => ⟨S64, .f32⟩
  | .hbm, ⟨10, _⟩ => ⟨S65x128, .f32⟩
  | .hbm, ⟨11, _⟩ => ⟨S128, .f32⟩
  | .hbm, ⟨12, _⟩ => ⟨S65x64, .f32⟩
  | .hbm, ⟨13, _⟩ => ⟨S64, .f32⟩
  | .hbm, ⟨14, _⟩ => ⟨S64x2048x1, .f32⟩
  | .hbm, ⟨15, _⟩ => ⟨S64x2048x64, .f32⟩
  | .hbm, ⟨16, _⟩ => ⟨S64x2048x65, .f32⟩
  | .hbm, ⟨17, _⟩ => ⟨S2048x65x64, .f32⟩
  | .hbm, ⟨18, _⟩ => ⟨S2048x4160, .f32⟩
  | .hbm, ⟨19, _⟩ => ⟨S256x4160, .f32⟩
  | .hbm, ⟨20, _⟩ => ⟨S2048x4160, .f32⟩
  | .hbm, ⟨21, _⟩ => ⟨S256x4160, .f32⟩
  | .hbm, ⟨22, _⟩ => ⟨S2048x4160, .f32⟩
  | .hbm, ⟨23, _⟩ => ⟨S2048x4160, .f32⟩
  | .hbm, ⟨24, _⟩ => ⟨S2048x4160, .f32⟩
  | .hbm, ⟨25, _⟩ => ⟨S_, .f32⟩
  | .hbm, ⟨26, _⟩ => ⟨S2048x4160, .f32⟩
  | .hbm, ⟨27, _⟩ => ⟨S2048x4160, .f32⟩
  | .hbm, ⟨28, _⟩ => ⟨S_, .f32⟩
  | .hbm, ⟨29, _⟩ => ⟨S2048x4160, .f32⟩
  | .hbm, ⟨30, _⟩ => ⟨S2048x4160, .f32⟩
  | .hbm, ⟨31, _⟩ => ⟨S2048x4160, .f32⟩
  | .hbm, ⟨32, _⟩ => ⟨S256x4160, .f32⟩
  | .hbm, ⟨33, _⟩ => ⟨S256x4160, .f32⟩
  | .hbm, ⟨34, _⟩ => ⟨S256x4160, .f32⟩
  | .hbm, ⟨35, _⟩ => ⟨S_, .f32⟩
  | .hbm, ⟨36, _⟩ => ⟨S256x4160, .f32⟩
  | .hbm, ⟨37, _⟩ => ⟨S256x4160, .f32⟩
  | .hbm, ⟨38, _⟩ => ⟨S_, .f32⟩
  | .hbm, ⟨39, _⟩ => ⟨S256x4160, .f32⟩
  | .hbm, ⟨40, _⟩ => ⟨S256x4160, .f32⟩
  | .hbm, ⟨41, _⟩ => ⟨S256x4160, .f32⟩
  | .hbm, ⟨42, _⟩ => ⟨S2048x65x64, .f32⟩
  | .hbm, ⟨43, _⟩ => ⟨S64x2048x65, .f32⟩
  | .hbm, ⟨44, _⟩ => ⟨S131072x65, .f32⟩
  | .hbm, ⟨45, _⟩ => ⟨S131072x128, .f32⟩
  | .hbm, ⟨46, _⟩ => ⟨S1x128, .f32⟩
  | .hbm, ⟨47, _⟩ => ⟨S131072x128, .f32⟩
  | .hbm, ⟨48, _⟩ => ⟨S131072x128, .f32⟩
  | .hbm, ⟨49, _⟩ => ⟨S256x65x64, .f32⟩
  | .hbm, ⟨50, _⟩ => ⟨S64x256x65, .f32⟩
  | .hbm, ⟨51, _⟩ => ⟨S16384x65, .f32⟩
  | .hbm, ⟨52, _⟩ => ⟨S16384x128, .f32⟩
  | .hbm, ⟨53, _⟩ => ⟨S1x128, .f32⟩
  | .hbm, ⟨54, _⟩ => ⟨S16384x128, .f32⟩
  | .hbm, ⟨55, _⟩ => ⟨S16384x128, .f32⟩
  | .hbm, ⟨56, _⟩ => ⟨S64x2048x128, .f32⟩
  | .hbm, ⟨57, _⟩ => ⟨S64x256x128, .f32⟩
  | .hbm, ⟨58, _⟩ => ⟨S64x2048x128, .f32⟩
  | .hbm, ⟨59, _⟩ => ⟨S64x2048x128, .f32⟩
  | .hbm, ⟨60, _⟩ => ⟨S_, .f32⟩
  | .hbm, ⟨61, _⟩ => ⟨S64x2048x128, .f32⟩
  | .hbm, ⟨62, _⟩ => ⟨S64x2048x128, .f32⟩
  | .hbm, ⟨63, _⟩ => ⟨S_, .f32⟩
  | .hbm, ⟨64, _⟩ => ⟨S64x2048x128, .f32⟩
  | .hbm, ⟨65, _⟩ => ⟨S64x2048x128, .f32⟩
  | .hbm, ⟨66, _⟩ => ⟨S64x2048x64, .f32⟩
  | .hbm, ⟨67, _⟩ => ⟨S64x2048x64, .f32⟩
  | .hbm, ⟨68, _⟩ => ⟨S64x131072, .f32⟩
  | .hbm, ⟨69, _⟩ => ⟨S64x131072, .f32⟩
  | .hbm, ⟨70, _⟩ => ⟨S64x131072, .f32⟩
  | .hbm, ⟨71, _⟩ => ⟨S64x2048x1, .f32⟩
  | .hbm, ⟨72, _⟩ => ⟨S64x2048x64, .f32⟩
  | .hbm, ⟨73, _⟩ => ⟨S64x2048x65, .f32⟩
  | .hbm, ⟨74, _⟩ => ⟨S2048x65x64, .f32⟩
  | .hbm, ⟨75, _⟩ => ⟨S2048x4160, .f32⟩
  | .hbm, ⟨76, _⟩ => ⟨S256x4160, .f32⟩
  | .hbm, ⟨77, _⟩ => ⟨S2048x4160, .f32⟩
  | .hbm, ⟨78, _⟩ => ⟨S256x4160, .f32⟩
  | .hbm, ⟨79, _⟩ => ⟨S2048x4160, .f32⟩
  | .hbm, ⟨80, _⟩ => ⟨S2048x4160, .f32⟩
  | .hbm, ⟨81, _⟩ => ⟨S2048x4160, .f32⟩
  | .hbm, ⟨82, _⟩ => ⟨S_, .f32⟩
  | .hbm, ⟨83, _⟩ => ⟨S2048x4160, .f32⟩
  | .hbm, ⟨84, _⟩ => ⟨S2048x4160, .f32⟩
  | .hbm, ⟨85, _⟩ => ⟨S_, .f32⟩
  | .hbm, ⟨86, _⟩ => ⟨S2048x4160, .f32⟩
  | .hbm, ⟨87, _⟩ => ⟨S2048x4160, .f32⟩
  | .hbm, ⟨88, _⟩ => ⟨S2048x4160, .f32⟩
  | .hbm, ⟨89, _⟩ => ⟨S256x4160, .f32⟩
  | .hbm, ⟨90, _⟩ => ⟨S256x4160, .f32⟩
  | .hbm, ⟨91, _⟩ => ⟨S256x4160, .f32⟩
  | .hbm, ⟨92, _⟩ => ⟨S_, .f32⟩
  | .hbm, ⟨93, _⟩ => ⟨S256x4160, .f32⟩
  | .hbm, ⟨94, _⟩ => ⟨S256x4160, .f32⟩
  | .hbm, ⟨95, _⟩ => ⟨S_, .f32⟩
  | .hbm, ⟨96, _⟩ => ⟨S256x4160, .f32⟩
  | .hbm, ⟨97, _⟩ => ⟨S256x4160, .f32⟩
  | .hbm, ⟨98, _⟩ => ⟨S256x4160, .f32⟩
  | .hbm, ⟨99, _⟩ => ⟨S2048x65x64, .f32⟩
  | .hbm, ⟨100, _⟩ => ⟨S64x2048x65, .f32⟩
  | .hbm, ⟨101, _⟩ => ⟨S131072x65, .f32⟩
  | .hbm, ⟨102, _⟩ => ⟨S131072x64, .f32⟩
  | .hbm, ⟨103, _⟩ => ⟨S1x64, .f32⟩
  | .hbm, ⟨104, _⟩ => ⟨S131072x64, .f32⟩
  | .hbm, ⟨105, _⟩ => ⟨S131072x64, .f32⟩
  | .hbm, ⟨106, _⟩ => ⟨S256x65x64, .f32⟩
  | .hbm, ⟨107, _⟩ => ⟨S64x256x65, .f32⟩
  | .hbm, ⟨108, _⟩ => ⟨S16384x65, .f32⟩
  | .hbm, ⟨109, _⟩ => ⟨S16384x64, .f32⟩
  | .hbm, ⟨110, _⟩ => ⟨S1x64, .f32⟩
  | .hbm, ⟨111, _⟩ => ⟨S16384x64, .f32⟩
  | .hbm, ⟨112, _⟩ => ⟨S16384x64, .f32⟩
  | .hbm, ⟨113, _⟩ => ⟨S64x2048x64, .f32⟩
  | .hbm, ⟨114, _⟩ => ⟨S64x256x64, .f32⟩
  | .hbm, ⟨115, _⟩ => ⟨S64x2048x64, .f32⟩
  | .hbm, ⟨116, _⟩ => ⟨S64x131072, .f32⟩
  | .hbm, ⟨117, _⟩ => ⟨S64x131072, .f32⟩
  | .hbm, ⟨118, _⟩ => ⟨S_, .f32⟩
  | .hbm, ⟨119, _⟩ => ⟨S64x131072, .f32⟩
  | .hbm, ⟨120, _⟩ => ⟨S64x131072, .f32⟩
  | .hbm, ⟨121, _⟩ => ⟨S64x131072, .f32⟩
  | .hbm, ⟨122, _⟩ => ⟨S64x131072, .f32⟩
  | _, _ => ⟨S64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_cst_0 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_1 : Ref sig .tc := ⟨.hbm, 35, rfl⟩
abbrev main_v19 : Ref sig .tc := ⟨.hbm, 36, rfl⟩
abbrev main_v20 : Ref sig .tc := ⟨.hbm, 37, rfl⟩
abbrev main_cst_2 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_3 : Ref sig .tc := ⟨.hbm, 60, rfl⟩
abbrev main_v42 : Ref sig .tc := ⟨.hbm, 61, rfl⟩
abbrev main_v43 : Ref sig .tc := ⟨.hbm, 62, rfl⟩
abbrev main_cst_4 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_5 : Ref sig .tc := ⟨.hbm, 82, rfl⟩
abbrev main_v62 : Ref sig .tc := ⟨.hbm, 83, rfl⟩
abbrev main_v63 : Ref sig .tc := ⟨.hbm, 84, rfl⟩
abbrev main_cst_6 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_7 : Ref sig .tc := ⟨.hbm, 92, rfl⟩
abbrev main_v70 : Ref sig .tc := ⟨.hbm, 93, rfl⟩
abbrev main_v71 : Ref sig .tc := ⟨.hbm, 94, rfl⟩
abbrev main_cst_8 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_cst_9 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩

abbrev nD : Nat := 1
abbrev τ : Topo := Topo.v7x

variable {F : FTy → Type} [FloatOps F]

class Facts₀ : Prop where
  shapeCasts_S64x2048_S64x2048x1 : S64x2048.ShapeCasts S64x2048x1
  shapeCasts_S64x131072_S64x2048x64 : S64x131072.ShapeCasts S64x2048x64
  concatenates_S64x2048x1_S64x2048x64_S64x2048x65_d2 : Shape.Concatenates [S64x2048x1, S64x2048x64] S64x2048x65 2
  transposes_S64x2048x65_S2048x65x64_1_2_0 : S64x2048x65.Transposes [1, 2, 0] S2048x65x64
  shapeCasts_S2048x65x64_S2048x4160 : S2048x65x64.ShapeCasts S2048x4160
  bcast_S_S2048x4160 : S_.BroadcastsInDim S2048x4160 (![] : Fin 0 → Fin S2048x4160.rank)
  bcast_S_S256x4160 : S_.BroadcastsInDim S256x4160 (![] : Fin 0 → Fin S256x4160.rank)
  shapeCasts_S2048x4160_S2048x65x64 : S2048x4160.ShapeCasts S2048x65x64
  transposes_S2048x65x64_S64x2048x65_2_0_1 : S2048x65x64.Transposes [2, 0, 1] S64x2048x65
  shapeCasts_S64x2048x65_S131072x65 : S64x2048x65.ShapeCasts S131072x65
  bcast_S128_S1x128_1 : S128.BroadcastsInDim S1x128 (![1] : Fin 1 → Fin S1x128.rank)
  bcast_S1x128_S131072x128_0_1 : S1x128.BroadcastsInDim S131072x128 (![0, 1] : Fin 2 → Fin S131072x128.rank)
  shapeCasts_S256x4160_S256x65x64 : S256x4160.ShapeCasts S256x65x64
  transposes_S256x65x64_S64x256x65_2_0_1 : S256x65x64.Transposes [2, 0, 1] S64x256x65
  shapeCasts_S64x256x65_S16384x65 : S64x256x65.ShapeCasts S16384x65
  bcast_S1x128_S16384x128_0_1 : S1x128.BroadcastsInDim S16384x128 (![0, 1] : Fin 2 → Fin S16384x128.rank)
  shapeCasts_S131072x128_S64x2048x128 : S131072x128.ShapeCasts S64x2048x128
  shapeCasts_S16384x128_S64x256x128 : S16384x128.ShapeCasts S64x256x128
  bcast_S_S64x2048x128 : S_.BroadcastsInDim S64x2048x128 (![] : Fin 0 → Fin S64x2048x128.rank)
  slices_S64x2048x128_S64x2048x64_0_0_0 : S64x2048x128.Slices ![0, 0, 0] S64x2048x64
  slices_S64x2048x128_S64x2048x64_0_0_64 : S64x2048x128.Slices ![0, 0, 64] S64x2048x64
  shapeCasts_S64x2048x64_S64x131072 : S64x2048x64.ShapeCasts S64x131072
  bcast_S64_S1x64_1 : S64.BroadcastsInDim S1x64 (![1] : Fin 1 → Fin S1x64.rank)
  bcast_S1x64_S131072x64_0_1 : S1x64.BroadcastsInDim S131072x64 (![0, 1] : Fin 2 → Fin S131072x64.rank)
  bcast_S1x64_S16384x64_0_1 : S1x64.BroadcastsInDim S16384x64 (![0, 1] : Fin 2 → Fin S16384x64.rank)
  shapeCasts_S131072x64_S64x2048x64 : S131072x64.ShapeCasts S64x2048x64
  shapeCasts_S16384x64_S64x256x64 : S16384x64.ShapeCasts S64x256x64
  bcast_S_S64x131072 : S_.BroadcastsInDim S64x131072 (![] : Fin 0 → Fin S64x131072.rank)
  dot_S256x2048_S2048x4160_S256x4160_1_0_0_1_n_n_wf : DotDims.WF S256x2048 S2048x4160 S256x4160 [1] [0] [0] [1] [] []
  dot_S2048x2048_S2048x4160_S2048x4160_1_0_0_1_n_n_wf : DotDims.WF S2048x2048 S2048x4160 S2048x4160 [1] [0] [0] [1] [] []
  dot_S256x256_S256x4160_S256x4160_1_0_0_1_n_n_wf : DotDims.WF S256x256 S256x4160 S256x4160 [1] [0] [0] [1] [] []
  dot_S2048x256_S256x4160_S2048x4160_1_0_0_1_n_n_wf : DotDims.WF S2048x256 S256x4160 S2048x4160 [1] [0] [0] [1] [] []
  dot_S131072x65_S65x128_S131072x128_1_0_0_1_n_n_wf : DotDims.WF S131072x65 S65x128 S131072x128 [1] [0] [0] [1] [] []
  dot_S16384x65_S65x128_S16384x128_1_0_0_1_n_n_wf : DotDims.WF S16384x65 S65x128 S16384x128 [1] [0] [0] [1] [] []
  dot_S131072x65_S65x64_S131072x64_1_0_0_1_n_n_wf : DotDims.WF S131072x65 S65x64 S131072x64 [1] [0] [0] [1] [] []
  dot_S16384x65_S65x64_S16384x64_1_0_0_1_n_n_wf : DotDims.WF S16384x65 S65x64 S16384x64 [1] [0] [0] [1] [] []

variable [Facts₀]

def dot_S256x2048_S2048x4160_S256x4160_1_0_0_1_n_n : DotDims S256x2048 S2048x4160 S256x4160 where
  lhsContracting := [1]
  rhsContracting := [0]
  lhsNonContracting := [0]
  rhsNonContracting := [1]
  lhsBatch := []
  rhsBatch := []
  wf := dot_S256x2048_S2048x4160_S256x4160_1_0_0_1_n_n_wf
def dot_S2048x2048_S2048x4160_S2048x4160_1_0_0_1_n_n : DotDims S2048x2048 S2048x4160 S2048x4160 where
  lhsContracting := [1]
  rhsContracting := [0]
  lhsNonContracting := [0]
  rhsNonContracting := [1]
  lhsBatch := []
  rhsBatch := []
  wf := dot_S2048x2048_S2048x4160_S2048x4160_1_0_0_1_n_n_wf
def dot_S256x256_S256x4160_S256x4160_1_0_0_1_n_n : DotDims S256x256 S256x4160 S256x4160 where
  lhsContracting := [1]
  rhsContracting := [0]
  lhsNonContracting := [0]
  rhsNonContracting := [1]
  lhsBatch := []
  rhsBatch := []
  wf := dot_S256x256_S256x4160_S256x4160_1_0_0_1_n_n_wf
def dot_S2048x256_S256x4160_S2048x4160_1_0_0_1_n_n : DotDims S2048x256 S256x4160 S2048x4160 where
  lhsContracting := [1]
  rhsContracting := [0]
  lhsNonContracting := [0]
  rhsNonContracting := [1]
  lhsBatch := []
  rhsBatch := []
  wf := dot_S2048x256_S256x4160_S2048x4160_1_0_0_1_n_n_wf
def dot_S131072x65_S65x128_S131072x128_1_0_0_1_n_n : DotDims S131072x65 S65x128 S131072x128 where
  lhsContracting := [1]
  rhsContracting := [0]
  lhsNonContracting := [0]
  rhsNonContracting := [1]
  lhsBatch := []
  rhsBatch := []
  wf := dot_S131072x65_S65x128_S131072x128_1_0_0_1_n_n_wf
def dot_S16384x65_S65x128_S16384x128_1_0_0_1_n_n : DotDims S16384x65 S65x128 S16384x128 where
  lhsContracting := [1]
  rhsContracting := [0]
  lhsNonContracting := [0]
  rhsNonContracting := [1]
  lhsBatch := []
  rhsBatch := []
  wf := dot_S16384x65_S65x128_S16384x128_1_0_0_1_n_n_wf
def dot_S131072x65_S65x64_S131072x64_1_0_0_1_n_n : DotDims S131072x65 S65x64 S131072x64 where
  lhsContracting := [1]
  rhsContracting := [0]
  lhsNonContracting := [0]
  rhsNonContracting := [1]
  lhsBatch := []
  rhsBatch := []
  wf := dot_S131072x65_S65x64_S131072x64_1_0_0_1_n_n_wf
def dot_S16384x65_S65x64_S16384x64_1_0_0_1_n_n : DotDims S16384x65 S65x64 S16384x64 where
  lhsContracting := [1]
  rhsContracting := [0]
  lhsNonContracting := [0]
  rhsNonContracting := [1]
  lhsBatch := []
  rhsBatch := []
  wf := dot_S16384x65_S65x64_S16384x64_1_0_0_1_n_n_wf

class Facts : Prop extends Facts₀ where

variable [Facts]
-- ==== Proof.KRun.lean ====
/-
  The idealized kernel's run with its RESULT named: from any memory with zero counters every weakly fair execution of
  the entry point terminates, nothing faulting; the result array ends holding what the last of the fourteen segment
  boundaries says it holds (the fold of buffer contents through the host stretches and the eight kernel calls), and the
  argument arrays end as launched. The run is the launch over the program's segments; the final thread state holds
  every unscoped buffer at the last boundary's contents, and the result array is one of them.
-/
import proofs.«130559_j17334488007012_2_alg».proof.Proof.Gen.KernelIdeal.Frame

set_option maxRecDepth 16384

noncomputable section

namespace GcGru.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, the result array at the last boundary's contents and every argument array as launched. -/
theorem run : θ_run defs (onTc (τ := τ) (main (F := F))) ⟨m, fun _ => 0, ρ⟩ (fun r => ∀ c : Dev nD,
      r.2.mem ((c.tc : Thread nD τ).loc main_v33) = W14 m ρ c (Proc.devRef .tc main_v33)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v33 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c),
       (h c _ (mem_uc main_arg13 (by decide))).trans (W14_main_arg13 m ρ c)⟩)

end GcGru.KRun

end
-- ==== Proof.Spec.lean ====
/-
  The mathematics both programs compute, stated once on coordinates, at the exact instance (extended reals).

  A graph-convolutional GRU step on a fine graph of 2048 nodes with a coarse graph of 256 nodes, batch 64,
  64 hidden units. A node's feature vector has 65 slots: its input value in slot 0, then 64 hidden values.
  One graph convolution `gc` of features `x`:
    coarse c b f = Σ_k afc[c,k] · x b k f                                  (fine → coarse pooling)
    fine   n b f = Σ_k adj[n,k] · x b k f + σ(Σ_c afct[n,c] · coarse c b f)   (σ the logistic function)
    lin    b n o = Σ_f fine n b f · w[f,o] + bias[o]
  The step: gates r, u = σ of the two halves of gc(state); candidate c = tanh(gc(r · state));
  new state = u · state + (1 − u) · c.
  Every sum is over the same index in the same order on both sides, and every product has its factors in the
  same order, so no law of the extended reals is needed to join them: only the relabeling of indices.
-/
import Idealize.ShloMosaic.PureOps.Ideal
import Idealize.ShloMosaic.Lib.ValueIdx

noncomputable section

namespace GcGru

open Idealize.ShloMosaic Idealize.ShloMosaic.ValueIdx
open scoped BigOperators

/-- A rank-2 array of extended reals. -/
abbrev Arr2 (a b : Nat) := (⟨2, ![a, b]⟩ : Shape).Idx → EReal
/-- A rank-1 array of extended reals. -/
abbrev Arr1 (a : Nat) := (⟨1, ![a]⟩ : Shape).Idx → EReal
/-- A field on (batch, node, slot). -/
abbrev Field (k : Nat) := Fin 64 → Fin 2048 → Fin k → EReal

/-- The flat position of hidden unit `u` of node `n` in a row of the state array: `n · 64 + u`. -/
def flat (n : Fin 2048) (u : Fin 64) : Fin 131072 := ⟨n.val * 64 + u.val, by have := n.isLt; have := u.isLt; omega⟩

/-- The state array read at (batch, node, unit). -/
def st3 (st : Arr2 64 131072) : Field 64 := fun b n u => st (ix2 b (flat n u))

/-- A node's 65 features: its input in slot 0, then the 64 values of `s`. -/
def feat (inp : Arr2 64 2048) (s : Field 64) : Field 65 := fun b n f =>
  if h : f.val = 0 then inp (ix2 b n) else s b n ⟨f.val - 1, by have := f.isLt; omega⟩

/-- Pooling to the coarse graph: `Σ_k afc[c,k] · x b k f`. -/
def coarse (afc : Arr2 256 2048) (x : Field 65) (c : Fin 256) (b : Fin 64) (f : Fin 65) : EReal :=
  ∑ k : Fin 2048, afc (ix2 c k) * x b k f

/-- The fine graph's convolution plus the logistic of what comes back from the coarse graph. -/
def fine (adj : Arr2 2048 2048) (afct : Arr2 2048 256) (x : Field 65) (y : Fin 256 → Fin 64 → Fin 65 → EReal)
    (n : Fin 2048) (b : Fin 64) (f : Fin 65) : EReal :=
  (∑ k : Fin 2048, adj (ix2 n k) * x b k f) + Ideal.logistic (∑ c : Fin 256, afct (ix2 n c) * y c b f)

/-- The linear layer on a node's 65 features: `Σ_f z n b f · w[f,o] + bias[o]`. -/
def lin {Fo : Nat} (w : Arr2 65 Fo) (bias : Arr1 Fo) (z : Fin 2048 → Fin 64 → Fin 65 → EReal) : Field Fo := fun b n o =>
  (∑ f : Fin 65, z n b f * w (ix2 f o)) + bias (ix1 o)

/-- One graph convolution of the features built from the input and `s`. -/
def gc {Fo : Nat} (inp : Arr2 64 2048) (adj : Arr2 2048 2048) (afc : Arr2 256 2048) (afct : Arr2 2048 256)
    (w : Arr2 65 Fo) (bias : Arr1 Fo) (s : Field 64) : Field Fo :=
  lin w bias (fine adj afct (feat inp s) (coarse afc (feat inp s)))

/-- The lower half of 128 slots. -/
def lo (u : Fin 64) : Fin 128 := ⟨u.val, by have := u.isLt; omega⟩
/-- The upper half of 128 slots. -/
def hi (u : Fin 64) : Fin 128 := ⟨64 + u.val, by have := u.isLt; omega⟩

section Step
variable (inp : Arr2 64 2048) (st : Arr2 64 131072) (adj : Arr2 2048 2048) (afc : Arr2 256 2048) (afct : Arr2 2048 256)
  (w0 : Arr2 65 128) (b0 : Arr1 128) (w1 : Arr2 65 64) (b1 : Arr1 64)

/-- The gates' pre-activation: the convolution of the state, 128 slots per node. -/
def pre : Field 128 := gc inp adj afc afct w0 b0 (st3 st)
/-- The reset gate. -/
def gateR : Field 64 := fun b n u => Ideal.logistic (pre inp st adj afc afct w0 b0 b n (lo u))
/-- The update gate. -/
def gateU : Field 64 := fun b n u => Ideal.logistic (pre inp st adj afc afct w0 b0 b n (hi u))
/-- The reset state `r · state`. -/
def rst : Field 64 := fun b n u => gateR inp st adj afc afct w0 b0 b n u * st3 st b n u
/-- The candidate's pre-activation: the convolution of the reset state. -/
def cand : Field 64 := gc inp adj afc afct w1 b1 (rst inp st adj afc afct w0 b0)
/-- The new state at (batch, node, unit): `u · state + (1 − u) · tanh(candidate)`; the literal is the word of 1.0. -/
def newAt : Field 64 := fun b n u =>
  gateU inp st adj afc afct w0 b0 b n u * st3 st b n u
    + (Ideal.ofBits .f32 0x3F800000#32 - gateU inp st adj afc afct w0 b0 b n u)
      * Ideal.tanh (cand inp st adj afc afct w0 b0 w1 b1 b n u)
end Step

/-! ## What each kernel call leaves in its result array, as one function of the arrays it reads -/

/-- A rank-3 array of extended reals. -/
abbrev Arr3 (a b c : Nat) := (⟨3, ![a, b, c]⟩ : Shape).Idx → EReal

/-- A matrix product read at an entry: `Σ_k a[p,k] · x[k,q]`. -/
def mm {A K C : Nat} (a : Arr2 A K) (x : Arr2 K C) : Arr2 A C := fun i => ∑ k : Fin K, a (ix2 (i 0) k) * x (ix2 k (i 1))

/-- The fine convolution on whole arrays: `adj · x + σ(afct · y)`. -/
def comb (adj : Arr2 2048 2048) (x : Arr2 2048 4160) (afct : Arr2 2048 256) (y : Arr2 256 4160) : Arr2 2048 4160 := fun i =>
  mm adj x i + Ideal.logistic (mm afct y i)

/-- The linear layer on whole arrays: `xf · w + bias`, the bias a single row. -/
def affine {Fo : Nat} (xf : Arr2 131072 65) (w : Arr2 65 Fo) (bias : Arr2 1 Fo) : Arr2 131072 Fo := fun i =>
  mm xf w i + bias (ix2 0 (i 1))

/-- The reset state on whole arrays: the logistic of the lower 64 slots, times the state. -/
def resetState (v : Arr3 64 2048 128) (s : Arr3 64 2048 64) : Arr3 64 2048 64 := fun i =>
  Ideal.logistic (v (ix3 (i 0) (i 1) (lo (i 2)))) * s i

/-- The update gate on whole arrays: the logistic of the upper 64 slots. -/
def updateGate (v : Arr3 64 2048 128) : Arr3 64 2048 64 := fun i =>
  Ideal.logistic (v (ix3 (i 0) (i 1) (hi (i 2))))

/-- The blend on whole arrays: `u · s + (1 − u) · tanh(c)`; the literal is the word of 1.0. -/
def blend (c u s : Arr2 64 131072) : Arr2 64 131072 := fun i =>
  u i * s i + (Ideal.ofBits .f32 0x3F800000#32 - u i) * Ideal.tanh (c i)

/-- Every flat position is `flat n u` for its node and unit. -/
theorem flat_surj (q : Fin 131072) : ∃ n u, q = flat n u :=
  ⟨⟨q.val / 64, by have := q.isLt; omega⟩, ⟨q.val % 64, Nat.mod_lt _ (by norm_num)⟩, Fin.ext (by show q.val = q.val / 64 * 64 + q.val % 64; omega)⟩

/-- Two [64, 131072] arrays that agree at every (batch, node, unit) are equal. -/
theorem ext_bnu {A B : Arr2 64 131072} (h : ∀ b n u, A (ix2 b (flat n u)) = B (ix2 b (flat n u))) : A = B := by
  funext i
  obtain ⟨n, u, hq⟩ := flat_surj (i 1)
  rw [eq_ix2 i, hq]
  exact h (i 0) n u

end GcGru

end
-- ==== Proof.Layout.lean ====
/-
  Layout operations read at an index built from coordinates, for the relabelings this certificate meets:
  a reshape that splits or merges two neighbouring axes (the flat position is `outer · inner-extent + inner`),
  the transposition of the first two of three axes, and a two-piece join along the last of three axes.
  All are statements about which entry of the operand an entry of the result is; none does arithmetic on values.
-/
import Idealize.ShloMosaic.Lib.Pipeline.Value
import Idealize.ShloMosaic.Lib.ValueIdx

noncomputable section

namespace GcGru.Layout

open Idealize.ShloMosaic Idealize.ShloMosaic.ValueIdx

variable {α : Type}

/-- Merging the last two of three axes: entry `(a, q)` with `q = b · C + c` is the operand's `(a, b, c)`. -/
theorem merge_last {A B C D : ℕ} (x : (⟨3, ![A, B, C]⟩ : Shape).Idx → α)
    (h : (⟨3, ![A, B, C]⟩ : Shape).ShapeCasts ⟨2, ![A, D]⟩) (hD : D = B * C)
    (a : Fin A) (b : Fin B) (c : Fin C) (q : Fin D) (hq : q.val = b.val * C + c.val) :
    shapeCast ⟨2, ![A, D]⟩ x h (ix2 a q) = x (ix3 a b c) :=
  shapeCast_apply x h _ _ (by
    rw [Shape.rowMajor_val_two, Shape.rowMajor_val_three]
    show (a.val * B + b.val) * C + c.val = a.val * D + q.val
    rw [hq, hD]; ring)

/-- Splitting the last of two axes in two: entry `(a, b, c)` is the operand's `(a, q)` with `q = b · C + c`. -/
theorem split_last {A B C D : ℕ} (x : (⟨2, ![A, D]⟩ : Shape).Idx → α)
    (h : (⟨2, ![A, D]⟩ : Shape).ShapeCasts ⟨3, ![A, B, C]⟩) (hD : D = B * C)
    (a : Fin A) (b : Fin B) (c : Fin C) (q : Fin D) (hq : q.val = b.val * C + c.val) :
    shapeCast ⟨3, ![A, B, C]⟩ x h (ix3 a b c) = x (ix2 a q) :=
  shapeCast_apply x h _ _ (by
    rw [Shape.rowMajor_val_two, Shape.rowMajor_val_three]
    show a.val * D + q.val = (a.val * B + b.val) * C + c.val
    rw [hq, hD]; ring)

/-- Merging the first two of three axes: entry `(p, c)` with `p = a · B + b` is the operand's `(a, b, c)`. -/
theorem merge_first {A B C D : ℕ} (x : (⟨3, ![A, B, C]⟩ : Shape).Idx → α)
    (h : (⟨3, ![A, B, C]⟩ : Shape).ShapeCasts ⟨2, ![D, C]⟩)
    (a : Fin A) (b : Fin B) (c : Fin C) (p : Fin D) (hp : p.val = a.val * B + b.val) :
    shapeCast ⟨2, ![D, C]⟩ x h (ix2 p c) = x (ix3 a b c) :=
  shapeCast_apply x h _ _ (by
    rw [Shape.rowMajor_val_two, Shape.rowMajor_val_three]
    show (a.val * B + b.val) * C + c.val = p.val * C + c.val
    rw [hp])

/-- Splitting the first of two axes in two: entry `(a, b, c)` is the operand's `(p, c)` with `p = a · B + b`. -/
theorem split_first {A B C D : ℕ} (x : (⟨2, ![D, C]⟩ : Shape).Idx → α)
    (h : (⟨2, ![D, C]⟩ : Shape).ShapeCasts ⟨3, ![A, B, C]⟩)
    (a : Fin A) (b : Fin B) (c : Fin C) (p : Fin D) (hp : p.val = a.val * B + b.val) :
    shapeCast ⟨3, ![A, B, C]⟩ x h (ix3 a b c) = x (ix2 p c) :=
  shapeCast_apply x h _ _ (by
    rw [Shape.rowMajor_val_two, Shape.rowMajor_val_three]
    show p.val * C + c.val = (a.val * B + b.val) * C + c.val
    rw [hp])

/-- Moving the cut between two axes: entry `(p, c)` of `[A·B, C]` with `p = a · B + b` is the operand's `(a, q)`
    of `[A, B·C]` with `q = b · C + c`. -/
theorem recut {A B C D E : ℕ} (x : (⟨2, ![A, E]⟩ : Shape).Idx → α)
    (h : (⟨2, ![A, E]⟩ : Shape).ShapeCasts ⟨2, ![D, C]⟩) (hE : E = B * C)
    (a : Fin A) (b : Fin B) (c : Fin C) (p : Fin D) (q : Fin E)
    (hp : p.val = a.val * B + b.val) (hq : q.val = b.val * C + c.val) :
    shapeCast ⟨2, ![D, C]⟩ x h (ix2 p c) = x (ix2 a q) :=
  shapeCast_apply x h _ _ (by
    rw [Shape.rowMajor_val_two, Shape.rowMajor_val_two]
    show a.val * E + q.val = p.val * C + c.val
    rw [hp, hq, hE]; ring)

/-- Adding a trailing unit axis: entry `(a, b, 0)` is the operand's `(a, b)`. -/
theorem add_unit_last {A B : ℕ} (x : (⟨2, ![A, B]⟩ : Shape).Idx → α)
    (h : (⟨2, ![A, B]⟩ : Shape).ShapeCasts ⟨3, ![A, B, 1]⟩) (a : Fin A) (b : Fin B) (z : Fin 1) :
    shapeCast ⟨3, ![A, B, 1]⟩ x h (ix3 a b z) = x (ix2 a b) :=
  shapeCast_apply x h _ _ (by
    have hz : z.val = 0 := by omega
    rw [Shape.rowMajor_val_two, Shape.rowMajor_val_three]
    show a.val * B + b.val = (a.val * B + b.val) * 1 + z.val
    rw [hz]; ring)

/-- Exchanging the first two of three axes: entry `(b, a, c)` is the operand's `(a, b, c)`. -/
theorem swap01 {A B C : ℕ} (x : (⟨3, ![A, B, C]⟩ : Shape).Idx → α)
    (h : (⟨3, ![A, B, C]⟩ : Shape).Transposes [1, 0, 2] ⟨3, ![B, A, C]⟩) (a : Fin A) (b : Fin B) (c : Fin C) :
    transpose ⟨3, ![B, A, C]⟩ [1, 0, 2] x h (ix3 b a c) = x (ix3 a b c) :=
  transpose_apply _ x h _ _ fun d => match d with | ⟨0, _⟩ => rfl | ⟨1, _⟩ => rfl | ⟨2, _⟩ => rfl

/-- A one-slot piece joined before an `N`-slot piece along the last axis, read in slot 0: the first piece. -/
theorem join_head {A B N M : ℕ} (x₁ : (⟨3, ![A, B, 1]⟩ : Shape).Idx → α) (x₂ : (⟨3, ![A, B, N]⟩ : Shape).Idx → α)
    (h : Shape.Concatenates [⟨3, ![A, B, 1]⟩, ⟨3, ![A, B, N]⟩] ⟨3, ![A, B, M]⟩ (2 : Fin 3))
    (a : Fin A) (b : Fin B) (f : Fin M) (hf : f.val = 0) :
    concatenate ⟨3, ![A, B, M]⟩ (2 : Fin 3) [⟨⟨3, ![A, B, 1]⟩, x₁⟩, ⟨⟨3, ![A, B, N]⟩, x₂⟩] h (ix3 a b f) = x₁ (ix3 a b (0 : Fin 1)) :=
  concatenate_pair_apply_left (t := ⟨3, ![A, B, M]⟩) (2 : Fin 3) x₁ x₂ h (ix3 a b f) rfl (ix3 a b (0 : Fin 1)) fun d => match d with
    | ⟨0, _⟩ => rfl | ⟨1, _⟩ => rfl | ⟨2, _⟩ => (show (0 : Fin 1).val = f.val from hf.symm)

/-- The same join read in slot `f ≥ 1`: the second piece's slot `f − 1`. -/
theorem join_tail {A B N M : ℕ} (x₁ : (⟨3, ![A, B, 1]⟩ : Shape).Idx → α) (x₂ : (⟨3, ![A, B, N]⟩ : Shape).Idx → α)
    (h : Shape.Concatenates [⟨3, ![A, B, 1]⟩, ⟨3, ![A, B, N]⟩] ⟨3, ![A, B, M]⟩ (2 : Fin 3))
    (a : Fin A) (b : Fin B) (f : Fin M) (g : Fin N) (hg : g.val + 1 = f.val) :
    concatenate ⟨3, ![A, B, M]⟩ (2 : Fin 3) [⟨⟨3, ![A, B, 1]⟩, x₁⟩, ⟨⟨3, ![A, B, N]⟩, x₂⟩] h (ix3 a b f) = x₂ (ix3 a b g) :=
  concatenate_pair_apply_right (t := ⟨3, ![A, B, M]⟩) (2 : Fin 3) x₁ x₂ h (ix3 a b f) rfl rfl (ix3 a b g)
    (fun d hd => match d, hd with
      | ⟨0, _⟩, _ => rfl | ⟨1, _⟩, _ => rfl | ⟨2, _⟩, hd => absurd rfl hd)
    (show g.val + 1 = f.val from hg)

end GcGru.Layout

end
-- ==== Proof.Host.lean ====
/-
  What the kernel's host stretches write, read at indices built from coordinates (exact instance).
  The kernel lays a node's features out batch-major: column `b · 65 + f` of the feature matrix is feature `f` of
  batch `b`; its linear layers run on rows `n · 64 + b`. A change of float format is the identity here, so a converted
  array is the array. Each statement says which entry of an earlier buffer an entry of a stretch's result is.
-/
import proofs.«130559_j17334488007012_2_alg».proof.Proof.Gen.KernelIdeal.Frame
import proofs.«130559_j17334488007012_2_alg».proof.Proof.Spec
import proofs.«130559_j17334488007012_2_alg».proof.Proof.Layout
import Idealize.ShloMosaic.Lib.StableHlo.Run
import Idealize.ShloMosaic.Lib.ValueLayout
import Idealize.ShloMosaic.PureOps.Ideal

set_option maxRecDepth 16384

noncomputable section

namespace GcGru

open Idealize.ShloMosaic Idealize.ShloMosaic.ValueIdx

/-- The kernel's column of (batch, feature): `b · 65 + f`. -/
def colK (b : Fin 64) (f : Fin 65) : Fin 4160 := ⟨b.val * 65 + f.val, by have := b.isLt; have := f.isLt; omega⟩
/-- The kernel's row of (node, batch): `n · 64 + b`. -/
def rowK (n : Fin 2048) (b : Fin 64) : Fin 131072 := ⟨n.val * 64 + b.val, by have := n.isLt; have := b.isLt; omega⟩

namespace Host

open Cert.KernelIdeal Cert.KernelIdeal.Gen
open Idealize.ShloMosaic.TcCoe Idealize.SL.Sem Idealize.ShloMosaic.StableHlo

/-- The feature matrix built from an input piece `[64,2048,1]` and a hidden piece `[64,2048,64]`: joined along the
    slot axis, the batch and node axes exchanged, batch and slot merged into one column axis. -/
def featArr (a4 : S64x2048x1.Idx → EReal) (a3 : S64x2048x64.Idx → EReal) : S2048x4160.Idx → EReal :=
  truncf (F := Ideal) .bf16 (shapeCast S2048x4160 (transpose S2048x64x65 [1, 0, 2]
    (concatenate S64x2048x65 2 [⟨S64x2048x1, a4⟩, ⟨S64x2048x64, a3⟩] concatenates_S64x2048x1_S64x2048x64_S64x2048x65_d2)
    transposes_S64x2048x65_S2048x64x65_1_0_2) shapeCasts_S2048x64x65_S2048x4160) bitsLt_bf16_f32

/-- Its entry at node `n`, column `b · 65 + f` is feature `f` of (batch `b`, node `n`). -/
theorem featArr_apply (a4 : S64x2048x1.Idx → EReal) (a3 : S64x2048x64.Idx → EReal) (inp : Arr2 64 2048) (s : Field 64)
    (h4 : ∀ b n z, a4 (ix3 b n z) = inp (ix2 b n)) (h3 : ∀ b n u, a3 (ix3 b n u) = s b n u)
    (n : Fin 2048) (b : Fin 64) (f : Fin 65) : featArr a4 a3 (ix2 n (colK b f)) = feat inp s b n f := by
  unfold featArr
  show (shapeCast S2048x4160 (transpose S2048x64x65 [1, 0, 2]
    (concatenate S64x2048x65 2 [⟨S64x2048x1, a4⟩, ⟨S64x2048x64, a3⟩] concatenates_S64x2048x1_S64x2048x64_S64x2048x65_d2)
    transposes_S64x2048x65_S2048x64x65_1_0_2) shapeCasts_S2048x64x65_S2048x4160 : S2048x4160.Idx → EReal) (ix2 n (colK b f)) = _
  refine (Layout.merge_last _ _ (by norm_num) n b f (colK b f) rfl).trans ?_
  refine (Layout.swap01 _ _ b n f).trans ?_
  unfold feat
  by_cases hf : f.val = 0
  · rw [dif_pos hf]
    exact (Layout.join_head a4 a3 _ b n f hf).trans (h4 b n 0)
  · rw [dif_neg hf]
    exact (Layout.join_tail a4 a3 _ b n f ⟨f.val - 1, by have := f.isLt; omega⟩ (by show f.val - 1 + 1 = f.val; omega)).trans (h3 b n _)

variable (m : (ℓ : Loc nD τ sig) → Buf (Elt Ideal) ℓ) (ρ : Dev nD → PrngReg) (c : Dev nD)

/-! ## The first stretch: conversions, the state and input re-laid, the first feature matrix -/

theorem W1_v0 : (W1 m ρ c (Proc.devRef .tc main_v0) : S2048x2048.Idx → EReal) = m ((c : Thread nD τ).loc main_arg2) := by
  show StableHlo.after hostOps0 (W0 m ρ c) (Proc.devRef .tc main_v0) = _
  after_results
  rfl
theorem W1_v1 : (W1 m ρ c (Proc.devRef .tc main_v1) : S256x2048.Idx → EReal) = m ((c : Thread nD τ).loc main_arg4) := by
  show StableHlo.after hostOps0 (W0 m ρ c) (Proc.devRef .tc main_v1) = _
  after_results
  rfl
theorem W1_v2 : (W1 m ρ c (Proc.devRef .tc main_v2) : S2048x256.Idx → EReal) = m ((c : Thread nD τ).loc main_arg5) := by
  show StableHlo.after hostOps0 (W0 m ρ c) (Proc.devRef .tc main_v2) = _
  after_results
  rfl

/-- The state as (batch, node, unit). -/
theorem W1_v3 (b : Fin 64) (n : Fin 2048) (u : Fin 64) :
    (W1 m ρ c (Proc.devRef .tc main_v3) : S64x2048x64.Idx → EReal) (ix3 b n u) = st3 (m ((c : Thread nD τ).loc main_arg1)) b n u := by
  have e : (W1 m ρ c (Proc.devRef .tc main_v3) : S64x2048x64.Idx → EReal)
      = shapeCast S64x2048x64 (m ((c : Thread nD τ).loc main_arg1) : S64x131072.Idx → EReal) shapeCasts_S64x131072_S64x2048x64 := by
    show StableHlo.after hostOps0 (W0 m ρ c) (Proc.devRef .tc main_v3) = _
    after_results
    rfl
  rw [e]
  exact Layout.split_last _ _ (by norm_num) b n u (flat n u) rfl

/-- The input as (batch, node, 1). -/
theorem W1_v4 (b : Fin 64) (n : Fin 2048) (z : Fin 1) :
    (W1 m ρ c (Proc.devRef .tc main_v4) : S64x2048x1.Idx → EReal) (ix3 b n z) = (m ((c : Thread nD τ).loc main_arg0) : S64x2048.Idx → EReal) (ix2 b n) := by
  have e : (W1 m ρ c (Proc.devRef .tc main_v4) : S64x2048x1.Idx → EReal)
      = shapeCast S64x2048x1 (m ((c : Thread nD τ).loc main_arg0) : S64x2048.Idx → EReal) shapeCasts_S64x2048_S64x2048x1 := by
    show StableHlo.after hostOps0 (W0 m ρ c) (Proc.devRef .tc main_v4) = _
    after_results
    rfl
  rw [e]
  exact Layout.add_unit_last _ _ b n z

/-- The first feature matrix is the feature construction of those two pieces. -/
theorem W1_v8 : (W1 m ρ c (Proc.devRef .tc main_v8) : S2048x4160.Idx → EReal)
    = featArr (W1 m ρ c (Proc.devRef .tc main_v4)) (W1 m ρ c (Proc.devRef .tc main_v3)) := by
  show StableHlo.after hostOps0 (W0 m ρ c) (Proc.devRef .tc main_v8) = _
  after_results
  rfl

/-! ## Before a linear layer: the convolution's result cut into rows, the weights converted, the bias as one row -/

theorem W4_v11 (n : Fin 2048) (b : Fin 64) (f : Fin 65) :
    (W4 m ρ c (Proc.devRef .tc main_v11) : S131072x65.Idx → EReal) (ix2 (rowK n b) f)
      = (W3 m ρ c (Proc.devRef .tc main_v10) : S2048x4160.Idx → EReal) (ix2 n (colK b f)) := by
  have e : (W4 m ρ c (Proc.devRef .tc main_v11) : S131072x65.Idx → EReal)
      = shapeCast S131072x65 (W3 m ρ c (Proc.devRef .tc main_v10) : S2048x4160.Idx → EReal) shapeCasts_S2048x4160_S131072x65 := by
    show StableHlo.after hostOps2 (W3 m ρ c) (Proc.devRef .tc main_v11) = _
    after_results
    rfl
  rw [e]
  exact Layout.recut _ _ (by norm_num) n b f (rowK n b) (colK b f) rfl rfl
theorem W4_v12 : (W4 m ρ c (Proc.devRef .tc main_v12) : S65x128.Idx → EReal) = W3 m ρ c (Proc.devRef .tc main_arg6) := by
  show StableHlo.after hostOps2 (W3 m ρ c) (Proc.devRef .tc main_v12) = _
  after_results
  rfl
theorem W4_v13 (z : Fin 1) (o : Fin 128) :
    (W4 m ρ c (Proc.devRef .tc main_v13) : S1x128.Idx → EReal) (ix2 z o) = (W3 m ρ c (Proc.devRef .tc main_arg7) : S128.Idx → EReal) (ix1 o) := by
  have e : (W4 m ρ c (Proc.devRef .tc main_v13) : S1x128.Idx → EReal)
      = shapeCast S1x128 (W3 m ρ c (Proc.devRef .tc main_arg7) : S128.Idx → EReal) shapeCasts_S128_S1x128 := by
    show StableHlo.after hostOps2 (W3 m ρ c) (Proc.devRef .tc main_v13) = _
    after_results
    rfl
  rw [e]
  exact ValueIdx.shapeCast_a_1a_apply _ _ z o

theorem W11_v24 (n : Fin 2048) (b : Fin 64) (f : Fin 65) :
    (W11 m ρ c (Proc.devRef .tc main_v24) : S131072x65.Idx → EReal) (ix2 (rowK n b) f)
      = (W10 m ρ c (Proc.devRef .tc main_v23) : S2048x4160.Idx → EReal) (ix2 n (colK b f)) := by
  have e : (W11 m ρ c (Proc.devRef .tc main_v24) : S131072x65.Idx → EReal)
      = shapeCast S131072x65 (W10 m ρ c (Proc.devRef .tc main_v23) : S2048x4160.Idx → EReal) shapeCasts_S2048x4160_S131072x65 := by
    show StableHlo.after hostOps6 (W10 m ρ c) (Proc.devRef .tc main_v24) = _
    after_results
    rfl
  rw [e]
  exact Layout.recut _ _ (by norm_num) n b f (rowK n b) (colK b f) rfl rfl
theorem W11_v25 : (W11 m ρ c (Proc.devRef .tc main_v25) : S65x64.Idx → EReal) = W10 m ρ c (Proc.devRef .tc main_arg8) := by
  show StableHlo.after hostOps6 (W10 m ρ c) (Proc.devRef .tc main_v25) = _
  after_results
  rfl
theorem W11_v26 (z : Fin 1) (o : Fin 64) :
    (W11 m ρ c (Proc.devRef .tc main_v26) : S1x64.Idx → EReal) (ix2 z o) = (W10 m ρ c (Proc.devRef .tc main_arg9) : S64.Idx → EReal) (ix1 o) := by
  have e : (W11 m ρ c (Proc.devRef .tc main_v26) : S1x64.Idx → EReal)
      = shapeCast S1x64 (W10 m ρ c (Proc.devRef .tc main_arg9) : S64.Idx → EReal) shapeCasts_S64_S1x64 := by
    show StableHlo.after hostOps6 (W10 m ρ c) (Proc.devRef .tc main_v26) = _
    after_results
    rfl
  rw [e]
  exact ValueIdx.shapeCast_a_1a_apply _ _ z o

/-! ## After the first linear layer: its rows back to (batch, node, slot) -/

theorem W6_v16 (b : Fin 64) (n : Fin 2048) (o : Fin 128) :
    (W6 m ρ c (Proc.devRef .tc main_v16) : S64x2048x128.Idx → EReal) (ix3 b n o)
      = (W5 m ρ c (Proc.devRef .tc main_v14) : S131072x128.Idx → EReal) (ix2 (rowK n b) o) := by
  have e : (W6 m ρ c (Proc.devRef .tc main_v16) : S64x2048x128.Idx → EReal)
      = transpose S64x2048x128 [1, 0, 2] (shapeCast S2048x64x128 (W5 m ρ c (Proc.devRef .tc main_v14) : S131072x128.Idx → EReal)
          shapeCasts_S131072x128_S2048x64x128) transposes_S2048x64x128_S64x2048x128_1_0_2 := by
    show StableHlo.after hostOps3 (W5 m ρ c) (Proc.devRef .tc main_v16) = _
    after_results
    rfl
  rw [e]
  refine (Layout.swap01 _ _ n b o).trans ?_
  exact Layout.split_first _ _ n b o (rowK n b) rfl

/-! ## The second feature matrix: the input piece and the reset state -/

theorem W8_v21 : (W8 m ρ c (Proc.devRef .tc main_v21) : S2048x4160.Idx → EReal)
    = featArr (W7 m ρ c (Proc.devRef .tc main_v4)) (W7 m ρ c (Proc.devRef .tc main_v17_0)) := by
  show StableHlo.after hostOps4 (W7 m ρ c) (Proc.devRef .tc main_v21) = _
  after_results
  rfl

/-! ## The last stretch: the candidate, the update gate and the state as [64, 2048·64] -/

theorem W13_v30 (b : Fin 64) (n : Fin 2048) (u : Fin 64) :
    (W13 m ρ c (Proc.devRef .tc main_v30) : S64x131072.Idx → EReal) (ix2 b (flat n u))
      = (W12 m ρ c (Proc.devRef .tc main_v27) : S131072x64.Idx → EReal) (ix2 (rowK n b) u) := by
  have e : (W13 m ρ c (Proc.devRef .tc main_v30) : S64x131072.Idx → EReal)
      = shapeCast S64x131072 (transpose S64x2048x64 [1, 0, 2] (shapeCast S2048x64x64 (W12 m ρ c (Proc.devRef .tc main_v27) : S131072x64.Idx → EReal)
          shapeCasts_S131072x64_S2048x64x64) transposes_S2048x64x64_S64x2048x64_1_0_2) shapeCasts_S64x2048x64_S64x131072 := by
    show StableHlo.after hostOps7 (W12 m ρ c) (Proc.devRef .tc main_v30) = _
    after_results
    rfl
  rw [e]
  refine (Layout.merge_last _ _ (by norm_num) b n u (flat n u) rfl).trans ?_
  refine (Layout.swap01 _ _ n b u).trans ?_
  exact Layout.split_first _ _ n b u (rowK n b) rfl
theorem W13_v31 (b : Fin 64) (n : Fin 2048) (u : Fin 64) :
    (W13 m ρ c (Proc.devRef .tc main_v31) : S64x131072.Idx → EReal) (ix2 b (flat n u))
      = (W12 m ρ c (Proc.devRef .tc main_v17_1) : S64x2048x64.Idx → EReal) (ix3 b n u) := by
  have e : (W13 m ρ c (Proc.devRef .tc main_v31) : S64x131072.Idx → EReal)
      = shapeCast S64x131072 (W12 m ρ c (Proc.devRef .tc main_v17_1) : S64x2048x64.Idx → EReal) shapeCasts_S64x2048x64_S64x131072 := by
    show StableHlo.after hostOps7 (W12 m ρ c) (Proc.devRef .tc main_v31) = _
    after_results
    rfl
  rw [e]
  exact Layout.merge_last _ _ (by norm_num) b n u (flat n u) rfl
theorem W13_v32 (b : Fin 64) (n : Fin 2048) (u : Fin 64) :
    (W13 m ρ c (Proc.devRef .tc main_v32) : S64x131072.Idx → EReal) (ix2 b (flat n u))
      = (W12 m ρ c (Proc.devRef .tc main_v3) : S64x2048x64.Idx → EReal) (ix3 b n u) := by
  have e : (W13 m ρ c (Proc.devRef .tc main_v32) : S64x131072.Idx → EReal)
      = shapeCast S64x131072 (W12 m ρ c (Proc.devRef .tc main_v3) : S64x2048x64.Idx → EReal) shapeCasts_S64x2048x64_S64x131072 := by
    show StableHlo.after hostOps7 (W12 m ρ c) (Proc.devRef .tc main_v32) = _
    after_results
    rfl
  rw [e]
  exact Layout.merge_last _ _ (by norm_num) b n u (flat n u) rfl

end Host

end GcGru

end
-- ==== Proof.Bridge.lean ====
/-
  The whole-array form of each kernel call's result, read at the kernel's row and column of (node, batch, feature),
  is the coordinate-level field of the specification, given that its operands are: a matrix product's entry is the
  same sum over the same index with the same factors, so each statement is a congruence under the sum.
-/
import proofs.«130559_j17334488007012_2_alg».proof.Proof.Host

noncomputable section

namespace GcGru.Bridge

open Idealize.ShloMosaic Idealize.ShloMosaic.ValueIdx
open scoped BigOperators

/-- Pooling: the product of the pooling matrix with a feature matrix, at (coarse node, column of (b, f)). -/
theorem mm_coarse (a : Arr2 256 2048) (x : Arr2 2048 4160) (afc : Arr2 256 2048) (X : Field 65)
    (ha : a = afc) (hx : ∀ n b f, x (ix2 n (colK b f)) = X b n f) (cc : Fin 256) (b : Fin 64) (f : Fin 65) :
    mm a x (ix2 cc (colK b f)) = coarse afc X cc b f := by
  subst ha
  exact Finset.sum_congr rfl fun k _ => congrArg (a (ix2 cc k) * ·) (hx k b f)

/-- The fine convolution at (node, column of (b, f)). -/
theorem comb_fine (a : Arr2 2048 2048) (x : Arr2 2048 4160) (t : Arr2 2048 256) (y : Arr2 256 4160)
    (adj : Arr2 2048 2048) (afct : Arr2 2048 256) (X : Field 65) (Y : Fin 256 → Fin 64 → Fin 65 → EReal)
    (ha : a = adj) (hx : ∀ n b f, x (ix2 n (colK b f)) = X b n f) (ht : t = afct)
    (hy : ∀ cc b f, y (ix2 cc (colK b f)) = Y cc b f) (n : Fin 2048) (b : Fin 64) (f : Fin 65) :
    comb a x t y (ix2 n (colK b f)) = fine adj afct X Y n b f := by
  subst ha; subst ht
  exact congrArg₂ (· + ·) (Finset.sum_congr rfl fun k _ => congrArg (a (ix2 n k) * ·) (hx k b f))
    (congrArg Ideal.logistic (Finset.sum_congr rfl fun cc _ => congrArg (t (ix2 n cc) * ·) (hy cc b f)))

/-- The linear layer at (row of (n, b), output slot). -/
theorem affine_lin {Fo : ℕ} (xf : Arr2 131072 65) (w' : Arr2 65 Fo) (bias' : Arr2 1 Fo) (w : Arr2 65 Fo) (bias : Arr1 Fo)
    (Z : Fin 2048 → Fin 64 → Fin 65 → EReal) (hxf : ∀ n b f, xf (ix2 (rowK n b) f) = Z n b f) (hw : w' = w)
    (hb : ∀ z o, bias' (ix2 z o) = bias (ix1 o)) (n : Fin 2048) (b : Fin 64) (o : Fin Fo) :
    affine xf w' bias' (ix2 (rowK n b) o) = lin w bias Z b n o := by
  subst hw
  exact congrArg₂ (· + ·) (Finset.sum_congr rfl fun f _ => congrArg (· * w' (ix2 f o)) (hxf n b f)) (hb 0 o)

end GcGru.Bridge

end
-- ==== Proof.Carry.lean ====
/-
  Buffers that no operation writes between two boundaries of the kernel's entry point hold the same contents at both:
  a kernel call changes only its own output arrays (an array it only reads ends as it was entered), a host stretch only
  the results of its operations.
-/
import proofs.«130559_j17334488007012_2_alg».proof.Proof.Gen.KernelIdeal.Frame

set_option maxRecDepth 16384

noncomputable section

namespace GcGru.Carry

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

/-- The fine adjacency (converted) is untouched from the first host stretch to the second fine convolution. -/
theorem main_v0_9_1 : W9 m ρ c (Proc.devRef .tc main_v0) = W1 m ρ c (Proc.devRef .tc main_v0) :=
  calc W9 m ρ c (Proc.devRef .tc main_v0)
    _ = W8 m ρ c (Proc.devRef .tc main_v0) := W9_of_ne m ρ c main_v0 (by decide)
    _ = W7 m ρ c (Proc.devRef .tc main_v0) := StableHlo.after_of_forall_not_mem (b := Proc.devRef .tc main_v0) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v0) := W7_of_ne m ρ c main_v0 (by decide)
    _ = W5 m ρ c (Proc.devRef .tc main_v0) := StableHlo.after_of_forall_not_mem (b := Proc.devRef .tc main_v0) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v0) := W5_of_ne m ρ c main_v0 (by decide)
    _ = W3 m ρ c (Proc.devRef .tc main_v0) := StableHlo.after_of_forall_not_mem (b := Proc.devRef .tc main_v0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v0) := (W3_arr m ρ c 0).trans (((dat1 (V2 m ρ) c).arrAt_in 0 rfl cfg1.N).trans (A_eq1 (V2 m ρ) c 0))
    _ = W1 m ρ c (Proc.devRef .tc main_v0) := W2_of_ne m ρ c main_v0 (by decide)

/-- The fine adjacency (converted) is untouched by the first pooling call. -/
theorem main_v0_2_1 : W2 m ρ c (Proc.devRef .tc main_v0) = W1 m ρ c (Proc.devRef .tc main_v0) :=
  calc W2 m ρ c (Proc.devRef .tc main_v0)
    _ = W1 m ρ c (Proc.devRef .tc main_v0) := W2_of_ne m ρ c main_v0 (by decide)

/-- The pooling matrix (converted) is untouched up to the second pooling call. -/
theorem main_v1_8_1 : W8 m ρ c (Proc.devRef .tc main_v1) = W1 m ρ c (Proc.devRef .tc main_v1) :=
  calc W8 m ρ c (Proc.devRef .tc main_v1)
    _ = W7 m ρ c (Proc.devRef .tc main_v1) := StableHlo.after_of_forall_not_mem (b := Proc.devRef .tc main_v1) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v1) := W7_of_ne m ρ c main_v1 (by decide)
    _ = W5 m ρ c (Proc.devRef .tc main_v1) := StableHlo.after_of_forall_not_mem (b := Proc.devRef .tc main_v1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v1) := W5_of_ne m ρ c main_v1 (by decide)
    _ = W3 m ρ c (Proc.devRef .tc main_v1) := StableHlo.after_of_forall_not_mem (b := Proc.devRef .tc main_v1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v1) := W3_of_ne m ρ c main_v1 (by decide)
    _ = W1 m ρ c (Proc.devRef .tc main_v1) := (W2_arr m ρ c 0).trans (((dat0 (V1 m ρ) c).arrAt_in 0 rfl cfg0.N).trans (A_eq0 (V1 m ρ) c 0))

/-- The un-pooling matrix (converted) is untouched up to the second fine convolution. -/
theorem main_v2_9_1 : W9 m ρ c (Proc.devRef .tc main_v2) = W1 m ρ c (Proc.devRef .tc main_v2) :=
  calc W9 m ρ c (Proc.devRef .tc main_v2)
    _ = W8 m ρ c (Proc.devRef .tc main_v2) := W9_of_ne m ρ c main_v2 (by decide)
    _ = W7 m ρ c (Proc.devRef .tc main_v2) := StableHlo.after_of_forall_not_mem (b := Proc.devRef .tc main_v2) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v2) := W7_of_ne m ρ c main_v2 (by decide)
    _ = W5 m ρ c (Proc.devRef .tc main_v2) := StableHlo.after_of_forall_not_mem (b := Proc.devRef .tc main_v2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v2) := W5_of_ne m ρ c main_v2 (by decide)
    _ = W3 m ρ c (Proc.devRef .tc main_v2) := StableHlo.after_of_forall_not_mem (b := Proc.devRef .tc main_v2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v2) := (W3_arr m ρ c 2).trans (((dat1 (V2 m ρ) c).arrAt_in 2 rfl cfg1.N).trans (A_eq1 (V2 m ρ) c 2))
    _ = W1 m ρ c (Proc.devRef .tc main_v2) := W2_of_ne m ρ c main_v2 (by decide)

/-- The un-pooling matrix (converted) is untouched by the first pooling call. -/
theorem main_v2_2_1 : W2 m ρ c (Proc.devRef .tc main_v2) = W1 m ρ c (Proc.devRef .tc main_v2) :=
  calc W2 m ρ c (Proc.devRef .tc main_v2)
    _ = W1 m ρ c (Proc.devRef .tc main_v2) := W2_of_ne m ρ c main_v2 (by decide)

/-- The first feature matrix is untouched by the first pooling call. -/
theorem main_v8_2_1 : W2 m ρ c (Proc.devRef .tc main_v8) = W1 m ρ c (Proc.devRef .tc main_v8) :=
  calc W2 m ρ c (Proc.devRef .tc main_v8)
    _ = W1 m ρ c (Proc.devRef .tc main_v8) := (W2_arr m ρ c 1).trans (((dat0 (V1 m ρ) c).arrAt_in 1 rfl cfg0.N).trans (A_eq0 (V1 m ρ) c 1))

/-- The second feature matrix is untouched by the second pooling call. -/
theorem main_v21_9_8 : W9 m ρ c (Proc.devRef .tc main_v21) = W8 m ρ c (Proc.devRef .tc main_v21) :=
  calc W9 m ρ c (Proc.devRef .tc main_v21)
    _ = W8 m ρ c (Proc.devRef .tc main_v21) := (W9_arr m ρ c 1).trans (((dat4 (V8 m ρ) c).arrAt_in 1 rfl cfg4.N).trans (A_eq4 (V8 m ρ) c 1))

/-- The state as (batch, node, unit) is untouched up to the gate call. -/
theorem main_v3_6_1 : W6 m ρ c (Proc.devRef .tc main_v3) = W1 m ρ c (Proc.devRef .tc main_v3) :=
  calc W6 m ρ c (Proc.devRef .tc main_v3)
    _ = W5 m ρ c (Proc.devRef .tc main_v3) := StableHlo.after_of_forall_not_mem (b := Proc.devRef .tc main_v3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v3) := W5_of_ne m ρ c main_v3 (by decide)
    _ = W3 m ρ c (Proc.devRef .tc main_v3) := StableHlo.after_of_forall_not_mem (b := Proc.devRef .tc main_v3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v3) := W3_of_ne m ρ c main_v3 (by decide)
    _ = W1 m ρ c (Proc.devRef .tc main_v3) := W2_of_ne m ρ c main_v3 (by decide)

/-- The state as (batch, node, unit) is untouched up to the last host stretch. -/
theorem main_v3_12_1 : W12 m ρ c (Proc.devRef .tc main_v3) = W1 m ρ c (Proc.devRef .tc main_v3) :=
  calc W12 m ρ c (Proc.devRef .tc main_v3)
    _ = W11 m ρ c (Proc.devRef .tc main_v3) := W12_of_ne m ρ c main_v3 (by decide)
    _ = W10 m ρ c (Proc.devRef .tc main_v3) := StableHlo.after_of_forall_not_mem (b := Proc.devRef .tc main_v3) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v3) := W10_of_ne m ρ c main_v3 (by decide)
    _ = W8 m ρ c (Proc.devRef .tc main_v3) := W9_of_ne m ρ c main_v3 (by decide)
    _ = W7 m ρ c (Proc.devRef .tc main_v3) := StableHlo.after_of_forall_not_mem (b := Proc.devRef .tc main_v3) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v3) := (W7_arr m ρ c 1).trans (((dat3 (V6 m ρ) c).arrAt_in 1 rfl cfg3.N).trans (A_eq3 (V6 m ρ) c 1))
    _ = W5 m ρ c (Proc.devRef .tc main_v3) := StableHlo.after_of_forall_not_mem (b := Proc.devRef .tc main_v3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v3) := W5_of_ne m ρ c main_v3 (by decide)
    _ = W3 m ρ c (Proc.devRef .tc main_v3) := StableHlo.after_of_forall_not_mem (b := Proc.devRef .tc main_v3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v3) := W3_of_ne m ρ c main_v3 (by decide)
    _ = W1 m ρ c (Proc.devRef .tc main_v3) := W2_of_ne m ρ c main_v3 (by decide)

/-- The input as (batch, node, 1) is untouched up to the second feature construction. -/
theorem main_v4_7_1 : W7 m ρ c (Proc.devRef .tc main_v4) = W1 m ρ c (Proc.devRef .tc main_v4) :=
  calc W7 m ρ c (Proc.devRef .tc main_v4)
    _ = W6 m ρ c (Proc.devRef .tc main_v4) := W7_of_ne m ρ c main_v4 (by decide)
    _ = W5 m ρ c (Proc.devRef .tc main_v4) := StableHlo.after_of_forall_not_mem (b := Proc.devRef .tc main_v4) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v4) := W5_of_ne m ρ c main_v4 (by decide)
    _ = W3 m ρ c (Proc.devRef .tc main_v4) := StableHlo.after_of_forall_not_mem (b := Proc.devRef .tc main_v4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v4) := W3_of_ne m ρ c main_v4 (by decide)
    _ = W1 m ρ c (Proc.devRef .tc main_v4) := W2_of_ne m ρ c main_v4 (by decide)

/-- The update gate is untouched from the gate call to the last host stretch. -/
theorem main_v17_1_12_7 : W12 m ρ c (Proc.devRef .tc main_v17_1) = W7 m ρ c (Proc.devRef .tc main_v17_1) :=
  calc W12 m ρ c (Proc.devRef .tc main_v17_1)
    _ = W11 m ρ c (Proc.devRef .tc main_v17_1) := W12_of_ne m ρ c main_v17_1 (by decide)
    _ = W10 m ρ c (Proc.devRef .tc main_v17_1) := StableHlo.after_of_forall_not_mem (b := Proc.devRef .tc main_v17_1) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v17_1) := W10_of_ne m ρ c main_v17_1 (by decide)
    _ = W8 m ρ c (Proc.devRef .tc main_v17_1) := W9_of_ne m ρ c main_v17_1 (by decide)
    _ = W7 m ρ c (Proc.devRef .tc main_v17_1) := StableHlo.after_of_forall_not_mem (b := Proc.devRef .tc main_v17_1) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- The first weight matrix is as launched when the first linear layer's operands are prepared. -/
theorem main_arg6_3_0 : W3 m ρ c (Proc.devRef .tc main_arg6) = W0 m ρ c (Proc.devRef .tc main_arg6) :=
  calc W3 m ρ c (Proc.devRef .tc main_arg6)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- The first bias is as launched when the first linear layer's operands are prepared. -/
theorem main_arg7_3_0 : W3 m ρ c (Proc.devRef .tc main_arg7) = W0 m ρ c (Proc.devRef .tc main_arg7) :=
  calc W3 m ρ c (Proc.devRef .tc main_arg7)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- The second weight matrix is as launched when the second linear layer's operands are prepared. -/
theorem main_arg8_10_0 : W10 m ρ c (Proc.devRef .tc main_arg8) = W0 m ρ c (Proc.devRef .tc main_arg8) :=
  calc W10 m ρ c (Proc.devRef .tc main_arg8)
    _ = W9 m ρ c (Proc.devRef .tc main_arg8) := W10_of_ne m ρ c main_arg8 (by decide)
    _ = W8 m ρ c (Proc.devRef .tc main_arg8) := W9_of_ne m ρ c main_arg8 (by decide)
    _ = W7 m ρ c (Proc.devRef .tc main_arg8) := StableHlo.after_of_forall_not_mem (b := Proc.devRef .tc main_arg8) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg8) := W7_of_ne m ρ c main_arg8 (by decide)
    _ = W5 m ρ c (Proc.devRef .tc main_arg8) := StableHlo.after_of_forall_not_mem (b := Proc.devRef .tc main_arg8) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg8) := W5_of_ne m ρ c main_arg8 (by decide)
    _ = W3 m ρ c (Proc.devRef .tc main_arg8) := StableHlo.after_of_forall_not_mem (b := Proc.devRef .tc main_arg8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- The second bias is as launched when the second linear layer's operands are prepared. -/
theorem main_arg9_10_0 : W10 m ρ c (Proc.devRef .tc main_arg9) = W0 m ρ c (Proc.devRef .tc main_arg9) :=
  calc W10 m ρ c (Proc.devRef .tc main_arg9)
    _ = W9 m ρ c (Proc.devRef .tc main_arg9) := W10_of_ne m ρ c main_arg9 (by decide)
    _ = W8 m ρ c (Proc.devRef .tc main_arg9) := W9_of_ne m ρ c main_arg9 (by decide)
    _ = W7 m ρ c (Proc.devRef .tc main_arg9) := StableHlo.after_of_forall_not_mem (b := Proc.devRef .tc main_arg9) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg9) := W7_of_ne m ρ c main_arg9 (by decide)
    _ = W5 m ρ c (Proc.devRef .tc main_arg9) := StableHlo.after_of_forall_not_mem (b := Proc.devRef .tc main_arg9) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg9) := W5_of_ne m ρ c main_arg9 (by decide)
    _ = W3 m ρ c (Proc.devRef .tc main_arg9) := StableHlo.after_of_forall_not_mem (b := Proc.devRef .tc main_arg9) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end GcGru.Carry

end
-- ==== Proof.Fold.lean ====
/-
  The idealized kernel's result array, read at (batch, node, unit), is the specification's new state of the launch
  arguments. The entry point is walked boundary by boundary: what a host stretch writes is read where its layout says,
  what a kernel call leaves is its whole-array function of the arrays it read, and a buffer nothing writes is carried
  along. First convolution: features of the state, pooled, convolved, put through the first linear layer; the gates;
  second convolution on the reset state; the blend. What each kernel call leaves is taken here as a hypothesis, one per
  call, stated for arbitrary entry contents.
-/
import proofs.«130559_j17334488007012_2_alg».proof.Proof.Bridge
import proofs.«130559_j17334488007012_2_alg».proof.Proof.Carry

set_option maxRecDepth 16384

noncomputable section

namespace GcGru.Fold

open Cert.KernelIdeal Cert.KernelIdeal.Gen
open Idealize.ShloMosaic Idealize.ShloMosaic.ValueIdx Idealize.ShloMosaic.TcCoe Idealize.SL.Sem

/-- Entry contents of a kernel call: every TensorCore buffer's contents. -/
abbrev Entry := (c : Dev nD) → (b : Ref sig .tc) → Buf (Elt Ideal) ((c : Thread nD τ).loc b)

/-- The blend of three arrays that hold the candidate, the update gate and the state at (batch, node, unit) is the
    specification's new state there. -/
theorem blend_newAt (cA uA sA : Arr2 64 131072) (inp : Arr2 64 2048) (st : Arr2 64 131072) (adj : Arr2 2048 2048)
    (afc : Arr2 256 2048) (afct : Arr2 2048 256) (w0 : Arr2 65 128) (b0 : Arr1 128) (w1 : Arr2 65 64) (b1 : Arr1 64)
    (b : Fin 64) (n : Fin 2048) (u : Fin 64)
    (hc : cA (ix2 b (flat n u)) = cand inp st adj afc afct w0 b0 w1 b1 b n u)
    (hu : uA (ix2 b (flat n u)) = gateU inp st adj afc afct w0 b0 b n u)
    (hs : sA (ix2 b (flat n u)) = st3 st b n u) :
    blend cA uA sA (ix2 b (flat n u)) = newAt inp st adj afc afct w0 b0 w1 b1 b n u := by
  unfold blend newAt
  rw [hc, hu, hs]

variable (hR0 : ∀ (V : Entry) (c : Dev nD), (dat0 (F := Ideal) V c).arrAt 2 cfg0.N = GcGru.mm (V c main_v1) (V c main_v8))
  (hR1 : ∀ (V : Entry) (c : Dev nD), (dat1 (F := Ideal) V c).arrAt 4 cfg1.N = GcGru.comb (V c main_v0) (V c main_v8) (V c main_v2) (V c main_v9))
  (hR2 : ∀ (V : Entry) (c : Dev nD), (dat2 (F := Ideal) V c).arrAt 3 cfg2.N = GcGru.affine (V c main_v11) (V c main_v12) (V c main_v13))
  (hR3a : ∀ (V : Entry) (c : Dev nD), (dat3 (F := Ideal) V c).arrAt 2 cfg3.N = GcGru.resetState (V c main_v16) (V c main_v3))
  (hR3b : ∀ (V : Entry) (c : Dev nD), (dat3 (F := Ideal) V c).arrAt 3 cfg3.N = GcGru.updateGate (V c main_v16))
  (hR4 : ∀ (V : Entry) (c : Dev nD), (dat4 (F := Ideal) V c).arrAt 2 cfg4.N = GcGru.mm (V c main_v1) (V c main_v21))
  (hR5 : ∀ (V : Entry) (c : Dev nD), (dat5 (F := Ideal) V c).arrAt 4 cfg5.N = GcGru.comb (V c main_v0) (V c main_v21) (V c main_v2) (V c main_v22))
  (hR6 : ∀ (V : Entry) (c : Dev nD), (dat6 (F := Ideal) V c).arrAt 3 cfg6.N = GcGru.affine (V c main_v24) (V c main_v25) (V c main_v26))
  (hR7 : ∀ (V : Entry) (c : Dev nD), (dat7 (F := Ideal) V c).arrAt 3 cfg7.N = GcGru.blend (V c main_v30) (V c main_v31) (V c main_v32))

variable (m : (ℓ : Loc nD τ sig) → Buf (Elt Ideal) ℓ) (ρ : Dev nD → PrngReg) (c : Dev nD)

/-- The launch arguments the result depends on, as arrays of extended reals. -/
abbrev Inp : Arr2 64 2048 := m ((c : Thread nD τ).loc main_arg0)
abbrev St : Arr2 64 131072 := m ((c : Thread nD τ).loc main_arg1)
abbrev Adj : Arr2 2048 2048 := m ((c : Thread nD τ).loc main_arg2)
abbrev Afc : Arr2 256 2048 := m ((c : Thread nD τ).loc main_arg4)
abbrev Afct : Arr2 2048 256 := m ((c : Thread nD τ).loc main_arg5)
abbrev Wa : Arr2 65 128 := m ((c : Thread nD τ).loc main_arg6)
abbrev Ba : Arr1 128 := m ((c : Thread nD τ).loc main_arg7)
abbrev Wb : Arr2 65 64 := m ((c : Thread nD τ).loc main_arg8)
abbrev Bb : Arr1 64 := m ((c : Thread nD τ).loc main_arg9)

/-! ## The first convolution -/

/-- The first feature matrix: the features of the state. -/
theorem x1_feat (n : Fin 2048) (b : Fin 64) (f : Fin 65) :
    (W1 m ρ c (Proc.devRef .tc main_v8) : Arr2 2048 4160) (ix2 n (colK b f)) = feat (Inp m c) (st3 (St m c)) b n f := by
  rw [Host.W1_v8]
  exact Host.featArr_apply _ _ (Inp m c) (st3 (St m c)) (Host.W1_v4 m ρ c) (Host.W1_v3 m ρ c) n b f

include hR0 in
/-- After the first pooling call. -/
theorem y1_coarse (cc : Fin 256) (b : Fin 64) (f : Fin 65) :
    (W2 m ρ c (Proc.devRef .tc main_v9) : Arr2 256 4160) (ix2 cc (colK b f)) = coarse (Afc m c) (feat (Inp m c) (st3 (St m c))) cc b f := by
  have e : (W2 m ρ c (Proc.devRef .tc main_v9) : Arr2 256 4160) = mm (V1 m ρ c main_v1) (V1 m ρ c main_v8) :=
    (W2_arr m ρ c 2).trans (hR0 (V1 m ρ) c)
  rw [e]
  exact Bridge.mm_coarse _ _ (Afc m c) _ (Host.W1_v1 m ρ c) (x1_feat m ρ c) cc b f

include hR0 hR1 in
/-- After the first fine convolution. -/
theorem z1_fine (n : Fin 2048) (b : Fin 64) (f : Fin 65) :
    (W3 m ρ c (Proc.devRef .tc main_v10) : Arr2 2048 4160) (ix2 n (colK b f))
      = fine (Adj m c) (Afct m c) (feat (Inp m c) (st3 (St m c))) (coarse (Afc m c) (feat (Inp m c) (st3 (St m c)))) n b f := by
  have e : (W3 m ρ c (Proc.devRef .tc main_v10) : Arr2 2048 4160)
      = comb (V2 m ρ c main_v0) (V2 m ρ c main_v8) (V2 m ρ c main_v2) (V2 m ρ c main_v9) :=
    (W3_arr m ρ c 4).trans (hR1 (V2 m ρ) c)
  rw [e]
  exact Bridge.comb_fine _ _ _ _ (Adj m c) (Afct m c) _ _
    ((Carry.main_v0_2_1 m ρ c).trans (Host.W1_v0 m ρ c))
    (fun n b f => (congrFun (Carry.main_v8_2_1 m ρ c) _).trans (x1_feat m ρ c n b f))
    ((Carry.main_v2_2_1 m ρ c).trans (Host.W1_v2 m ρ c))
    (y1_coarse hR0 m ρ c) n b f

include hR0 hR1 hR2 in
/-- After the first linear layer: the gates' pre-activation, on rows of (node, batch). -/
theorem o1_pre (n : Fin 2048) (b : Fin 64) (o : Fin 128) :
    (W5 m ρ c (Proc.devRef .tc main_v14) : Arr2 131072 128) (ix2 (rowK n b) o) = pre (Inp m c) (St m c) (Adj m c) (Afc m c) (Afct m c) (Wa m c) (Ba m c) b n o := by
  have e : (W5 m ρ c (Proc.devRef .tc main_v14) : Arr2 131072 128)
      = affine (V4 m ρ c main_v11) (V4 m ρ c main_v12) (V4 m ρ c main_v13) :=
    (W5_arr m ρ c 3).trans (hR2 (V4 m ρ) c)
  rw [e]
  exact Bridge.affine_lin _ _ _ (Wa m c) (Ba m c) _
    (fun n b f => (Host.W4_v11 m ρ c n b f).trans (z1_fine hR0 hR1 m ρ c n b f))
    ((Host.W4_v12 m ρ c).trans (Carry.main_arg6_3_0 m ρ c))
    (fun z o => (Host.W4_v13 m ρ c z o).trans (congrFun (Carry.main_arg7_3_0 m ρ c) _)) n b o

include hR0 hR1 hR2 in
/-- The pre-activation as (batch, node, slot). -/
theorem v16_pre (b : Fin 64) (n : Fin 2048) (o : Fin 128) :
    (W6 m ρ c (Proc.devRef .tc main_v16) : Arr3 64 2048 128) (ix3 b n o) = pre (Inp m c) (St m c) (Adj m c) (Afc m c) (Afct m c) (Wa m c) (Ba m c) b n o :=
  (Host.W6_v16 m ρ c b n o).trans (o1_pre hR0 hR1 hR2 m ρ c n b o)

/-! ## The gates -/

/-- The state as (batch, node, unit), when the gate call is entered. -/
theorem v3_state (b : Fin 64) (n : Fin 2048) (u : Fin 64) :
    (W6 m ρ c (Proc.devRef .tc main_v3) : Arr3 64 2048 64) (ix3 b n u) = st3 (St m c) b n u :=
  (congrFun (Carry.main_v3_6_1 m ρ c) _).trans (Host.W1_v3 m ρ c b n u)

include hR0 hR1 hR2 hR3a in
/-- The reset state. -/
theorem r_rst (b : Fin 64) (n : Fin 2048) (u : Fin 64) :
    (W7 m ρ c (Proc.devRef .tc main_v17_0) : Arr3 64 2048 64) (ix3 b n u) = rst (Inp m c) (St m c) (Adj m c) (Afc m c) (Afct m c) (Wa m c) (Ba m c) b n u := by
  have e : (W7 m ρ c (Proc.devRef .tc main_v17_0) : Arr3 64 2048 64) = resetState (V6 m ρ c main_v16) (V6 m ρ c main_v3) :=
    (W7_arr m ρ c 2).trans (hR3a (V6 m ρ) c)
  rw [e]
  exact congrArg₂ (· * ·) (congrArg Ideal.logistic (v16_pre hR0 hR1 hR2 m ρ c b n (lo u))) (v3_state m ρ c b n u)

include hR0 hR1 hR2 hR3b in
/-- The update gate. -/
theorem u_gate (b : Fin 64) (n : Fin 2048) (u : Fin 64) :
    (W7 m ρ c (Proc.devRef .tc main_v17_1) : Arr3 64 2048 64) (ix3 b n u) = gateU (Inp m c) (St m c) (Adj m c) (Afc m c) (Afct m c) (Wa m c) (Ba m c) b n u := by
  have e : (W7 m ρ c (Proc.devRef .tc main_v17_1) : Arr3 64 2048 64) = updateGate (V6 m ρ c main_v16) :=
    (W7_arr m ρ c 3).trans (hR3b (V6 m ρ) c)
  rw [e]
  exact congrArg Ideal.logistic (v16_pre hR0 hR1 hR2 m ρ c b n (hi u))

/-! ## The second convolution, on the reset state -/

include hR0 hR1 hR2 hR3a in
/-- The second feature matrix: the features of the reset state. -/
theorem x2_feat (n : Fin 2048) (b : Fin 64) (f : Fin 65) :
    (W8 m ρ c (Proc.devRef .tc main_v21) : Arr2 2048 4160) (ix2 n (colK b f))
      = feat (Inp m c) (rst (Inp m c) (St m c) (Adj m c) (Afc m c) (Afct m c) (Wa m c) (Ba m c)) b n f := by
  rw [Host.W8_v21]
  exact Host.featArr_apply _ _ (Inp m c) (rst (Inp m c) (St m c) (Adj m c) (Afc m c) (Afct m c) (Wa m c) (Ba m c))
    (fun b n z => (congrFun (Carry.main_v4_7_1 m ρ c) _).trans (Host.W1_v4 m ρ c b n z))
    (r_rst hR0 hR1 hR2 hR3a m ρ c) n b f

include hR0 hR1 hR2 hR3a hR4 in
theorem y2_coarse (cc : Fin 256) (b : Fin 64) (f : Fin 65) :
    (W9 m ρ c (Proc.devRef .tc main_v22) : Arr2 256 4160) (ix2 cc (colK b f))
      = coarse (Afc m c) (feat (Inp m c) (rst (Inp m c) (St m c) (Adj m c) (Afc m c) (Afct m c) (Wa m c) (Ba m c))) cc b f := by
  have e : (W9 m ρ c (Proc.devRef .tc main_v22) : Arr2 256 4160) = mm (V8 m ρ c main_v1) (V8 m ρ c main_v21) :=
    (W9_arr m ρ c 2).trans (hR4 (V8 m ρ) c)
  rw [e]
  exact Bridge.mm_coarse _ _ (Afc m c) _ ((Carry.main_v1_8_1 m ρ c).trans (Host.W1_v1 m ρ c))
    (x2_feat hR0 hR1 hR2 hR3a m ρ c) cc b f

include hR0 hR1 hR2 hR3a hR4 hR5 in
theorem z2_fine (n : Fin 2048) (b : Fin 64) (f : Fin 65) :
    (W10 m ρ c (Proc.devRef .tc main_v23) : Arr2 2048 4160) (ix2 n (colK b f))
      = fine (Adj m c) (Afct m c) (feat (Inp m c) (rst (Inp m c) (St m c) (Adj m c) (Afc m c) (Afct m c) (Wa m c) (Ba m c))) (coarse (Afc m c) (feat (Inp m c) (rst (Inp m c) (St m c) (Adj m c) (Afc m c) (Afct m c) (Wa m c) (Ba m c)))) n b f := by
  have e : (W10 m ρ c (Proc.devRef .tc main_v23) : Arr2 2048 4160)
      = comb (V9 m ρ c main_v0) (V9 m ρ c main_v21) (V9 m ρ c main_v2) (V9 m ρ c main_v22) :=
    (W10_arr m ρ c 4).trans (hR5 (V9 m ρ) c)
  rw [e]
  exact Bridge.comb_fine _ _ _ _ (Adj m c) (Afct m c) _ _
    ((Carry.main_v0_9_1 m ρ c).trans (Host.W1_v0 m ρ c))
    (fun n b f => (congrFun (Carry.main_v21_9_8 m ρ c) _).trans (x2_feat hR0 hR1 hR2 hR3a m ρ c n b f))
    ((Carry.main_v2_9_1 m ρ c).trans (Host.W1_v2 m ρ c))
    (y2_coarse hR0 hR1 hR2 hR3a hR4 m ρ c) n b f

include hR0 hR1 hR2 hR3a hR4 hR5 hR6 in
/-- After the second linear layer: the candidate's pre-activation, on rows of (node, batch). -/
theorem o2_cand (n : Fin 2048) (b : Fin 64) (u : Fin 64) :
    (W12 m ρ c (Proc.devRef .tc main_v27) : Arr2 131072 64) (ix2 (rowK n b) u) = cand (Inp m c) (St m c) (Adj m c) (Afc m c) (Afct m c) (Wa m c) (Ba m c) (Wb m c) (Bb m c) b n u := by
  have e : (W12 m ρ c (Proc.devRef .tc main_v27) : Arr2 131072 64)
      = affine (V11 m ρ c main_v24) (V11 m ρ c main_v25) (V11 m ρ c main_v26) :=
    (W12_arr m ρ c 3).trans (hR6 (V11 m ρ) c)
  rw [e]
  exact Bridge.affine_lin _ _ _ (Wb m c) (Bb m c) _
    (fun n b f => (Host.W11_v24 m ρ c n b f).trans (z2_fine hR0 hR1 hR2 hR3a hR4 hR5 m ρ c n b f))
    ((Host.W11_v25 m ρ c).trans (Carry.main_arg8_10_0 m ρ c))
    (fun z o => (Host.W11_v26 m ρ c z o).trans (congrFun (Carry.main_arg9_10_0 m ρ c) _)) n b u

/-! ## The blend -/

include hR0 hR1 hR2 hR3a hR3b hR4 hR5 hR6 hR7 in
/-- THE RESULT: the last boundary's contents of the result array, at (batch, node, unit), is the new state. -/
theorem result (b : Fin 64) (n : Fin 2048) (u : Fin 64) :
    (W14 m ρ c (Proc.devRef .tc main_v33) : Arr2 64 131072) (ix2 b (flat n u)) = newAt (Inp m c) (St m c) (Adj m c) (Afc m c) (Afct m c) (Wa m c) (Ba m c) (Wb m c) (Bb m c) b n u := by
  have e : (W14 m ρ c (Proc.devRef .tc main_v33) : Arr2 64 131072)
      = blend (V13 m ρ c main_v30) (V13 m ρ c main_v31) (V13 m ρ c main_v32) :=
    (W14_arr m ρ c 3).trans (hR7 (V13 m ρ) c)
  rw [e]
  have hc : (V13 m ρ c main_v30 : Arr2 64 131072) (ix2 b (flat n u)) = cand (Inp m c) (St m c) (Adj m c) (Afc m c) (Afct m c) (Wa m c) (Ba m c) (Wb m c) (Bb m c) b n u :=
    (Host.W13_v30 m ρ c b n u).trans (o2_cand hR0 hR1 hR2 hR3a hR4 hR5 hR6 m ρ c n b u)
  have hu : (V13 m ρ c main_v31 : Arr2 64 131072) (ix2 b (flat n u)) = gateU (Inp m c) (St m c) (Adj m c) (Afc m c) (Afct m c) (Wa m c) (Ba m c) b n u :=
    (Host.W13_v31 m ρ c b n u).trans ((congrFun (Carry.main_v17_1_12_7 m ρ c) _).trans (u_gate hR0 hR1 hR2 hR3b m ρ c b n u))
  have hs : (V13 m ρ c main_v32 : Arr2 64 131072) (ix2 b (flat n u)) = st3 (St m c) b n u :=
    (Host.W13_v32 m ρ c b n u).trans ((congrFun (Carry.main_v3_12_1 m ρ c) _).trans (Host.W1_v3 m ρ c b n u))
  exact blend_newAt _ _ _ (Inp m c) (St m c) (Adj m c) (Afc m c) (Afct m c) (Wa m c) (Ba m c) (Wb m c) (Bb m c) b n u hc hu hs

end GcGru.Fold

end
-- ==== Proof.LibMatmulSum.lean ====
/-
  A plain matrix product  [n, K] x [K, w] -> [n, w]  at the ideal values, for any contraction length K and whichever
  record of dimension numbers spells it: the sum over the record's own contraction index, read at entry (p, q), is the
  sum over k < K of left(p, k) * right(k, q).  A kernel's matrix-unit product into a zero accumulator is that sum.
  The record enters only through six facts about its index maps (one contracted axis of extent K; the left operand
  contracted on its axis 1, the right on its axis 0; the result's axes the left's axis 0 and the right's axis 1).
-/
import Idealize.ShloMosaic.PureOps.Ideal.Laws
import Idealize.ShloMosaic.Lib.Pipeline.Value
import Idealize.ShloMosaic.Lib.ValueIdx

noncomputable section

namespace Cert.LibMatmulSum

open Idealize.ShloMosaic Idealize.ShloMosaic.ValueIdx

/-- The index facts of a plain product with contraction length `K`. -/
structure Plain {n K w : ℕ} (d : DotDims ⟨2, ![n, K]⟩ ⟨2, ![K, w]⟩ ⟨2, ![n, w]⟩) : Prop where
  rank : d.contr.rank = 1
  size : d.contr.size ⟨0, by rw [rank]; exact Nat.one_pos⟩ = K
  l0 : ∀ (i : (⟨2, ![n, w]⟩ : Shape).Idx) (q : d.contr.Idx), (d.lhsIdx i q 0).val = (i 0).val
  l1 : ∀ (i : (⟨2, ![n, w]⟩ : Shape).Idx) (q : d.contr.Idx), (d.lhsIdx i q 1).val = (q ⟨0, by rw [rank]; exact Nat.one_pos⟩).val
  r0 : ∀ (i : (⟨2, ![n, w]⟩ : Shape).Idx) (q : d.contr.Idx), (d.rhsIdx i q 0).val = (q ⟨0, by rw [rank]; exact Nat.one_pos⟩).val
  r1 : ∀ (i : (⟨2, ![n, w]⟩ : Shape).Idx) (q : d.contr.Idx), (d.rhsIdx i q 1).val = (i 1).val

/-- The contraction sum at entry (p, q), re-indexed by k < K. -/
theorem sum_eq {n K w : ℕ} {d : DotDims ⟨2, ![n, K]⟩ ⟨2, ![K, w]⟩ ⟨2, ![n, w]⟩} (hd : Plain d)
    (l : (⟨2, ![n, K]⟩ : Shape).Idx → EReal) (r : (⟨2, ![K, w]⟩ : Shape).Idx → EReal) (p : Fin n) (q : Fin w) :
    (∑ k : d.contr.Idx, l (d.lhsIdx (ix2 p q) k) * r (d.rhsIdx (ix2 p q) k)) = ∑ k : Fin K, l (ix2 p k) * r (ix2 k q) := by
  rw [← Equiv.sum_comp (contrEquiv1 d K hd.rank hd.size).symm]
  refine Finset.sum_congr rfl fun k _ => ?_
  have hk := contrEquiv1_symm_val d K hd.rank hd.size k
  have el : d.lhsIdx (ix2 p q) ((contrEquiv1 d K hd.rank hd.size).symm k) = ix2 p k := funext fun a => Fin.ext (by
    match a with
    | ⟨0, _⟩ => exact hd.l0 _ _
    | ⟨1, _⟩ => exact (hd.l1 _ _).trans hk)
  have er : d.rhsIdx (ix2 p q) ((contrEquiv1 d K hd.rank hd.size).symm k) = ix2 k q := funext fun a => Fin.ext (by
    match a with
    | ⟨0, _⟩ => exact (hd.r0 _ _).trans hk
    | ⟨1, _⟩ => exact hd.r1 _ _)
  rw [el, er]

/-- A matrix-unit product into the zero accumulator, at entry (p, q). -/
theorem matmul_zero_at {n K w : ℕ} {d : DotDims ⟨2, ![n, K]⟩ ⟨2, ![K, w]⟩ ⟨2, ![n, w]⟩} (hd : Plain d) {φ₁ φ₂ : FTy}
    (prec : Option ContractPrecision) (l : FVec Ideal ⟨2, ![n, K]⟩ φ₁) (r : FVec Ideal ⟨2, ![K, w]⟩ φ₂) (p : Fin n) (q : Fin w) :
    FloatOps.matmul d prec l r (constant ⟨2, ![n, w]⟩ .f32 0x00000000#32) (ix2 p q) = ∑ k : Fin K, l (ix2 p k) * r (ix2 k q) :=
  (Ideal.matmul_constant_zero_apply d prec l r (ix2 p q)).trans (sum_eq hd l r p q)

end Cert.LibMatmulSum

end
-- ==== Proof.Reg0.lean ====
/-
  The first matrix-product call. Its grid has two points; point t holds rows 128 t .. 128 t + 127 of the left
  operand [256, 2048], the whole right operand [2048, 4160], and writes rows 128 t .. 128 t + 127 of the result
  [256, 4160]. The body is one matrix-unit product into a zero accumulator, so the entry (p, q) of the block it
  leaves is  Σ_{k < 2048} left(p, k) · right(k, q)  of the blocks it holds. Row p of block t is row 128 t + p of
  the array, so block t of the result is block t of the product of the two whole arrays; the two blocks tile
  the result, so the result array IS that product.
-/
import proofs.«130559_j17334488007012_2_alg».proof.Proof.Spec
import proofs.«130559_j17334488007012_2_alg».proof.Proof.LibMatmulSum
import proofs.«130559_j17334488007012_2_alg».proof.Proof.Gen.KernelIdeal.Frame
import Idealize.ShloMosaic.Lib.Pipeline.Value

set_option maxRecDepth 16384

noncomputable section

namespace GcGru.Reg0

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-- The body's one store starts at the origin of its buffer. -/
theorem hz : (![0, 0] : Fin 2 → Nat) = fun _ => 0 := funext fun a => by fin_cases a <;> rfl

/-- The product's dimension numbers spell a plain product [128, 2048] x [2048, 4160] with one contracted axis of
    extent 2048: left contracted on its axis 1, right on its axis 0. -/
theorem plain : Cert.LibMatmulSum.Plain dot_S128x2048_S2048x4160_S128x4160_1_0_0_1_n_n where
  rank := rfl
  size := rfl
  l0 := fun i q => by
    unfold DotDims.lhsIdx
    rw [dif_neg (show ¬(0 : Fin S128x2048.rank) ∈ dot_S128x2048_S2048x4160_S128x4160_1_0_0_1_n_n.lhsBatch by decide), dif_pos (show (0 : Fin S128x2048.rank) ∈ dot_S128x2048_S2048x4160_S128x4160_1_0_0_1_n_n.lhsNonContracting by decide)]
    rfl
  l1 := fun i q => dot_S128x2048_S2048x4160_S128x4160_1_0_0_1_n_n.lhsIdx_val_of_single rfl i q
  r0 := fun i q => dot_S128x2048_S2048x4160_S128x4160_1_0_0_1_n_n.rhsIdx_val_of_single rfl i q
  r1 := fun i q => by
    unfold DotDims.rhsIdx
    rw [dif_neg (show ¬(1 : Fin S2048x4160.rank) ∈ dot_S128x2048_S2048x4160_S128x4160_1_0_0_1_n_n.rhsBatch by decide), dif_pos (show (1 : Fin S2048x4160.rank) ∈ dot_S128x2048_S2048x4160_S128x4160_1_0_0_1_n_n.rhsNonContracting by decide)]
    rfl

/-- The body's result at entry (p, q) of its block: the sum over the 2048 contracted positions of
    left(p, k) · right(k, q). Narrowing the product's values to the stored type changes nothing at the exact
    instance. -/
theorem pay_at (x0 : Vec Ideal S128x2048 .bf16) (x1 : Vec Ideal S2048x4160 .bf16) (p : Fin 128) (q : Fin 4160) :
    k0_pay1 x0 x1 (ix2 p q) = ∑ k : Fin 2048, x0 (ix2 p k) * x1 (ix2 k q) := by
  unfold k0_pay1
  rw [shapeCast_self, shapeCast_self]
  exact Cert.LibMatmulSum.matmul_zero_at plain (φ₁ := FTy.bf16) (φ₂ := FTy.bf16) none x0 x1 p q

/-- The printed index maps over the two grid points: the left operand's row block is the result's row block and
    its column block is 0; the right operand is one block at (0, 0); the result's column block is 0 and its row
    block is 0 or 1. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 1
    ∧ win0_2.index t (1 : Fin 2) = 0 :=
  (by decide +kernel : ∀ t : Fin grid0.N, _)

/-- Each row block of the result is some point's: point r has row block r. -/
theorem idx_onto : ∀ r : Fin 2, ∃ t : Fin cfg0.N, win0_2.index t (0 : Fin 2) = r.val :=
  (by decide +kernel : ∀ r : Fin 2, ∃ t : Fin grid0.N, win0_2.index t (0 : Fin 2) = r.val)

/-- If row p of a left block is row (i 0) of the left array, and column q of a right block is column (i 1) of the
    right array, the blocks' sum of products at (p, q) is the arrays' product at i. -/
theorem sum_blocks (A : GcGru.Arr2 256 2048) (B : GcGru.Arr2 2048 4160) (x0 : Vec Ideal S128x2048 .bf16) (x1 : Vec Ideal S2048x4160 .bf16)
    (i : S256x4160.Idx) (p : Fin 128) (q : Fin 4160)
    (hA : ∀ k : Fin 2048, x0 (ix2 p k) = A (ix2 (i 0) k)) (hB : ∀ k : Fin 2048, x1 (ix2 k q) = B (ix2 k (i 1))) :
    (∑ k : Fin 2048, x0 (ix2 p k) * x1 (ix2 k q)) = GcGru.mm A B i := by
  unfold GcGru.mm
  exact Finset.sum_congr rfl fun k _ => by rw [hA k, hB k]

section
variable (V : (c : Dev nD) → (b : Ref sig .tc) → Buf (Elt Ideal) ((c : Thread nD τ).loc b))

/-- What point t writes back is block t of the product of the two operand arrays: entry (p, q) of the block is
    the sum over k of left-block(p, k) · right-block(k, q); the left block's entry (p, k) is the array's entry
    (128 t + p, k), the right block is the whole array, and entry (p, q) of the result's block is the array's
    entry (128 t + p, q). -/
theorem flushed_eq (c : Dev nD) (t : Fin cfg0.N) :
    (dat0 (F := Ideal) V c).flushed 2 t = ((cfg0.win 2).blk t).view.read (Elt Ideal) (GcGru.mm (V c main_v1) (V c main_v8)) := by
  show (cfg0.win 2).cut (grid0.coords t) ((dat0 V c).after 2 t) = _
  rw [after0_2]
  unfold out0_2
  rw [View.canon_unit_zero hz]
  simp only [View.ld_unit_zero (S := S128x2048) hz, View.ld_unit_zero (S := S2048x4160) hz]
  obtain ⟨e0, e1, e2, e3, e4, e5⟩ := idx_facts t
  funext j
  obtain ⟨p, q, rfl⟩ : ∃ (p : Fin 128) (q : Fin 4160), j = ix2 p q := ⟨j 0, j 1, eq_ix2 j⟩
  show k0_pay1 (iblk0 V c 0 t) (iblk0 V c 1 t) (ix2 p q) = GcGru.mm (V c main_v1) (V c main_v8) (((cfg0.win 2).blk t).view.emb (ix2 p q))
  rw [pay_at]
  refine sum_blocks (V c main_v1) (V c main_v8) _ _ _ p q (fun k => ?_) (fun k => ?_)
  · have h0 : ((cfg0.win 0).blk t).view.emb (ix2 p k) = ix2 ((((cfg0.win 2).blk t).view.emb (ix2 p q)) 0) k := by
      funext a; apply Fin.ext
      match a with
      | ⟨0, _⟩ => show win0_0.index t (0 : Fin 2) * 128 + 1 * p.val = win0_2.index t (0 : Fin 2) * 128 + 1 * p.val; omega
      | ⟨1, _⟩ => show win0_0.index t (1 : Fin 2) * 2048 + 1 * k.val = k.val; omega
    show V c main_v1 (((cfg0.win 0).blk t).view.emb (ix2 p k)) = V c main_v1 _
    exact congrArg _ h0
  · have h1 : ((cfg0.win 1).blk t).view.emb (ix2 k q) = ix2 k ((((cfg0.win 2).blk t).view.emb (ix2 p q)) 1) := by
      funext a; apply Fin.ext
      match a with
      | ⟨0, _⟩ => show win0_1.index t (0 : Fin 2) * 2048 + 1 * k.val = k.val; omega
      | ⟨1, _⟩ => show win0_1.index t (1 : Fin 2) * 4160 + 1 * q.val = win0_2.index t (1 : Fin 2) * 4160 + 1 * q.val; omega
    show V c main_v8 (((cfg0.win 1).blk t).view.emb (ix2 k q)) = V c main_v8 _
    exact congrArg _ h1

/-- An index of the result array is in point t's block iff each coordinate is in the block's range on its axis. -/
theorem mem_blk (t : Fin cfg0.N) (i : S256x4160.Idx) :
    i ∈ ((cfg0.win 2).blk t).view.set ↔ ∀ a : Fin 2, win0_2.index t a * S128x4160.size a ≤ (i a).val ∧ (i a).val < win0_2.index t a * S128x4160.size a + S128x4160.size a := by
  show i ∈ ((View.whole main_v9).slice (win0_2.rect t)).set ↔ _
  rw [View.set_slice_whole, Rect.mem_set_unit]
  exact Iff.rfl

/-- The two row blocks tile the result: row r lies in the block of point r / 128. -/
theorem cover (i : S256x4160.Idx) : ∃ t : Fin cfg0.N, (cfg0.win 2).flush t = true ∧ i ∈ ((cfg0.win 2).blk t).view.set := by
  have hi0 : (i 0).val < 256 := (i 0).isLt
  have hi1 : (i 1).val < 4160 := (i 1).isLt
  obtain ⟨t, ht⟩ := idx_onto ⟨(i 0).val / 128, by omega⟩
  have q0 : win0_2.index t (0 : Fin 2) = (i 0).val / 128 := ht
  obtain ⟨e0, e1, e2, e3, e4, e5⟩ := idx_facts t
  refine ⟨t, flush0_2 t, ?_⟩
  rw [mem_blk]
  intro a
  match a with
  | ⟨0, _⟩ => show win0_2.index t (0 : Fin 2) * 128 ≤ (i 0).val ∧ (i 0).val < win0_2.index t (0 : Fin 2) * 128 + 128; omega
  | ⟨1, _⟩ => show win0_2.index t (1 : Fin 2) * 4160 ≤ (i 1).val ∧ (i 1).val < win0_2.index t (1 : Fin 2) * 4160 + 4160; omega

/-- The result array after the call is the product of the two operand arrays as the call finds them. -/
theorem final (c : Dev nD) : (dat0 (F := Ideal) V c).arrAt 2 cfg0.N = GcGru.mm (V c main_v1) (V c main_v8) :=
  (dat0 (F := Ideal) V c).arrAt_eq_of_cover 2 (GcGru.mm (V c main_v1) (V c main_v8)) (fun t _ => flushed_eq V c t) cover

end

end GcGru.Reg0

end
-- ==== Proof.Reg1.lean ====
/-
  The fine-graph convolution call. Its grid has eight points; point t holds rows 256 t .. 256 t + 255 of the
  adjacency [2048, 2048] and of the coarse-to-fine matrix [2048, 256], the whole feature array [2048, 4160] and the
  whole pooled array [256, 4160], and writes rows 256 t .. 256 t + 255 of the result [2048, 4160]. The body is two
  matrix-unit products into zero accumulators, the logistic function of the second, and their sum, so entry (p, q)
  of the block it leaves is  Σ_{k < 2048} adj(p, k) · x(k, q) + σ(Σ_{k < 256} afct(p, k) · y(k, q))  of the blocks it
  holds. Row p of block t is row 256 t + p of the array, so block t of the result is block t of that function of
  the four whole arrays; the eight blocks tile the result, so the result array IS that function.
-/
import proofs.«130559_j17334488007012_2_alg».proof.Proof.Spec
import proofs.«130559_j17334488007012_2_alg».proof.Proof.LibMatmulSum
import proofs.«130559_j17334488007012_2_alg».proof.Proof.Gen.KernelIdeal.Frame
import Idealize.ShloMosaic.Lib.Pipeline.Value

set_option maxRecDepth 16384

noncomputable section

namespace GcGru.Reg1

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-- The body's one store starts at the origin of its buffer. -/
theorem hz : (![0, 0] : Fin 2 → Nat) = fun _ => 0 := funext fun a => by fin_cases a <;> rfl

/-- The first product's dimension numbers spell a plain product [256, 2048] x [2048, 4160] with one contracted axis
    of extent 2048: left contracted on its axis 1, right on its axis 0. -/
theorem plainA : Cert.LibMatmulSum.Plain dot_S256x2048_S2048x4160_S256x4160_1_0_0_1_n_n where
  rank := rfl
  size := rfl
  l0 := fun i q => by
    unfold DotDims.lhsIdx
    rw [dif_neg (show ¬(0 : Fin S256x2048.rank) ∈ dot_S256x2048_S2048x4160_S256x4160_1_0_0_1_n_n.lhsBatch by decide), dif_pos (show (0 : Fin S256x2048.rank) ∈ dot_S256x2048_S2048x4160_S256x4160_1_0_0_1_n_n.lhsNonContracting by decide)]
    rfl
  l1 := fun i q => dot_S256x2048_S2048x4160_S256x4160_1_0_0_1_n_n.lhsIdx_val_of_single rfl i q
  r0 := fun i q => dot_S256x2048_S2048x4160_S256x4160_1_0_0_1_n_n.rhsIdx_val_of_single rfl i q
  r1 := fun i q => by
    unfold DotDims.rhsIdx
    rw [dif_neg (show ¬(1 : Fin S2048x4160.rank) ∈ dot_S256x2048_S2048x4160_S256x4160_1_0_0_1_n_n.rhsBatch by decide), dif_pos (show (1 : Fin S2048x4160.rank) ∈ dot_S256x2048_S2048x4160_S256x4160_1_0_0_1_n_n.rhsNonContracting by decide)]
    rfl

/-- The second product's dimension numbers spell a plain product [256, 256] x [256, 4160] with one contracted axis
    of extent 256: left contracted on its axis 1, right on its axis 0. -/
theorem plainB : Cert.LibMatmulSum.Plain dot_S256x256_S256x4160_S256x4160_1_0_0_1_n_n where
  rank := rfl
  size := rfl
  l0 := fun i q => by
    unfold DotDims.lhsIdx
    rw [dif_neg (show ¬(0 : Fin S256x256.rank) ∈ dot_S256x256_S256x4160_S256x4160_1_0_0_1_n_n.lhsBatch by decide), dif_pos (show (0 : Fin S256x256.rank) ∈ dot_S256x256_S256x4160_S256x4160_1_0_0_1_n_n.lhsNonContracting by decide)]
    rfl
  l1 := fun i q => dot_S256x256_S256x4160_S256x4160_1_0_0_1_n_n.lhsIdx_val_of_single rfl i q
  r0 := fun i q => dot_S256x256_S256x4160_S256x4160_1_0_0_1_n_n.rhsIdx_val_of_single rfl i q
  r1 := fun i q => by
    unfold DotDims.rhsIdx
    rw [dif_neg (show ¬(1 : Fin S256x4160.rank) ∈ dot_S256x256_S256x4160_S256x4160_1_0_0_1_n_n.rhsBatch by decide), dif_pos (show (1 : Fin S256x4160.rank) ∈ dot_S256x256_S256x4160_S256x4160_1_0_0_1_n_n.rhsNonContracting by decide)]
    rfl

/-- The body's result at entry (p, q) of its block: the first product's sum over 2048 contracted positions plus
    the logistic function of the second product's sum over 256 contracted positions. Narrowing to the stored type
    changes nothing at the exact instance. -/
theorem pay_at (x0 : Vec Ideal S256x2048 .bf16) (x1 : Vec Ideal S2048x4160 .bf16) (x2 : Vec Ideal S256x256 .bf16) (x3 : Vec Ideal S256x4160 .bf16)
    (p : Fin 256) (q : Fin 4160) :
    k1_pay1 x0 x1 x2 x3 (ix2 p q)
      = (∑ k : Fin 2048, x0 (ix2 p k) * x1 (ix2 k q)) + Ideal.logistic (∑ k : Fin 256, x2 (ix2 p k) * x3 (ix2 k q)) := by
  unfold k1_pay1
  rw [shapeCast_self, shapeCast_self, shapeCast_self, shapeCast_self]
  exact congrArg₂ (fun a b : EReal => a + Ideal.logistic b)
    (Cert.LibMatmulSum.matmul_zero_at plainA (φ₁ := FTy.bf16) (φ₂ := FTy.bf16) none x0 x1 p q)
    (Cert.LibMatmulSum.matmul_zero_at plainB (φ₁ := FTy.bf16) (φ₂ := FTy.bf16) none x2 x3 p q)

/-- The printed index maps over the eight grid points: the two row-blocked operands' row block is the result's row
    block and their column block is 0; the two whole operands are one block at (0, 0); the result's column block
    is 0 and its row block is at most 7. -/
theorem idx_facts : ∀ t : Fin cfg1.N, win1_0.index t (0 : Fin 2) = win1_4.index t (0 : Fin 2)
    ∧ win1_0.index t (1 : Fin 2) = 0
    ∧ win1_1.index t (0 : Fin 2) = 0
    ∧ win1_1.index t (1 : Fin 2) = 0
    ∧ win1_2.index t (0 : Fin 2) = win1_4.index t (0 : Fin 2)
    ∧ win1_2.index t (1 : Fin 2) = 0
    ∧ win1_3.index t (0 : Fin 2) = 0
    ∧ win1_3.index t (1 : Fin 2) = 0
    ∧ win1_4.index t (0 : Fin 2) ≤ 7
    ∧ win1_4.index t (1 : Fin 2) = 0 :=
  (by decide +kernel : ∀ t : Fin grid1.N, _)

/-- Each row block of the result is some point's: point r has row block r. -/
theorem idx_onto : ∀ r : Fin 8, ∃ t : Fin cfg1.N, win1_4.index t (0 : Fin 2) = r.val :=
  (by decide +kernel : ∀ r : Fin 8, ∃ t : Fin grid1.N, win1_4.index t (0 : Fin 2) = r.val)

/-- If row p of the two row-blocked operands' blocks is row (i 0) of their arrays, and column q of the two whole
    operands' blocks is column (i 1) of their arrays, the blocks' value at (p, q) is the arrays' value at i. -/
theorem comb_blocks (A : GcGru.Arr2 2048 2048) (B : GcGru.Arr2 2048 4160) (C : GcGru.Arr2 2048 256) (D : GcGru.Arr2 256 4160)
    (x0 : Vec Ideal S256x2048 .bf16) (x1 : Vec Ideal S2048x4160 .bf16) (x2 : Vec Ideal S256x256 .bf16) (x3 : Vec Ideal S256x4160 .bf16)
    (i : S2048x4160.Idx) (p : Fin 256) (q : Fin 4160)
    (hA : ∀ k : Fin 2048, x0 (ix2 p k) = A (ix2 (i 0) k)) (hB : ∀ k : Fin 2048, x1 (ix2 k q) = B (ix2 k (i 1)))
    (hC : ∀ k : Fin 256, x2 (ix2 p k) = C (ix2 (i 0) k)) (hD : ∀ k : Fin 256, x3 (ix2 k q) = D (ix2 k (i 1))) :
    (∑ k : Fin 2048, x0 (ix2 p k) * x1 (ix2 k q)) + Ideal.logistic (∑ k : Fin 256, x2 (ix2 p k) * x3 (ix2 k q))
      = GcGru.comb A B C D i := by
  have e1 : (∑ k : Fin 2048, x0 (ix2 p k) * x1 (ix2 k q)) = ∑ k : Fin 2048, A (ix2 (i 0) k) * B (ix2 k (i 1)) :=
    Finset.sum_congr rfl fun k _ => by rw [hA k, hB k]
  have e2 : (∑ k : Fin 256, x2 (ix2 p k) * x3 (ix2 k q)) = ∑ k : Fin 256, C (ix2 (i 0) k) * D (ix2 k (i 1)) :=
    Finset.sum_congr rfl fun k _ => by rw [hC k, hD k]
  unfold GcGru.comb GcGru.mm
  rw [e1, e2]

section
variable (V : (c : Dev nD) → (b : Ref sig .tc) → Buf (Elt Ideal) ((c : Thread nD τ).loc b))

/-- What point t writes back is block t of the convolution of the four operand arrays: the row-blocked operands'
    entry (p, k) is their arrays' entry (256 t + p, k), the whole operands' blocks are their arrays, and entry
    (p, q) of the result's block is the array's entry (256 t + p, q). -/
theorem flushed_eq (c : Dev nD) (t : Fin cfg1.N) :
    (dat1 (F := Ideal) V c).flushed 4 t
      = ((cfg1.win 4).blk t).view.read (Elt Ideal) (GcGru.comb (V c main_v0) (V c main_v8) (V c main_v2) (V c main_v9)) := by
  show (cfg1.win 4).cut (grid1.coords t) ((dat1 V c).after 4 t) = _
  rw [after1_4]
  unfold out1_4
  rw [View.canon_unit_zero hz]
  simp only [View.ld_unit_zero (S := S256x2048) hz, View.ld_unit_zero (S := S2048x4160) hz, View.ld_unit_zero (S := S256x256) hz,
    View.ld_unit_zero (S := S256x4160) hz]
  obtain ⟨e0, e1, e2, e3, e4, e5, e6, e7, e8, e9⟩ := idx_facts t
  funext j
  obtain ⟨p, q, rfl⟩ : ∃ (p : Fin 256) (q : Fin 4160), j = ix2 p q := ⟨j 0, j 1, eq_ix2 j⟩
  show k1_pay1 (iblk1 V c 0 t) (iblk1 V c 1 t) (iblk1 V c 2 t) (iblk1 V c 3 t) (ix2 p q)
    = GcGru.comb (V c main_v0) (V c main_v8) (V c main_v2) (V c main_v9) (((cfg1.win 4).blk t).view.emb (ix2 p q))
  rw [pay_at]
  refine comb_blocks (V c main_v0) (V c main_v8) (V c main_v2) (V c main_v9) _ _ _ _ _ p q (fun k => ?_) (fun k => ?_) (fun k => ?_) (fun k => ?_)
  · have h : ((cfg1.win 0).blk t).view.emb (ix2 p k) = ix2 ((((cfg1.win 4).blk t).view.emb (ix2 p q)) 0) k := by
      funext a; apply Fin.ext
      match a with
      | ⟨0, _⟩ => show win1_0.index t (0 : Fin 2) * 256 + 1 * p.val = win1_4.index t (0 : Fin 2) * 256 + 1 * p.val; omega
      | ⟨1, _⟩ => show win1_0.index t (1 : Fin 2) * 2048 + 1 * k.val = k.val; omega
    show V c main_v0 (((cfg1.win 0).blk t).view.emb (ix2 p k)) = V c main_v0 _
    exact congrArg _ h
  · have h : ((cfg1.win 1).blk t).view.emb (ix2 k q) = ix2 k ((((cfg1.win 4).blk t).view.emb (ix2 p q)) 1) := by
      funext a; apply Fin.ext
      match a with
      | ⟨0, _⟩ => show win1_1.index t (0 : Fin 2) * 2048 + 1 * k.val = k.val; omega
      | ⟨1, _⟩ => show win1_1.index t (1 : Fin 2) * 4160 + 1 * q.val = win1_4.index t (1 : Fin 2) * 4160 + 1 * q.val; omega
    show V c main_v8 (((cfg1.win 1).blk t).view.emb (ix2 k q)) = V c main_v8 _
    exact congrArg _ h
  · have h : ((cfg1.win 2).blk t).view.emb (ix2 p k) = ix2 ((((cfg1.win 4).blk t).view.emb (ix2 p q)) 0) k := by
      funext a; apply Fin.ext
      match a with
      | ⟨0, _⟩ => show win1_2.index t (0 : Fin 2) * 256 + 1 * p.val = win1_4.index t (0 : Fin 2) * 256 + 1 * p.val; omega
      | ⟨1, _⟩ => show win1_2.index t (1 : Fin 2) * 256 + 1 * k.val = k.val; omega
    show V c main_v2 (((cfg1.win 2).blk t).view.emb (ix2 p k)) = V c main_v2 _
    exact congrArg _ h
  · have h : ((cfg1.win 3).blk t).view.emb (ix2 k q) = ix2 k ((((cfg1.win 4).blk t).view.emb (ix2 p q)) 1) := by
      funext a; apply Fin.ext
      match a with
      | ⟨0, _⟩ => show win1_3.index t (0 : Fin 2) * 256 + 1 * k.val = k.val; omega
      | ⟨1, _⟩ => show win1_3.index t (1 : Fin 2) * 4160 + 1 * q.val = win1_4.index t (1 : Fin 2) * 4160 + 1 * q.val; omega
    show V c main_v9 (((cfg1.win 3).blk t).view.emb (ix2 k q)) = V c main_v9 _
    exact congrArg _ h

/-- An index of the result array is in point t's block iff each coordinate is in the block's range on its axis. -/
theorem mem_blk (t : Fin cfg1.N) (i : S2048x4160.Idx) :
    i ∈ ((cfg1.win 4).blk t).view.set ↔ ∀ a : Fin 2, win1_4.index t a * S256x4160.size a ≤ (i a).val ∧ (i a).val < win1_4.index t a * S256x4160.size a + S256x4160.size a := by
  show i ∈ ((View.whole main_v10).slice (win1_4.rect t)).set ↔ _
  rw [View.set_slice_whole, Rect.mem_set_unit]
  exact Iff.rfl

/-- The eight row blocks tile the result: row r lies in the block of point r / 256. -/
theorem cover (i : S2048x4160.Idx) : ∃ t : Fin cfg1.N, (cfg1.win 4).flush t = true ∧ i ∈ ((cfg1.win 4).blk t).view.set := by
  have hi0 : (i 0).val < 2048 := (i 0).isLt
  have hi1 : (i 1).val < 4160 := (i 1).isLt
  obtain ⟨t, ht⟩ := idx_onto ⟨(i 0).val / 256, by omega⟩
  have q0 : win1_4.index t (0 : Fin 2) = (i 0).val / 256 := ht
  obtain ⟨e0, e1, e2, e3, e4, e5, e6, e7, e8, e9⟩ := idx_facts t
  refine ⟨t, flush1_4 t, ?_⟩
  rw [mem_blk]
  intro a
  match a with
  | ⟨0, _⟩ => show win1_4.index t (0 : Fin 2) * 256 ≤ (i 0).val ∧ (i 0).val < win1_4.index t (0 : Fin 2) * 256 + 256; omega
  | ⟨1, _⟩ => show win1_4.index t (1 : Fin 2) * 4160 ≤ (i 1).val ∧ (i 1).val < win1_4.index t (1 : Fin 2) * 4160 + 4160; omega

/-- The result array after the call is the convolution of the four operand arrays as the call finds them. -/
theorem final (c : Dev nD) :
    (dat1 (F := Ideal) V c).arrAt 4 cfg1.N = GcGru.comb (V c main_v0) (V c main_v8) (V c main_v2) (V c main_v9) :=
  (dat1 (F := Ideal) V c).arrAt_eq_of_cover 4 (GcGru.comb (V c main_v0) (V c main_v8) (V c main_v2) (V c main_v9))
    (fun t _ => flushed_eq V c t) cover

end

end GcGru.Reg1

end
-- ==== Proof.Reg2.lean ====
/-
  The linear-layer call: from the feature rows  xf  [131072, 65], the weights  w  [65, 128] and the one-row bias
  [1, 128] it leaves  xf · w + bias  [131072, 128]: entry (r, o) is  Σ_{f<65} xf[r,f] · w[f,o] + bias[0,o].

  The call walks 32 grid points; point t works on the rows [4096 t, 4096 t + 4096) of the features and of the result,
  and on the whole of the weights and of the bias.  The body's one store writes, at entry (p, q) of the block, the
  matrix-unit product into a zero accumulator of the loaded feature block and the weights at (p, q) — the sum over the
  65 features in their order — plus the bias row broadcast over the rows, read at q; narrowing to the stored format
  changes no value.  Row p of a feature or result block is row 4096 t + p of the array; the weights' and the bias's
  block is the whole array.  The 32 row blocks tile the 131072 rows, so every entry of the result is written by the
  point  row / 4096.
-/
import proofs.«130559_j17334488007012_2_alg».proof.Proof.Gen.KernelIdeal.Frame
import proofs.«130559_j17334488007012_2_alg».proof.Proof.Gen.KernelIdeal.Points
import proofs.«130559_j17334488007012_2_alg».proof.Proof.Spec
import proofs.«130559_j17334488007012_2_alg».proof.Proof.LibMatmulSum
import Idealize.ShloMosaic.Lib.Pipeline.Value
import Idealize.ShloMosaic.Lib.ValueIdx
import Idealize.ShloMosaic.Lib.ValueLayout

noncomputable section

namespace GcGru.Reg2

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

theorem origin_zero : (![0, 0] : Fin 2 → Nat) = fun _ => 0 := funext fun a => by fin_cases a <;> rfl

/-- The product's dimension numbers spell a plain product with 65 contracted features: the left operand contracted on
    its axis 1, the right on its axis 0, the result's axes the left's rows and the right's columns. -/
theorem plain : Cert.LibMatmulSum.Plain dot_S4096x65_S65x128_S4096x128_1_0_0_1_n_n where
  rank := rfl
  size := rfl
  l0 := fun i q => by
    unfold DotDims.lhsIdx
    rw [dif_neg (show ¬(0 : Fin S4096x65.rank) ∈ dot_S4096x65_S65x128_S4096x128_1_0_0_1_n_n.lhsBatch by decide), dif_pos (show (0 : Fin S4096x65.rank) ∈ dot_S4096x65_S65x128_S4096x128_1_0_0_1_n_n.lhsNonContracting by decide)]
    rfl
  l1 := fun i q => dot_S4096x65_S65x128_S4096x128_1_0_0_1_n_n.lhsIdx_val_of_single rfl i q
  r0 := fun i q => dot_S4096x65_S65x128_S4096x128_1_0_0_1_n_n.rhsIdx_val_of_single rfl i q
  r1 := fun i q => by
    unfold DotDims.rhsIdx
    rw [dif_neg (show ¬(1 : Fin S65x128.rank) ∈ dot_S4096x65_S65x128_S4096x128_1_0_0_1_n_n.rhsBatch by decide), dif_pos (show (1 : Fin S65x128.rank) ∈ dot_S4096x65_S65x128_S4096x128_1_0_0_1_n_n.rhsNonContracting by decide)]
    rfl

/-- The body's arithmetic at an entry of a block: Σ_f features[p,f] · weights[f,q] + bias[0,q]. -/
theorem pay_at (x0 : Vec Ideal S4096x65 .bf16) (x1 : Vec Ideal S65x128 .bf16) (x2 : Vec Ideal S1x128 .f32) (p : Fin 4096) (q : Fin 128) :
    k2_pay1 x0 x1 x2 (ix2 p q) = (∑ k : Fin 65, x0 (ix2 p k) * x1 (ix2 k q)) + x2 (ix2 (0 : Fin 1) q) := by
  unfold k2_pay1
  simp only [shapeCast_self]
  exact congrArg₂ (fun (a b : EReal) => a + b)
    (Cert.LibMatmulSum.matmul_zero_at plain (φ₁ := .bf16) (φ₂ := .bf16) none x0 x1 p q)
    (broadcastTo_1b_ab_apply x2 broadcasts_S1x128_S4096x128 p q)

/-- The linear layer at an entry, from the three arrays read at entries known to be the right ones. -/
theorem affine_at (a0 : Arr2 131072 65) (a1 : Arr2 65 128) (a2 : Arr2 1 128)
    (f0 : Fin 65 → S131072x65.Idx) (f1 : Fin 65 → S65x128.Idx) (i2 : S1x128.Idx) (i : S131072x128.Idx)
    (e0 : ∀ k, f0 k = ix2 (i 0) k) (e1 : ∀ k, f1 k = ix2 k (i 1)) (e2 : i2 = ix2 (0 : Fin 1) (i 1)) :
    (∑ k : Fin 65, a0 (f0 k) * a1 (f1 k)) + a2 i2 = GcGru.affine a0 a1 a2 i := by
  rw [e2]
  simp only [e0, e1]
  rfl

/-- The four index maps over the 32 points: the features' and the result's block sits at block position (t, 0), the
    weights' and the bias's at (0, 0). -/
theorem idx_facts : ∀ t : Fin cfg2.N,
    (win2_0.index t (0 : Fin 2) = t.val ∧ win2_0.index t (1 : Fin 2) = 0)
    ∧ (win2_1.index t (0 : Fin 2) = 0 ∧ win2_1.index t (1 : Fin 2) = 0)
    ∧ (win2_2.index t (0 : Fin 2) = 0 ∧ win2_2.index t (1 : Fin 2) = 0)
    ∧ (win2_3.index t (0 : Fin 2) = t.val ∧ win2_3.index t (1 : Fin 2) = 0) :=
  (by decide +kernel : ∀ t : Fin grid2.N, _)

/-- What point t writes back is block t of the linear layer of the three arrays. -/
theorem flushed_eq (c : Dev nD) (t : Fin cfg2.N) :
    (dat2 (F := Ideal) V c).flushed 3 t
      = ((cfg2.win 3).blk t).view.read (Elt Ideal) (GcGru.affine (V c main_v11) (V c main_v12) (V c main_v13)) := by
  show (cfg2.win 3).cut (grid2.coords t) ((dat2 V c).after 3 t) = _
  rw [after2_3]
  unfold out2_3
  rw [View.canon_unit_zero origin_zero]
  simp only [View.ld_unit_zero (S := S4096x65) origin_zero, View.ld_unit_zero (S := S65x128) origin_zero, View.ld_unit_zero (S := S1x128) origin_zero]
  obtain ⟨⟨a0, a1⟩, ⟨b0, b1⟩, ⟨c0, c1⟩, ⟨d0, d1⟩⟩ := idx_facts t
  funext j
  obtain ⟨p, q, rfl⟩ : ∃ (p : Fin 4096) (q : Fin 128), j = ix2 p q := ⟨j 0, j 1, eq_ix2 j⟩
  show k2_pay1 (iblk2 V c 0 t) (iblk2 V c 1 t) (iblk2 V c 2 t) (ix2 p q)
    = GcGru.affine (V c main_v11) (V c main_v12) (V c main_v13) (((cfg2.win 3).blk t).view.emb (ix2 p q))
  rw [pay_at]
  have h0 : ∀ k : Fin 65, ((cfg2.win 0).blk t).view.emb (ix2 p k)
      = ix2 ((((cfg2.win 3).blk t).view.emb (ix2 p q)) 0) k := by
    intro k; funext a; apply Fin.ext
    match a with
    | ⟨0, _⟩ => show win2_0.index t (0 : Fin 2) * 4096 + 1 * p.val = win2_3.index t (0 : Fin 2) * 4096 + 1 * p.val; omega
    | ⟨1, _⟩ => show win2_0.index t (1 : Fin 2) * 65 + 1 * k.val = k.val; omega
  have h1 : ∀ k : Fin 65, ((cfg2.win 1).blk t).view.emb (ix2 k q)
      = ix2 k ((((cfg2.win 3).blk t).view.emb (ix2 p q)) 1) := by
    intro k; funext a; apply Fin.ext
    match a with
    | ⟨0, _⟩ => show win2_1.index t (0 : Fin 2) * 65 + 1 * k.val = k.val; omega
    | ⟨1, _⟩ => show win2_1.index t (1 : Fin 2) * 128 + 1 * q.val = win2_3.index t (1 : Fin 2) * 128 + 1 * q.val; omega
  have h2 : ((cfg2.win 2).blk t).view.emb (ix2 (0 : Fin 1) q)
      = ix2 (0 : Fin 1) ((((cfg2.win 3).blk t).view.emb (ix2 p q)) 1) := by
    funext a; apply Fin.ext
    match a with
    | ⟨0, _⟩ => show win2_2.index t (0 : Fin 2) * 1 + 1 * 0 = 0; omega
    | ⟨1, _⟩ => show win2_2.index t (1 : Fin 2) * 128 + 1 * q.val = win2_3.index t (1 : Fin 2) * 128 + 1 * q.val; omega
  exact affine_at (V c main_v11) (V c main_v12) (V c main_v13)
    (fun k => ((cfg2.win 0).blk t).view.emb (ix2 p k)) (fun k => ((cfg2.win 1).blk t).view.emb (ix2 k q)) _ _ h0 h1 h2

/-- An entry of the result is in point t's block iff each coordinate is in the block's range on its axis. -/
theorem mem_blk (t : Fin cfg2.N) (i : S131072x128.Idx) :
    i ∈ ((cfg2.win 3).blk t).view.set ↔ ∀ a : Fin 2, win2_3.index t a * S4096x128.size a ≤ (i a).val ∧ (i a).val < win2_3.index t a * S4096x128.size a + S4096x128.size a := by
  show i ∈ ((View.whole main_v14).slice (win2_3.rect t)).set ↔ _
  rw [View.set_slice_whole, Rect.mem_set_unit]
  exact Iff.rfl

/-- Every entry of the result is in the block of the point  row / 4096. -/
theorem cover (i : S131072x128.Idx) : ∃ t : Fin cfg2.N, (cfg2.win 3).flush t = true ∧ i ∈ ((cfg2.win 3).blk t).view.set := by
  have hi0 : (i 0).val < 131072 := (i 0).isLt
  have hi1 : (i 1).val < 128 := (i 1).isLt
  have hN : cfg2.N = 32 := N_2
  refine ⟨⟨(i 0).val / 4096, by rw [hN]; omega⟩, flush2_3 _, ?_⟩
  obtain ⟨-, -, -, ⟨d0, d1⟩⟩ := idx_facts ⟨(i 0).val / 4096, by rw [hN]; omega⟩
  rw [mem_blk]
  intro a
  match a with
  | ⟨0, _⟩ => show win2_3.index _ (0 : Fin 2) * 4096 ≤ (i 0).val ∧ (i 0).val < win2_3.index _ (0 : Fin 2) * 4096 + 4096; rw [d0]; show (i 0).val / 4096 * 4096 ≤ (i 0).val ∧ (i 0).val < (i 0).val / 4096 * 4096 + 4096; omega
  | ⟨1, _⟩ => show win2_3.index _ (1 : Fin 2) * 128 ≤ (i 1).val ∧ (i 1).val < win2_3.index _ (1 : Fin 2) * 128 + 128; rw [d1]; omega

/-- The result array after the call is the linear layer of the three arrays the call reads. -/
theorem final (c : Dev nD) :
    (dat2 (F := Ideal) V c).arrAt 3 cfg2.N = GcGru.affine (V c main_v11) (V c main_v12) (V c main_v13) :=
  (dat2 (F := Ideal) V c).arrAt_eq_of_cover 3 (GcGru.affine (V c main_v11) (V c main_v12) (V c main_v13))
    (fun t _ => flushed_eq V c t) cover

end GcGru.Reg2

end
-- ==== Proof.Reg3.lean ====
/-
  The gate call: from the gates' pre-activation  v  [64, 2048, 128] and the state  s  [64, 2048, 64] it leaves two
  arrays [64, 2048, 64]: the reset state  σ(v[·,·,u]) · s[·,·,u]  (the lower 64 slots) and the update gate
  σ(v[·,·,64+u])  (the upper 64 slots), σ the logistic function.

  The call walks 16 grid points; point t works on the nodes [128 t, 128 t + 128) of every batch row, all slots, of each
  of its four arrays.  Each of the body's two stores writes, at entry (b, n, u) of the block, the logistic of the loaded
  pre-activation block at (b, n, u) or (b, n, 64 + u), for the first times the loaded state block at (b, n, u).  Entry
  (b, n, ·) of a block is the array's entry (b, 128 t + n, ·).  The 16 node blocks tile the 2048 nodes, so every entry
  of a result array is written by the point  node / 128.
-/
import proofs.«130559_j17334488007012_2_alg».proof.Proof.Gen.KernelIdeal.Frame
import proofs.«130559_j17334488007012_2_alg».proof.Proof.Gen.KernelIdeal.Points
import proofs.«130559_j17334488007012_2_alg».proof.Proof.Spec
import Idealize.ShloMosaic.Lib.Pipeline.Value
import Idealize.ShloMosaic.Lib.ValueIdx

noncomputable section

namespace GcGru.Reg3

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem origin_zero : (![0, 0, 0] : Fin 3 → Nat) = fun _ => 0 := funext fun a => by fin_cases a <;> rfl

/-- A rank-3 array cut along its last axis from `o` reads, at (a, b, j), the source at (a, b, k) with k = o + j. -/
theorem slice3_axis2_apply {α : Type} {n0 n1 n2 m : Nat} (o : Nat) (X : (⟨3, ![n0, n1, n2]⟩ : Shape).Idx → α)
    (h : (⟨3, ![n0, n1, n2]⟩ : Shape).Slices ![0, 0, o] ⟨3, ![n0, n1, m]⟩)
    (a : Fin n0) (b : Fin n1) (j : Fin m) (k : Fin n2) (hk : k.val = o + j.val) :
    extractStridedSlice ⟨3, ![n0, n1, m]⟩ ![0, 0, o] X h (ix3 a b j) = X (ix3 a b k) :=
  extractStridedSlice_apply _ _ _ _ _ (fun ax => by
    match ax with
    | ⟨0, _⟩ => exact (Nat.zero_add _).symm
    | ⟨1, _⟩ => exact (Nat.zero_add _).symm
    | ⟨2, _⟩ => exact hk)

/-- Widening a block changes no entry. -/
theorem widen_at (x0 : Vec Ideal S64x128x128 .bf16) (i : S64x128x128.Idx) : k3_pay1 x0 i = x0 i := by
  unfold k3_pay1
  simp only [shapeCast_self]
  rfl

/-- The lower 64 slots of a widened block, at an entry. -/
theorem slice_lo_at (x0 : Vec Ideal S64x128x128 .bf16) (b : Fin 64) (n : Fin 128) (u : Fin 64) :
    extractStridedSlice S64x128x64 ![0, 0, 0] (k3_pay1 x0) slices_S64x128x128_o0_0_0_S64x128x64 (ix3 b n u) = x0 (ix3 b n (lo u)) :=
  (slice3_axis2_apply 0 (k3_pay1 x0) slices_S64x128x128_o0_0_0_S64x128x64 b n u (lo u) (Nat.zero_add _).symm).trans (widen_at x0 _)

/-- The upper 64 slots of a widened block, at an entry. -/
theorem slice_hi_at (x0 : Vec Ideal S64x128x128 .bf16) (b : Fin 64) (n : Fin 128) (u : Fin 64) :
    extractStridedSlice S64x128x64 ![0, 0, 64] (k3_pay1 x0) slices_S64x128x128_o0_0_64_S64x128x64 (ix3 b n u) = x0 (ix3 b n (hi u)) :=
  (slice3_axis2_apply 64 (k3_pay1 x0) slices_S64x128x128_o0_0_64_S64x128x64 b n u (hi u) rfl).trans (widen_at x0 _)

/-- The first store's arithmetic at an entry of a block: σ(lower slot) · state. -/
theorem pay_reset_at (x0 : Vec Ideal S64x128x128 .bf16) (x1 : Vec Ideal S64x128x64 .f32) (b : Fin 64) (n : Fin 128) (u : Fin 64) :
    k3_pay3 x0 x1 (ix3 b n u) = Ideal.logistic (x0 (ix3 b n (lo u))) * x1 (ix3 b n u) := by
  unfold k3_pay3
  simp only [shapeCast_self]
  exact congrArg (fun z => Ideal.logistic z * x1 (ix3 b n u)) (slice_lo_at x0 b n u)

/-- The second store's arithmetic at an entry of a block: σ(upper slot). -/
theorem pay_update_at (x0 : Vec Ideal S64x128x128 .bf16) (b : Fin 64) (n : Fin 128) (u : Fin 64) :
    k3_pay2 x0 (ix3 b n u) = Ideal.logistic (x0 (ix3 b n (hi u))) := by
  unfold k3_pay2
  exact congrArg Ideal.logistic (slice_hi_at x0 b n u)

/-- The reset state at an entry, from the two arrays read at entries known to be the right ones. -/
theorem reset_at (a0 : Arr3 64 2048 128) (a1 : Arr3 64 2048 64) (i0 : S64x2048x128.Idx) (i1 i : S64x2048x64.Idx)
    (e0 : i0 = ix3 (i 0) (i 1) (lo (i 2))) (e1 : i1 = i) :
    Ideal.logistic (a0 i0) * a1 i1 = GcGru.resetState a0 a1 i := by
  rw [e0, e1]; rfl

/-- The update gate at an entry, from the array read at an entry known to be the right one. -/
theorem update_at (a0 : Arr3 64 2048 128) (i0 : S64x2048x128.Idx) (i : S64x2048x64.Idx)
    (e0 : i0 = ix3 (i 0) (i 1) (hi (i 2))) :
    Ideal.logistic (a0 i0) = GcGru.updateGate a0 i := by
  rw [e0]; rfl

/-- The four index maps over the 16 points: every window's block sits at block position (0, t, 0). -/
theorem idx_facts : ∀ t : Fin cfg3.N,
    (win3_0.index t (0 : Fin 3) = 0 ∧ win3_0.index t (1 : Fin 3) = t.val ∧ win3_0.index t (2 : Fin 3) = 0)
    ∧ (win3_1.index t (0 : Fin 3) = 0 ∧ win3_1.index t (1 : Fin 3) = t.val ∧ win3_1.index t (2 : Fin 3) = 0)
    ∧ (win3_2.index t (0 : Fin 3) = 0 ∧ win3_2.index t (1 : Fin 3) = t.val ∧ win3_2.index t (2 : Fin 3) = 0)
    ∧ (win3_3.index t (0 : Fin 3) = 0 ∧ win3_3.index t (1 : Fin 3) = t.val ∧ win3_3.index t (2 : Fin 3) = 0) :=
  (by decide +kernel : ∀ t : Fin grid3.N, _)

/-- What point t writes back to the first result is block t of the reset state of the two arrays. -/
theorem flushed2_eq (c : Dev nD) (t : Fin cfg3.N) :
    (dat3 (F := Ideal) V c).flushed 2 t
      = ((cfg3.win 2).blk t).view.read (Elt Ideal) (GcGru.resetState (V c main_v16) (V c main_v3)) := by
  show (cfg3.win 2).cut (grid3.coords t) ((dat3 V c).after 2 t) = _
  rw [after3_2]
  unfold out3_2
  rw [View.canon_unit_zero origin_zero]
  simp only [View.ld_unit_zero (S := S64x128x128) origin_zero, View.ld_unit_zero (S := S64x128x64) origin_zero]
  obtain ⟨⟨a0, a1, a2⟩, ⟨b0, b1, b2⟩, ⟨c0, c1, c2⟩, -⟩ := idx_facts t
  funext j
  obtain ⟨b, n, u, rfl⟩ : ∃ (b : Fin 64) (n : Fin 128) (u : Fin 64), j = ix3 b n u := ⟨j 0, j 1, j 2, eq_ix3 j⟩
  show k3_pay3 (iblk3 V c 0 t) (iblk3 V c 1 t) (ix3 b n u)
    = GcGru.resetState (V c main_v16) (V c main_v3) (((cfg3.win 2).blk t).view.emb (ix3 b n u))
  rw [pay_reset_at]
  have h0 : ((cfg3.win 0).blk t).view.emb (ix3 b n (lo u))
      = ix3 ((((cfg3.win 2).blk t).view.emb (ix3 b n u)) 0) ((((cfg3.win 2).blk t).view.emb (ix3 b n u)) 1)
          (lo ((((cfg3.win 2).blk t).view.emb (ix3 b n u)) 2)) := by
    funext a; apply Fin.ext
    match a with
    | ⟨0, _⟩ => show win3_0.index t (0 : Fin 3) * 64 + 1 * b.val = win3_2.index t (0 : Fin 3) * 64 + 1 * b.val; omega
    | ⟨1, _⟩ => show win3_0.index t (1 : Fin 3) * 128 + 1 * n.val = win3_2.index t (1 : Fin 3) * 128 + 1 * n.val; omega
    | ⟨2, _⟩ => show win3_0.index t (2 : Fin 3) * 128 + 1 * u.val = win3_2.index t (2 : Fin 3) * 64 + 1 * u.val; omega
  have h1 : ((cfg3.win 1).blk t).view.emb (ix3 b n u) = ((cfg3.win 2).blk t).view.emb (ix3 b n u) := by
    funext a; apply Fin.ext
    match a with
    | ⟨0, _⟩ => show win3_1.index t (0 : Fin 3) * 64 + 1 * b.val = win3_2.index t (0 : Fin 3) * 64 + 1 * b.val; omega
    | ⟨1, _⟩ => show win3_1.index t (1 : Fin 3) * 128 + 1 * n.val = win3_2.index t (1 : Fin 3) * 128 + 1 * n.val; omega
    | ⟨2, _⟩ => show win3_1.index t (2 : Fin 3) * 64 + 1 * u.val = win3_2.index t (2 : Fin 3) * 64 + 1 * u.val; omega
  exact reset_at (V c main_v16) (V c main_v3) _ _ _ h0 h1

/-- What point t writes back to the second result is block t of the update gate of the pre-activation array. -/
theorem flushed3_eq (c : Dev nD) (t : Fin cfg3.N) :
    (dat3 (F := Ideal) V c).flushed 3 t
      = ((cfg3.win 3).blk t).view.read (Elt Ideal) (GcGru.updateGate (V c main_v16)) := by
  show (cfg3.win 3).cut (grid3.coords t) ((dat3 V c).after 3 t) = _
  rw [after3_3]
  unfold out3_3
  rw [View.canon_unit_zero origin_zero]
  simp only [View.ld_unit_zero (S := S64x128x128) origin_zero]
  obtain ⟨⟨a0, a1, a2⟩, -, -, ⟨d0, d1, d2⟩⟩ := idx_facts t
  funext j
  obtain ⟨b, n, u, rfl⟩ : ∃ (b : Fin 64) (n : Fin 128) (u : Fin 64), j = ix3 b n u := ⟨j 0, j 1, j 2, eq_ix3 j⟩
  show k3_pay2 (iblk3 V c 0 t) (ix3 b n u)
    = GcGru.updateGate (V c main_v16) (((cfg3.win 3).blk t).view.emb (ix3 b n u))
  rw [pay_update_at]
  have h0 : ((cfg3.win 0).blk t).view.emb (ix3 b n (hi u))
      = ix3 ((((cfg3.win 3).blk t).view.emb (ix3 b n u)) 0) ((((cfg3.win 3).blk t).view.emb (ix3 b n u)) 1)
          (hi ((((cfg3.win 3).blk t).view.emb (ix3 b n u)) 2)) := by
    funext a; apply Fin.ext
    match a with
    | ⟨0, _⟩ => show win3_0.index t (0 : Fin 3) * 64 + 1 * b.val = win3_3.index t (0 : Fin 3) * 64 + 1 * b.val; omega
    | ⟨1, _⟩ => show win3_0.index t (1 : Fin 3) * 128 + 1 * n.val = win3_3.index t (1 : Fin 3) * 128 + 1 * n.val; omega
    | ⟨2, _⟩ => show win3_0.index t (2 : Fin 3) * 128 + 1 * (64 + u.val) = 64 + (win3_3.index t (2 : Fin 3) * 64 + 1 * u.val); omega
  exact update_at (V c main_v16) _ _ h0

/-- An entry of the first result is in point t's block iff each coordinate is in the block's range on its axis. -/
theorem mem_blk2 (t : Fin cfg3.N) (i : S64x2048x64.Idx) :
    i ∈ ((cfg3.win 2).blk t).view.set ↔ ∀ a : Fin 3, win3_2.index t a * S64x128x64.size a ≤ (i a).val ∧ (i a).val < win3_2.index t a * S64x128x64.size a + S64x128x64.size a := by
  show i ∈ ((View.whole main_v17_0).slice (win3_2.rect t)).set ↔ _
  rw [View.set_slice_whole, Rect.mem_set_unit]
  exact Iff.rfl

/-- An entry of the second result is in point t's block iff each coordinate is in the block's range on its axis. -/
theorem mem_blk3 (t : Fin cfg3.N) (i : S64x2048x64.Idx) :
    i ∈ ((cfg3.win 3).blk t).view.set ↔ ∀ a : Fin 3, win3_3.index t a * S64x128x64.size a ≤ (i a).val ∧ (i a).val < win3_3.index t a * S64x128x64.size a + S64x128x64.size a := by
  show i ∈ ((View.whole main_v17_1).slice (win3_3.rect t)).set ↔ _
  rw [View.set_slice_whole, Rect.mem_set_unit]
  exact Iff.rfl

/-- Every entry of the first result is in the block of the point  node / 128. -/
theorem cover2 (i : S64x2048x64.Idx) : ∃ t : Fin cfg3.N, (cfg3.win 2).flush t = true ∧ i ∈ ((cfg3.win 2).blk t).view.set := by
  have hi0 : (i 0).val < 64 := (i 0).isLt
  have hi1 : (i 1).val < 2048 := (i 1).isLt
  have hi2 : (i 2).val < 64 := (i 2).isLt
  have hN : cfg3.N = 16 := N_3
  refine ⟨⟨(i 1).val / 128, by rw [hN]; omega⟩, flush3_2 _, ?_⟩
  obtain ⟨-, -, ⟨c0, c1, c2⟩, -⟩ := idx_facts ⟨(i 1).val / 128, by rw [hN]; omega⟩
  rw [mem_blk2]
  intro a
  match a with
  | ⟨0, _⟩ => show win3_2.index _ (0 : Fin 3) * 64 ≤ (i 0).val ∧ (i 0).val < win3_2.index _ (0 : Fin 3) * 64 + 64; rw [c0]; omega
  | ⟨1, _⟩ => show win3_2.index _ (1 : Fin 3) * 128 ≤ (i 1).val ∧ (i 1).val < win3_2.index _ (1 : Fin 3) * 128 + 128; rw [c1]; show (i 1).val / 128 * 128 ≤ (i 1).val ∧ (i 1).val < (i 1).val / 128 * 128 + 128; omega
  | ⟨2, _⟩ => show win3_2.index _ (2 : Fin 3) * 64 ≤ (i 2).val ∧ (i 2).val < win3_2.index _ (2 : Fin 3) * 64 + 64; rw [c2]; omega

/-- Every entry of the second result is in the block of the point  node / 128. -/
theorem cover3 (i : S64x2048x64.Idx) : ∃ t : Fin cfg3.N, (cfg3.win 3).flush t = true ∧ i ∈ ((cfg3.win 3).blk t).view.set := by
  have hi0 : (i 0).val < 64 := (i 0).isLt
  have hi1 : (i 1).val < 2048 := (i 1).isLt
  have hi2 : (i 2).val < 64 := (i 2).isLt
  have hN : cfg3.N = 16 := N_3
  refine ⟨⟨(i 1).val / 128, by rw [hN]; omega⟩, flush3_3 _, ?_⟩
  obtain ⟨-, -, -, ⟨d0, d1, d2⟩⟩ := idx_facts ⟨(i 1).val / 128, by rw [hN]; omega⟩
  rw [mem_blk3]
  intro a
  match a with
  | ⟨0, _⟩ => show win3_3.index _ (0 : Fin 3) * 64 ≤ (i 0).val ∧ (i 0).val < win3_3.index _ (0 : Fin 3) * 64 + 64; rw [d0]; omega
  | ⟨1, _⟩ => show win3_3.index _ (1 : Fin 3) * 128 ≤ (i 1).val ∧ (i 1).val < win3_3.index _ (1 : Fin 3) * 128 + 128; rw [d1]; show (i 1).val / 128 * 128 ≤ (i 1).val ∧ (i 1).val < (i 1).val / 128 * 128 + 128; omega
  | ⟨2, _⟩ => show win3_3.index _ (2 : Fin 3) * 64 ≤ (i 2).val ∧ (i 2).val < win3_3.index _ (2 : Fin 3) * 64 + 64; rw [d2]; omega

/-- The first result array after the call is the reset state of the two arrays the call reads. -/
theorem final2 (c : Dev nD) :
    (dat3 (F := Ideal) V c).arrAt 2 cfg3.N = GcGru.resetState (V c main_v16) (V c main_v3) :=
  (dat3 (F := Ideal) V c).arrAt_eq_of_cover 2 (GcGru.resetState (V c main_v16) (V c main_v3))
    (fun t _ => flushed2_eq V c t) cover2

/-- The second result array after the call is the update gate of the pre-activation array. -/
theorem final3 (c : Dev nD) :
    (dat3 (F := Ideal) V c).arrAt 3 cfg3.N = GcGru.updateGate (V c main_v16) :=
  (dat3 (F := Ideal) V c).arrAt_eq_of_cover 3 (GcGru.updateGate (V c main_v16))
    (fun t _ => flushed3_eq V c t) cover3

end GcGru.Reg3

end
-- ==== Proof.Reg4.lean ====
/-
  The same matrix-product call made a second time, on the features of the reset state. Its grid has two points; point t holds rows 128 t .. 128 t + 127 of the left
  operand [256, 2048], the whole right operand [2048, 4160], and writes rows 128 t .. 128 t + 127 of the result
  [256, 4160]. The body is one matrix-unit product into a zero accumulator, so the entry (p, q) of the block it
  leaves is  Σ_{k < 2048} left(p, k) · right(k, q)  of the blocks it holds. Row p of block t is row 128 t + p of
  the array, so block t of the result is block t of the product of the two whole arrays; the two blocks tile
  the result, so the result array IS that product.
-/
import proofs.«130559_j17334488007012_2_alg».proof.Proof.Spec
import proofs.«130559_j17334488007012_2_alg».proof.Proof.LibMatmulSum
import proofs.«130559_j17334488007012_2_alg».proof.Proof.Gen.KernelIdeal.Frame
import Idealize.ShloMosaic.Lib.Pipeline.Value

set_option maxRecDepth 16384

noncomputable section

namespace GcGru.Reg4

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-- The body's one store starts at the origin of its buffer. -/
theorem hz : (![0, 0] : Fin 2 → Nat) = fun _ => 0 := funext fun a => by fin_cases a <;> rfl

/-- The product's dimension numbers spell a plain product [128, 2048] x [2048, 4160] with one contracted axis of
    extent 2048: left contracted on its axis 1, right on its axis 0. -/
theorem plain : Cert.LibMatmulSum.Plain dot_S128x2048_S2048x4160_S128x4160_1_0_0_1_n_n where
  rank := rfl
  size := rfl
  l0 := fun i q => by
    unfold DotDims.lhsIdx
    rw [dif_neg (show ¬(0 : Fin S128x2048.rank) ∈ dot_S128x2048_S2048x4160_S128x4160_1_0_0_1_n_n.lhsBatch by decide), dif_pos (show (0 : Fin S128x2048.rank) ∈ dot_S128x2048_S2048x4160_S128x4160_1_0_0_1_n_n.lhsNonContracting by decide)]
    rfl
  l1 := fun i q => dot_S128x2048_S2048x4160_S128x4160_1_0_0_1_n_n.lhsIdx_val_of_single rfl i q
  r0 := fun i q => dot_S128x2048_S2048x4160_S128x4160_1_0_0_1_n_n.rhsIdx_val_of_single rfl i q
  r1 := fun i q => by
    unfold DotDims.rhsIdx
    rw [dif_neg (show ¬(1 : Fin S2048x4160.rank) ∈ dot_S128x2048_S2048x4160_S128x4160_1_0_0_1_n_n.rhsBatch by decide), dif_pos (show (1 : Fin S2048x4160.rank) ∈ dot_S128x2048_S2048x4160_S128x4160_1_0_0_1_n_n.rhsNonContracting by decide)]
    rfl

/-- The body's result at entry (p, q) of its block: the sum over the 2048 contracted positions of
    left(p, k) · right(k, q). Narrowing the product's values to the stored type changes nothing at the exact
    instance. -/
theorem pay_at (x0 : Vec Ideal S128x2048 .bf16) (x1 : Vec Ideal S2048x4160 .bf16) (p : Fin 128) (q : Fin 4160) :
    k4_pay1 x0 x1 (ix2 p q) = ∑ k : Fin 2048, x0 (ix2 p k) * x1 (ix2 k q) := by
  unfold k4_pay1
  rw [shapeCast_self, shapeCast_self]
  exact Cert.LibMatmulSum.matmul_zero_at plain (φ₁ := FTy.bf16) (φ₂ := FTy.bf16) none x0 x1 p q

/-- The printed index maps over the two grid points: the left operand's row block is the result's row block and
    its column block is 0; the right operand is one block at (0, 0); the result's column block is 0 and its row
    block is 0 or 1. -/
theorem idx_facts : ∀ t : Fin cfg4.N, win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (0 : Fin 2) ≤ 1
    ∧ win4_2.index t (1 : Fin 2) = 0 :=
  (by decide +kernel : ∀ t : Fin grid4.N, _)

/-- Each row block of the result is some point's: point r has row block r. -/
theorem idx_onto : ∀ r : Fin 2, ∃ t : Fin cfg4.N, win4_2.index t (0 : Fin 2) = r.val :=
  (by decide +kernel : ∀ r : Fin 2, ∃ t : Fin grid4.N, win4_2.index t (0 : Fin 2) = r.val)

/-- If row p of a left block is row (i 0) of the left array, and column q of a right block is column (i 1) of the
    right array, the blocks' sum of products at (p, q) is the arrays' product at i. -/
theorem sum_blocks (A : GcGru.Arr2 256 2048) (B : GcGru.Arr2 2048 4160) (x0 : Vec Ideal S128x2048 .bf16) (x1 : Vec Ideal S2048x4160 .bf16)
    (i : S256x4160.Idx) (p : Fin 128) (q : Fin 4160)
    (hA : ∀ k : Fin 2048, x0 (ix2 p k) = A (ix2 (i 0) k)) (hB : ∀ k : Fin 2048, x1 (ix2 k q) = B (ix2 k (i 1))) :
    (∑ k : Fin 2048, x0 (ix2 p k) * x1 (ix2 k q)) = GcGru.mm A B i := by
  unfold GcGru.mm
  exact Finset.sum_congr rfl fun k _ => by rw [hA k, hB k]

section
variable (V : (c : Dev nD) → (b : Ref sig .tc) → Buf (Elt Ideal) ((c : Thread nD τ).loc b))

/-- What point t writes back is block t of the product of the two operand arrays: entry (p, q) of the block is
    the sum over k of left-block(p, k) · right-block(k, q); the left block's entry (p, k) is the array's entry
    (128 t + p, k), the right block is the whole array, and entry (p, q) of the result's block is the array's
    entry (128 t + p, q). -/
theorem flushed_eq (c : Dev nD) (t : Fin cfg4.N) :
    (dat4 (F := Ideal) V c).flushed 2 t = ((cfg4.win 2).blk t).view.read (Elt Ideal) (GcGru.mm (V c main_v1) (V c main_v21)) := by
  show (cfg4.win 2).cut (grid4.coords t) ((dat4 V c).after 2 t) = _
  rw [after4_2]
  unfold out4_2
  rw [View.canon_unit_zero hz]
  simp only [View.ld_unit_zero (S := S128x2048) hz, View.ld_unit_zero (S := S2048x4160) hz]
  obtain ⟨e0, e1, e2, e3, e4, e5⟩ := idx_facts t
  funext j
  obtain ⟨p, q, rfl⟩ : ∃ (p : Fin 128) (q : Fin 4160), j = ix2 p q := ⟨j 0, j 1, eq_ix2 j⟩
  show k4_pay1 (iblk4 V c 0 t) (iblk4 V c 1 t) (ix2 p q) = GcGru.mm (V c main_v1) (V c main_v21) (((cfg4.win 2).blk t).view.emb (ix2 p q))
  rw [pay_at]
  refine sum_blocks (V c main_v1) (V c main_v21) _ _ _ p q (fun k => ?_) (fun k => ?_)
  · have h0 : ((cfg4.win 0).blk t).view.emb (ix2 p k) = ix2 ((((cfg4.win 2).blk t).view.emb (ix2 p q)) 0) k := by
      funext a; apply Fin.ext
      match a with
      | ⟨0, _⟩ => show win4_0.index t (0 : Fin 2) * 128 + 1 * p.val = win4_2.index t (0 : Fin 2) * 128 + 1 * p.val; omega
      | ⟨1, _⟩ => show win4_0.index t (1 : Fin 2) * 2048 + 1 * k.val = k.val; omega
    show V c main_v1 (((cfg4.win 0).blk t).view.emb (ix2 p k)) = V c main_v1 _
    exact congrArg _ h0
  · have h1 : ((cfg4.win 1).blk t).view.emb (ix2 k q) = ix2 k ((((cfg4.win 2).blk t).view.emb (ix2 p q)) 1) := by
      funext a; apply Fin.ext
      match a with
      | ⟨0, _⟩ => show win4_1.index t (0 : Fin 2) * 2048 + 1 * k.val = k.val; omega
      | ⟨1, _⟩ => show win4_1.index t (1 : Fin 2) * 4160 + 1 * q.val = win4_2.index t (1 : Fin 2) * 4160 + 1 * q.val; omega
    show V c main_v21 (((cfg4.win 1).blk t).view.emb (ix2 k q)) = V c main_v21 _
    exact congrArg _ h1

/-- An index of the result array is in point t's block iff each coordinate is in the block's range on its axis. -/
theorem mem_blk (t : Fin cfg4.N) (i : S256x4160.Idx) :
    i ∈ ((cfg4.win 2).blk t).view.set ↔ ∀ a : Fin 2, win4_2.index t a * S128x4160.size a ≤ (i a).val ∧ (i a).val < win4_2.index t a * S128x4160.size a + S128x4160.size a := by
  show i ∈ ((View.whole main_v22).slice (win4_2.rect t)).set ↔ _
  rw [View.set_slice_whole, Rect.mem_set_unit]
  exact Iff.rfl

/-- The two row blocks tile the result: row r lies in the block of point r / 128. -/
theorem cover (i : S256x4160.Idx) : ∃ t : Fin cfg4.N, (cfg4.win 2).flush t = true ∧ i ∈ ((cfg4.win 2).blk t).view.set := by
  have hi0 : (i 0).val < 256 := (i 0).isLt
  have hi1 : (i 1).val < 4160 := (i 1).isLt
  obtain ⟨t, ht⟩ := idx_onto ⟨(i 0).val / 128, by omega⟩
  have q0 : win4_2.index t (0 : Fin 2) = (i 0).val / 128 := ht
  obtain ⟨e0, e1, e2, e3, e4, e5⟩ := idx_facts t
  refine ⟨t, flush4_2 t, ?_⟩
  rw [mem_blk]
  intro a
  match a with
  | ⟨0, _⟩ => show win4_2.index t (0 : Fin 2) * 128 ≤ (i 0).val ∧ (i 0).val < win4_2.index t (0 : Fin 2) * 128 + 128; omega
  | ⟨1, _⟩ => show win4_2.index t (1 : Fin 2) * 4160 ≤ (i 1).val ∧ (i 1).val < win4_2.index t (1 : Fin 2) * 4160 + 4160; omega

/-- The result array after the call is the product of the two operand arrays as the call finds them. -/
theorem final (c : Dev nD) : (dat4 (F := Ideal) V c).arrAt 2 cfg4.N = GcGru.mm (V c main_v1) (V c main_v21) :=
  (dat4 (F := Ideal) V c).arrAt_eq_of_cover 2 (GcGru.mm (V c main_v1) (V c main_v21)) (fun t _ => flushed_eq V c t) cover

end

end GcGru.Reg4

end
-- ==== Proof.Reg5.lean ====
/-
  The fine-graph convolution call made a second time, on the features of the reset state. Its grid has eight points; point t holds rows 256 t .. 256 t + 255 of the
  adjacency [2048, 2048] and of the coarse-to-fine matrix [2048, 256], the whole feature array [2048, 4160] and the
  whole pooled array [256, 4160], and writes rows 256 t .. 256 t + 255 of the result [2048, 4160]. The body is two
  matrix-unit products into zero accumulators, the logistic function of the second, and their sum, so entry (p, q)
  of the block it leaves is  Σ_{k < 2048} adj(p, k) · x(k, q) + σ(Σ_{k < 256} afct(p, k) · y(k, q))  of the blocks it
  holds. Row p of block t is row 256 t + p of the array, so block t of the result is block t of that function of
  the four whole arrays; the eight blocks tile the result, so the result array IS that function.
-/
import proofs.«130559_j17334488007012_2_alg».proof.Proof.Spec
import proofs.«130559_j17334488007012_2_alg».proof.Proof.LibMatmulSum
import proofs.«130559_j17334488007012_2_alg».proof.Proof.Gen.KernelIdeal.Frame
import Idealize.ShloMosaic.Lib.Pipeline.Value

set_option maxRecDepth 16384

noncomputable section

namespace GcGru.Reg5

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-- The body's one store starts at the origin of its buffer. -/
theorem hz : (![0, 0] : Fin 2 → Nat) = fun _ => 0 := funext fun a => by fin_cases a <;> rfl

/-- The first product's dimension numbers spell a plain product [256, 2048] x [2048, 4160] with one contracted axis
    of extent 2048: left contracted on its axis 1, right on its axis 0. -/
theorem plainA : Cert.LibMatmulSum.Plain dot_S256x2048_S2048x4160_S256x4160_1_0_0_1_n_n where
  rank := rfl
  size := rfl
  l0 := fun i q => by
    unfold DotDims.lhsIdx
    rw [dif_neg (show ¬(0 : Fin S256x2048.rank) ∈ dot_S256x2048_S2048x4160_S256x4160_1_0_0_1_n_n.lhsBatch by decide), dif_pos (show (0 : Fin S256x2048.rank) ∈ dot_S256x2048_S2048x4160_S256x4160_1_0_0_1_n_n.lhsNonContracting by decide)]
    rfl
  l1 := fun i q => dot_S256x2048_S2048x4160_S256x4160_1_0_0_1_n_n.lhsIdx_val_of_single rfl i q
  r0 := fun i q => dot_S256x2048_S2048x4160_S256x4160_1_0_0_1_n_n.rhsIdx_val_of_single rfl i q
  r1 := fun i q => by
    unfold DotDims.rhsIdx
    rw [dif_neg (show ¬(1 : Fin S2048x4160.rank) ∈ dot_S256x2048_S2048x4160_S256x4160_1_0_0_1_n_n.rhsBatch by decide), dif_pos (show (1 : Fin S2048x4160.rank) ∈ dot_S256x2048_S2048x4160_S256x4160_1_0_0_1_n_n.rhsNonContracting by decide)]
    rfl

/-- The second product's dimension numbers spell a plain product [256, 256] x [256, 4160] with one contracted axis
    of extent 256: left contracted on its axis 1, right on its axis 0. -/
theorem plainB : Cert.LibMatmulSum.Plain dot_S256x256_S256x4160_S256x4160_1_0_0_1_n_n where
  rank := rfl
  size := rfl
  l0 := fun i q => by
    unfold DotDims.lhsIdx
    rw [dif_neg (show ¬(0 : Fin S256x256.rank) ∈ dot_S256x256_S256x4160_S256x4160_1_0_0_1_n_n.lhsBatch by decide), dif_pos (show (0 : Fin S256x256.rank) ∈ dot_S256x256_S256x4160_S256x4160_1_0_0_1_n_n.lhsNonContracting by decide)]
    rfl
  l1 := fun i q => dot_S256x256_S256x4160_S256x4160_1_0_0_1_n_n.lhsIdx_val_of_single rfl i q
  r0 := fun i q => dot_S256x256_S256x4160_S256x4160_1_0_0_1_n_n.rhsIdx_val_of_single rfl i q
  r1 := fun i q => by
    unfold DotDims.rhsIdx
    rw [dif_neg (show ¬(1 : Fin S256x4160.rank) ∈ dot_S256x256_S256x4160_S256x4160_1_0_0_1_n_n.rhsBatch by decide), dif_pos (show (1 : Fin S256x4160.rank) ∈ dot_S256x256_S256x4160_S256x4160_1_0_0_1_n_n.rhsNonContracting by decide)]
    rfl

/-- The body's result at entry (p, q) of its block: the first product's sum over 2048 contracted positions plus
    the logistic function of the second product's sum over 256 contracted positions. Narrowing to the stored type
    changes nothing at the exact instance. -/
theorem pay_at (x0 : Vec Ideal S256x2048 .bf16) (x1 : Vec Ideal S2048x4160 .bf16) (x2 : Vec Ideal S256x256 .bf16) (x3 : Vec Ideal S256x4160 .bf16)
    (p : Fin 256) (q : Fin 4160) :
    k5_pay1 x0 x1 x2 x3 (ix2 p q)
      = (∑ k : Fin 2048, x0 (ix2 p k) * x1 (ix2 k q)) + Ideal.logistic (∑ k : Fin 256, x2 (ix2 p k) * x3 (ix2 k q)) := by
  unfold k5_pay1
  rw [shapeCast_self, shapeCast_self, shapeCast_self, shapeCast_self]
  exact congrArg₂ (fun a b : EReal => a + Ideal.logistic b)
    (Cert.LibMatmulSum.matmul_zero_at plainA (φ₁ := FTy.bf16) (φ₂ := FTy.bf16) none x0 x1 p q)
    (Cert.LibMatmulSum.matmul_zero_at plainB (φ₁ := FTy.bf16) (φ₂ := FTy.bf16) none x2 x3 p q)

/-- The printed index maps over the eight grid points: the two row-blocked operands' row block is the result's row
    block and their column block is 0; the two whole operands are one block at (0, 0); the result's column block
    is 0 and its row block is at most 7. -/
theorem idx_facts : ∀ t : Fin cfg5.N, win5_0.index t (0 : Fin 2) = win5_4.index t (0 : Fin 2)
    ∧ win5_0.index t (1 : Fin 2) = 0
    ∧ win5_1.index t (0 : Fin 2) = 0
    ∧ win5_1.index t (1 : Fin 2) = 0
    ∧ win5_2.index t (0 : Fin 2) = win5_4.index t (0 : Fin 2)
    ∧ win5_2.index t (1 : Fin 2) = 0
    ∧ win5_3.index t (0 : Fin 2) = 0
    ∧ win5_3.index t (1 : Fin 2) = 0
    ∧ win5_4.index t (0 : Fin 2) ≤ 7
    ∧ win5_4.index t (1 : Fin 2) = 0 :=
  (by decide +kernel : ∀ t : Fin grid5.N, _)

/-- Each row block of the result is some point's: point r has row block r. -/
theorem idx_onto : ∀ r : Fin 8, ∃ t : Fin cfg5.N, win5_4.index t (0 : Fin 2) = r.val :=
  (by decide +kernel : ∀ r : Fin 8, ∃ t : Fin grid5.N, win5_4.index t (0 : Fin 2) = r.val)

/-- If row p of the two row-blocked operands' blocks is row (i 0) of their arrays, and column q of the two whole
    operands' blocks is column (i 1) of their arrays, the blocks' value at (p, q) is the arrays' value at i. -/
theorem comb_blocks (A : GcGru.Arr2 2048 2048) (B : GcGru.Arr2 2048 4160) (C : GcGru.Arr2 2048 256) (D : GcGru.Arr2 256 4160)
    (x0 : Vec Ideal S256x2048 .bf16) (x1 : Vec Ideal S2048x4160 .bf16) (x2 : Vec Ideal S256x256 .bf16) (x3 : Vec Ideal S256x4160 .bf16)
    (i : S2048x4160.Idx) (p : Fin 256) (q : Fin 4160)
    (hA : ∀ k : Fin 2048, x0 (ix2 p k) = A (ix2 (i 0) k)) (hB : ∀ k : Fin 2048, x1 (ix2 k q) = B (ix2 k (i 1)))
    (hC : ∀ k : Fin 256, x2 (ix2 p k) = C (ix2 (i 0) k)) (hD : ∀ k : Fin 256, x3 (ix2 k q) = D (ix2 k (i 1))) :
    (∑ k : Fin 2048, x0 (ix2 p k) * x1 (ix2 k q)) + Ideal.logistic (∑ k : Fin 256, x2 (ix2 p k) * x3 (ix2 k q))
      = GcGru.comb A B C D i := by
  have e1 : (∑ k : Fin 2048, x0 (ix2 p k) * x1 (ix2 k q)) = ∑ k : Fin 2048, A (ix2 (i 0) k) * B (ix2 k (i 1)) :=
    Finset.sum_congr rfl fun k _ => by rw [hA k, hB k]
  have e2 : (∑ k : Fin 256, x2 (ix2 p k) * x3 (ix2 k q)) = ∑ k : Fin 256, C (ix2 (i 0) k) * D (ix2 k (i 1)) :=
    Finset.sum_congr rfl fun k _ => by rw [hC k, hD k]
  unfold GcGru.comb GcGru.mm
  rw [e1, e2]

section
variable (V : (c : Dev nD) → (b : Ref sig .tc) → Buf (Elt Ideal) ((c : Thread nD τ).loc b))

/-- What point t writes back is block t of the convolution of the four operand arrays: the row-blocked operands'
    entry (p, k) is their arrays' entry (256 t + p, k), the whole operands' blocks are their arrays, and entry
    (p, q) of the result's block is the array's entry (256 t + p, q). -/
theorem flushed_eq (c : Dev nD) (t : Fin cfg5.N) :
    (dat5 (F := Ideal) V c).flushed 4 t
      = ((cfg5.win 4).blk t).view.read (Elt Ideal) (GcGru.comb (V c main_v0) (V c main_v21) (V c main_v2) (V c main_v22)) := by
  show (cfg5.win 4).cut (grid5.coords t) ((dat5 V c).after 4 t) = _
  rw [after5_4]
  unfold out5_4
  rw [View.canon_unit_zero hz]
  simp only [View.ld_unit_zero (S := S256x2048) hz, View.ld_unit_zero (S := S2048x4160) hz, View.ld_unit_zero (S := S256x256) hz,
    View.ld_unit_zero (S := S256x4160) hz]
  obtain ⟨e0, e1, e2, e3, e4, e5, e6, e7, e8, e9⟩ := idx_facts t
  funext j
  obtain ⟨p, q, rfl⟩ : ∃ (p : Fin 256) (q : Fin 4160), j = ix2 p q := ⟨j 0, j 1, eq_ix2 j⟩
  show k5_pay1 (iblk5 V c 0 t) (iblk5 V c 1 t) (iblk5 V c 2 t) (iblk5 V c 3 t) (ix2 p q)
    = GcGru.comb (V c main_v0) (V c main_v21) (V c main_v2) (V c main_v22) (((cfg5.win 4).blk t).view.emb (ix2 p q))
  rw [pay_at]
  refine comb_blocks (V c main_v0) (V c main_v21) (V c main_v2) (V c main_v22) _ _ _ _ _ p q (fun k => ?_) (fun k => ?_) (fun k => ?_) (fun k => ?_)
  · have h : ((cfg5.win 0).blk t).view.emb (ix2 p k) = ix2 ((((cfg5.win 4).blk t).view.emb (ix2 p q)) 0) k := by
      funext a; apply Fin.ext
      match a with
      | ⟨0, _⟩ => show win5_0.index t (0 : Fin 2) * 256 + 1 * p.val = win5_4.index t (0 : Fin 2) * 256 + 1 * p.val; omega
      | ⟨1, _⟩ => show win5_0.index t (1 : Fin 2) * 2048 + 1 * k.val = k.val; omega
    show V c main_v0 (((cfg5.win 0).blk t).view.emb (ix2 p k)) = V c main_v0 _
    exact congrArg _ h
  · have h : ((cfg5.win 1).blk t).view.emb (ix2 k q) = ix2 k ((((cfg5.win 4).blk t).view.emb (ix2 p q)) 1) := by
      funext a; apply Fin.ext
      match a with
      | ⟨0, _⟩ => show win5_1.index t (0 : Fin 2) * 2048 + 1 * k.val = k.val; omega
      | ⟨1, _⟩ => show win5_1.index t (1 : Fin 2) * 4160 + 1 * q.val = win5_4.index t (1 : Fin 2) * 4160 + 1 * q.val; omega
    show V c main_v21 (((cfg5.win 1).blk t).view.emb (ix2 k q)) = V c main_v21 _
    exact congrArg _ h
  · have h : ((cfg5.win 2).blk t).view.emb (ix2 p k) = ix2 ((((cfg5.win 4).blk t).view.emb (ix2 p q)) 0) k := by
      funext a; apply Fin.ext
      match a with
      | ⟨0, _⟩ => show win5_2.index t (0 : Fin 2) * 256 + 1 * p.val = win5_4.index t (0 : Fin 2) * 256 + 1 * p.val; omega
      | ⟨1, _⟩ => show win5_2.index t (1 : Fin 2) * 256 + 1 * k.val = k.val; omega
    show V c main_v2 (((cfg5.win 2).blk t).view.emb (ix2 p k)) = V c main_v2 _
    exact congrArg _ h
  · have h : ((cfg5.win 3).blk t).view.emb (ix2 k q) = ix2 k ((((cfg5.win 4).blk t).view.emb (ix2 p q)) 1) := by
      funext a; apply Fin.ext
      match a with
      | ⟨0, _⟩ => show win5_3.index t (0 : Fin 2) * 256 + 1 * k.val = k.val; omega
      | ⟨1, _⟩ => show win5_3.index t (1 : Fin 2) * 4160 + 1 * q.val = win5_4.index t (1 : Fin 2) * 4160 + 1 * q.val; omega
    show V c main_v22 (((cfg5.win 3).blk t).view.emb (ix2 k q)) = V c main_v22 _
    exact congrArg _ h

/-- An index of the result array is in point t's block iff each coordinate is in the block's range on its axis. -/
theorem mem_blk (t : Fin cfg5.N) (i : S2048x4160.Idx) :
    i ∈ ((cfg5.win 4).blk t).view.set ↔ ∀ a : Fin 2, win5_4.index t a * S256x4160.size a ≤ (i a).val ∧ (i a).val < win5_4.index t a * S256x4160.size a + S256x4160.size a := by
  show i ∈ ((View.whole main_v23).slice (win5_4.rect t)).set ↔ _
  rw [View.set_slice_whole, Rect.mem_set_unit]
  exact Iff.rfl

/-- The eight row blocks tile the result: row r lies in the block of point r / 256. -/
theorem cover (i : S2048x4160.Idx) : ∃ t : Fin cfg5.N, (cfg5.win 4).flush t = true ∧ i ∈ ((cfg5.win 4).blk t).view.set := by
  have hi0 : (i 0).val < 2048 := (i 0).isLt
  have hi1 : (i 1).val < 4160 := (i 1).isLt
  obtain ⟨t, ht⟩ := idx_onto ⟨(i 0).val / 256, by omega⟩
  have q0 : win5_4.index t (0 : Fin 2) = (i 0).val / 256 := ht
  obtain ⟨e0, e1, e2, e3, e4, e5, e6, e7, e8, e9⟩ := idx_facts t
  refine ⟨t, flush5_4 t, ?_⟩
  rw [mem_blk]
  intro a
  match a with
  | ⟨0, _⟩ => show win5_4.index t (0 : Fin 2) * 256 ≤ (i 0).val ∧ (i 0).val < win5_4.index t (0 : Fin 2) * 256 + 256; omega
  | ⟨1, _⟩ => show win5_4.index t (1 : Fin 2) * 4160 ≤ (i 1).val ∧ (i 1).val < win5_4.index t (1 : Fin 2) * 4160 + 4160; omega

/-- The result array after the call is the convolution of the four operand arrays as the call finds them. -/
theorem final (c : Dev nD) :
    (dat5 (F := Ideal) V c).arrAt 4 cfg5.N = GcGru.comb (V c main_v0) (V c main_v21) (V c main_v2) (V c main_v22) :=
  (dat5 (F := Ideal) V c).arrAt_eq_of_cover 4 (GcGru.comb (V c main_v0) (V c main_v21) (V c main_v2) (V c main_v22))
    (fun t _ => flushed_eq V c t) cover

end

end GcGru.Reg5

end
-- ==== Proof.Reg6.lean ====
/-
  The linear-layer call: from the feature rows  xf  [131072, 65], the weights  w  [65, 64] and the one-row bias
  [1, 64] it leaves  xf · w + bias  [131072, 64]: entry (r, o) is  Σ_{f<65} xf[r,f] · w[f,o] + bias[0,o].

  The call walks 32 grid points; point t works on the rows [4096 t, 4096 t + 4096) of the features and of the result,
  and on the whole of the weights and of the bias.  The body's one store writes, at entry (p, q) of the block, the
  matrix-unit product into a zero accumulator of the loaded feature block and the weights at (p, q) — the sum over the
  65 features in their order — plus the bias row broadcast over the rows, read at q; narrowing to the stored format
  changes no value.  Row p of a feature or result block is row 4096 t + p of the array; the weights' and the bias's
  block is the whole array.  The 32 row blocks tile the 131072 rows, so every entry of the result is written by the
  point  row / 4096.
-/
import proofs.«130559_j17334488007012_2_alg».proof.Proof.Gen.KernelIdeal.Frame
import proofs.«130559_j17334488007012_2_alg».proof.Proof.Gen.KernelIdeal.Points
import proofs.«130559_j17334488007012_2_alg».proof.Proof.Spec
import proofs.«130559_j17334488007012_2_alg».proof.Proof.LibMatmulSum
import Idealize.ShloMosaic.Lib.Pipeline.Value
import Idealize.ShloMosaic.Lib.ValueIdx
import Idealize.ShloMosaic.Lib.ValueLayout

noncomputable section

namespace GcGru.Reg6

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

theorem origin_zero : (![0, 0] : Fin 2 → Nat) = fun _ => 0 := funext fun a => by fin_cases a <;> rfl

/-- The product's dimension numbers spell a plain product with 65 contracted features: the left operand contracted on
    its axis 1, the right on its axis 0, the result's axes the left's rows and the right's columns. -/
theorem plain : Cert.LibMatmulSum.Plain dot_S4096x65_S65x64_S4096x64_1_0_0_1_n_n where
  rank := rfl
  size := rfl
  l0 := fun i q => by
    unfold DotDims.lhsIdx
    rw [dif_neg (show ¬(0 : Fin S4096x65.rank) ∈ dot_S4096x65_S65x64_S4096x64_1_0_0_1_n_n.lhsBatch by decide), dif_pos (show (0 : Fin S4096x65.rank) ∈ dot_S4096x65_S65x64_S4096x64_1_0_0_1_n_n.lhsNonContracting by decide)]
    rfl
  l1 := fun i q => dot_S4096x65_S65x64_S4096x64_1_0_0_1_n_n.lhsIdx_val_of_single rfl i q
  r0 := fun i q => dot_S4096x65_S65x64_S4096x64_1_0_0_1_n_n.rhsIdx_val_of_single rfl i q
  r1 := fun i q => by
    unfold DotDims.rhsIdx
    rw [dif_neg (show ¬(1 : Fin S65x64.rank) ∈ dot_S4096x65_S65x64_S4096x64_1_0_0_1_n_n.rhsBatch by decide), dif_pos (show (1 : Fin S65x64.rank) ∈ dot_S4096x65_S65x64_S4096x64_1_0_0_1_n_n.rhsNonContracting by decide)]
    rfl

/-- The body's arithmetic at an entry of a block: Σ_f features[p,f] · weights[f,q] + bias[0,q]. -/
theorem pay_at (x0 : Vec Ideal S4096x65 .bf16) (x1 : Vec Ideal S65x64 .bf16) (x2 : Vec Ideal S1x64 .f32) (p : Fin 4096) (q : Fin 64) :
    k6_pay1 x0 x1 x2 (ix2 p q) = (∑ k : Fin 65, x0 (ix2 p k) * x1 (ix2 k q)) + x2 (ix2 (0 : Fin 1) q) := by
  unfold k6_pay1
  simp only [shapeCast_self]
  exact congrArg₂ (fun (a b : EReal) => a + b)
    (Cert.LibMatmulSum.matmul_zero_at plain (φ₁ := .bf16) (φ₂ := .bf16) none x0 x1 p q)
    (broadcastTo_1b_ab_apply x2 broadcasts_S1x64_S4096x64 p q)

/-- The linear layer at an entry, from the three arrays read at entries known to be the right ones. -/
theorem affine_at (a0 : Arr2 131072 65) (a1 : Arr2 65 64) (a2 : Arr2 1 64)
    (f0 : Fin 65 → S131072x65.Idx) (f1 : Fin 65 → S65x64.Idx) (i2 : S1x64.Idx) (i : S131072x64.Idx)
    (e0 : ∀ k, f0 k = ix2 (i 0) k) (e1 : ∀ k, f1 k = ix2 k (i 1)) (e2 : i2 = ix2 (0 : Fin 1) (i 1)) :
    (∑ k : Fin 65, a0 (f0 k) * a1 (f1 k)) + a2 i2 = GcGru.affine a0 a1 a2 i := by
  rw [e2]
  simp only [e0, e1]
  rfl

/-- The four index maps over the 32 points: the features' and the result's block sits at block position (t, 0), the
    weights' and the bias's at (0, 0). -/
theorem idx_facts : ∀ t : Fin cfg6.N,
    (win6_0.index t (0 : Fin 2) = t.val ∧ win6_0.index t (1 : Fin 2) = 0)
    ∧ (win6_1.index t (0 : Fin 2) = 0 ∧ win6_1.index t (1 : Fin 2) = 0)
    ∧ (win6_2.index t (0 : Fin 2) = 0 ∧ win6_2.index t (1 : Fin 2) = 0)
    ∧ (win6_3.index t (0 : Fin 2) = t.val ∧ win6_3.index t (1 : Fin 2) = 0) :=
  (by decide +kernel : ∀ t : Fin grid6.N, _)

/-- What point t writes back is block t of the linear layer of the three arrays. -/
theorem flushed_eq (c : Dev nD) (t : Fin cfg6.N) :
    (dat6 (F := Ideal) V c).flushed 3 t
      = ((cfg6.win 3).blk t).view.read (Elt Ideal) (GcGru.affine (V c main_v24) (V c main_v25) (V c main_v26)) := by
  show (cfg6.win 3).cut (grid6.coords t) ((dat6 V c).after 3 t) = _
  rw [after6_3]
  unfold out6_3
  rw [View.canon_unit_zero origin_zero]
  simp only [View.ld_unit_zero (S := S4096x65) origin_zero, View.ld_unit_zero (S := S65x64) origin_zero, View.ld_unit_zero (S := S1x64) origin_zero]
  obtain ⟨⟨a0, a1⟩, ⟨b0, b1⟩, ⟨c0, c1⟩, ⟨d0, d1⟩⟩ := idx_facts t
  funext j
  obtain ⟨p, q, rfl⟩ : ∃ (p : Fin 4096) (q : Fin 64), j = ix2 p q := ⟨j 0, j 1, eq_ix2 j⟩
  show k6_pay1 (iblk6 V c 0 t) (iblk6 V c 1 t) (iblk6 V c 2 t) (ix2 p q)
    = GcGru.affine (V c main_v24) (V c main_v25) (V c main_v26) (((cfg6.win 3).blk t).view.emb (ix2 p q))
  rw [pay_at]
  have h0 : ∀ k : Fin 65, ((cfg6.win 0).blk t).view.emb (ix2 p k)
      = ix2 ((((cfg6.win 3).blk t).view.emb (ix2 p q)) 0) k := by
    intro k; funext a; apply Fin.ext
    match a with
    | ⟨0, _⟩ => show win6_0.index t (0 : Fin 2) * 4096 + 1 * p.val = win6_3.index t (0 : Fin 2) * 4096 + 1 * p.val; omega
    | ⟨1, _⟩ => show win6_0.index t (1 : Fin 2) * 65 + 1 * k.val = k.val; omega
  have h1 : ∀ k : Fin 65, ((cfg6.win 1).blk t).view.emb (ix2 k q)
      = ix2 k ((((cfg6.win 3).blk t).view.emb (ix2 p q)) 1) := by
    intro k; funext a; apply Fin.ext
    match a with
    | ⟨0, _⟩ => show win6_1.index t (0 : Fin 2) * 65 + 1 * k.val = k.val; omega
    | ⟨1, _⟩ => show win6_1.index t (1 : Fin 2) * 64 + 1 * q.val = win6_3.index t (1 : Fin 2) * 64 + 1 * q.val; omega
  have h2 : ((cfg6.win 2).blk t).view.emb (ix2 (0 : Fin 1) q)
      = ix2 (0 : Fin 1) ((((cfg6.win 3).blk t).view.emb (ix2 p q)) 1) := by
    funext a; apply Fin.ext
    match a with
    | ⟨0, _⟩ => show win6_2.index t (0 : Fin 2) * 1 + 1 * 0 = 0; omega
    | ⟨1, _⟩ => show win6_2.index t (1 : Fin 2) * 64 + 1 * q.val = win6_3.index t (1 : Fin 2) * 64 + 1 * q.val; omega
  exact affine_at (V c main_v24) (V c main_v25) (V c main_v26)
    (fun k => ((cfg6.win 0).blk t).view.emb (ix2 p k)) (fun k => ((cfg6.win 1).blk t).view.emb (ix2 k q)) _ _ h0 h1 h2

/-- An entry of the result is in point t's block iff each coordinate is in the block's range on its axis. -/
theorem mem_blk (t : Fin cfg6.N) (i : S131072x64.Idx) :
    i ∈ ((cfg6.win 3).blk t).view.set ↔ ∀ a : Fin 2, win6_3.index t a * S4096x64.size a ≤ (i a).val ∧ (i a).val < win6_3.index t a * S4096x64.size a + S4096x64.size a := by
  show i ∈ ((View.whole main_v27).slice (win6_3.rect t)).set ↔ _
  rw [View.set_slice_whole, Rect.mem_set_unit]
  exact Iff.rfl

/-- Every entry of the result is in the block of the point  row / 4096. -/
theorem cover (i : S131072x64.Idx) : ∃ t : Fin cfg6.N, (cfg6.win 3).flush t = true ∧ i ∈ ((cfg6.win 3).blk t).view.set := by
  have hi0 : (i 0).val < 131072 := (i 0).isLt
  have hi1 : (i 1).val < 64 := (i 1).isLt
  have hN : cfg6.N = 32 := N_6
  refine ⟨⟨(i 0).val / 4096, by rw [hN]; omega⟩, flush6_3 _, ?_⟩
  obtain ⟨-, -, -, ⟨d0, d1⟩⟩ := idx_facts ⟨(i 0).val / 4096, by rw [hN]; omega⟩
  rw [mem_blk]
  intro a
  match a with
  | ⟨0, _⟩ => show win6_3.index _ (0 : Fin 2) * 4096 ≤ (i 0).val ∧ (i 0).val < win6_3.index _ (0 : Fin 2) * 4096 + 4096; rw [d0]; show (i 0).val / 4096 * 4096 ≤ (i 0).val ∧ (i 0).val < (i 0).val / 4096 * 4096 + 4096; omega
  | ⟨1, _⟩ => show win6_3.index _ (1 : Fin 2) * 64 ≤ (i 1).val ∧ (i 1).val < win6_3.index _ (1 : Fin 2) * 64 + 64; rw [d1]; omega

/-- The result array after the call is the linear layer of the three arrays the call reads. -/
theorem final (c : Dev nD) :
    (dat6 (F := Ideal) V c).arrAt 3 cfg6.N = GcGru.affine (V c main_v24) (V c main_v25) (V c main_v26) :=
  (dat6 (F := Ideal) V c).arrAt_eq_of_cover 3 (GcGru.affine (V c main_v24) (V c main_v25) (V c main_v26))
    (fun t _ => flushed_eq V c t) cover

end GcGru.Reg6

end
-- ==== Proof.Reg7.lean ====
/-
  The blend call: its result array is the pointwise function  u · s + (1 − u) · tanh(c)  of the three arrays it
  reads, whatever those arrays hold when the call is entered.

  The call walks 16 grid points; point t works on the column block [8192 t, 8192 t + 8192) of all 64 rows, of every
  one of its four arrays.  The body's one store writes, at each entry of the block, the pointwise expression of the
  three loaded blocks at the same entry; an entry of a block is the array's entry at (row, 8192 t + column).  The 16
  column blocks tile the 131072 columns, so every entry of the result array is written by the point  column / 8192.
-/
import proofs.«130559_j17334488007012_2_alg».proof.Proof.Gen.KernelIdeal.Frame
import proofs.«130559_j17334488007012_2_alg».proof.Proof.Gen.KernelIdeal.Points
import proofs.«130559_j17334488007012_2_alg».proof.Proof.Spec
import Idealize.ShloMosaic.Lib.Pipeline.Value
import Idealize.ShloMosaic.Lib.ValueIdx

noncomputable section

namespace GcGru.Reg7

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem origin_zero : (![0, 0] : Fin 2 → Nat) = fun _ => 0 := funext fun a => by fin_cases a <;> rfl

/-- The body's arithmetic at one entry of a block: u · s + (1 − u) · tanh(c). -/
theorem pay_at (x0 : Vec Ideal S64x8192 .bf16) (x1 x2 : Vec Ideal S64x8192 .f32) (j : S64x8192.Idx) :
    k7_pay1 x0 x1 x2 j = x1 j * x2 j + (Ideal.ofBits .f32 0x3F800000#32 - x1 j) * Ideal.tanh (x0 j) := by
  unfold k7_pay1
  simp only [shapeCast_self]
  rfl

/-- The blend at an entry, from the three arrays read at entries known to be that one. -/
theorem blend_at (a0 a1 a2 : Arr2 64 131072) (i0 i1 i2 i3 : S64x131072.Idx) (e0 : i0 = i3) (e1 : i1 = i3) (e2 : i2 = i3) :
    a1 i1 * a2 i2 + (Ideal.ofBits .f32 0x3F800000#32 - a1 i1) * Ideal.tanh (a0 i0) = GcGru.blend a0 a1 a2 i3 := by
  rw [e0, e1, e2]; rfl

/-- The four index maps over the 16 points: every window's block sits at block row 0 and block column t. -/
theorem idx_facts : ∀ t : Fin cfg7.N,
    win7_0.index t (0 : Fin 2) = 0 ∧ win7_0.index t (1 : Fin 2) = t.val
    ∧ win7_1.index t (0 : Fin 2) = 0 ∧ win7_1.index t (1 : Fin 2) = t.val
    ∧ win7_2.index t (0 : Fin 2) = 0 ∧ win7_2.index t (1 : Fin 2) = t.val
    ∧ win7_3.index t (0 : Fin 2) = 0 ∧ win7_3.index t (1 : Fin 2) = t.val :=
  (by decide +kernel : ∀ t : Fin grid7.N, _)

/-- What point t writes back is block t of the blend of the three arrays. -/
theorem flushed_eq (c : Dev nD) (t : Fin cfg7.N) :
    (dat7 (F := Ideal) V c).flushed 3 t
      = ((cfg7.win 3).blk t).view.read (Elt Ideal) (GcGru.blend (V c main_v30) (V c main_v31) (V c main_v32)) := by
  show (cfg7.win 3).cut (grid7.coords t) ((dat7 V c).after 3 t) = _
  rw [after7_3]
  unfold out7_3
  rw [View.canon_unit_zero origin_zero]
  simp only [View.ld_unit_zero (S := S64x8192) origin_zero]
  obtain ⟨e00, e01, e10, e11, e20, e21, e30, e31⟩ := idx_facts t
  funext j
  show k7_pay1 (iblk7 V c 0 t) (iblk7 V c 1 t) (iblk7 V c 2 t) j
    = GcGru.blend (V c main_v30) (V c main_v31) (V c main_v32) (((cfg7.win 3).blk t).view.emb j)
  rw [pay_at]
  have h0 : ((cfg7.win 0).blk t).view.emb j = ((cfg7.win 3).blk t).view.emb j := by
    funext a; apply Fin.ext
    match a with
    | ⟨0, _⟩ => show win7_0.index t (0 : Fin 2) * 64 + 1 * (j 0).val = win7_3.index t (0 : Fin 2) * 64 + 1 * (j 0).val; omega
    | ⟨1, _⟩ => show win7_0.index t (1 : Fin 2) * 8192 + 1 * (j 1).val = win7_3.index t (1 : Fin 2) * 8192 + 1 * (j 1).val; omega
  have h1 : ((cfg7.win 1).blk t).view.emb j = ((cfg7.win 3).blk t).view.emb j := by
    funext a; apply Fin.ext
    match a with
    | ⟨0, _⟩ => show win7_1.index t (0 : Fin 2) * 64 + 1 * (j 0).val = win7_3.index t (0 : Fin 2) * 64 + 1 * (j 0).val; omega
    | ⟨1, _⟩ => show win7_1.index t (1 : Fin 2) * 8192 + 1 * (j 1).val = win7_3.index t (1 : Fin 2) * 8192 + 1 * (j 1).val; omega
  have h2 : ((cfg7.win 2).blk t).view.emb j = ((cfg7.win 3).blk t).view.emb j := by
    funext a; apply Fin.ext
    match a with
    | ⟨0, _⟩ => show win7_2.index t (0 : Fin 2) * 64 + 1 * (j 0).val = win7_3.index t (0 : Fin 2) * 64 + 1 * (j 0).val; omega
    | ⟨1, _⟩ => show win7_2.index t (1 : Fin 2) * 8192 + 1 * (j 1).val = win7_3.index t (1 : Fin 2) * 8192 + 1 * (j 1).val; omega
  exact blend_at (V c main_v30) (V c main_v31) (V c main_v32) _ _ _ _ h0 h1 h2

/-- An entry of the array is in point t's block iff each coordinate is in the block's range on its axis. -/
theorem mem_blk (t : Fin cfg7.N) (i : S64x131072.Idx) :
    i ∈ ((cfg7.win 3).blk t).view.set ↔ ∀ a : Fin 2, win7_3.index t a * S64x8192.size a ≤ (i a).val ∧ (i a).val < win7_3.index t a * S64x8192.size a + S64x8192.size a := by
  show i ∈ ((View.whole main_v33).slice (win7_3.rect t)).set ↔ _
  rw [View.set_slice_whole, Rect.mem_set_unit]
  exact Iff.rfl

/-- Every entry of the array is in the block of the point  column / 8192. -/
theorem cover (i : S64x131072.Idx) : ∃ t : Fin cfg7.N, (cfg7.win 3).flush t = true ∧ i ∈ ((cfg7.win 3).blk t).view.set := by
  have hi0 : (i 0).val < 64 := (i 0).isLt
  have hi1 : (i 1).val < 131072 := (i 1).isLt
  have hN : cfg7.N = 16 := N_7
  refine ⟨⟨(i 1).val / 8192, by rw [hN]; omega⟩, flush7_3 _, ?_⟩
  obtain ⟨-, -, -, -, -, -, e30, e31⟩ := idx_facts ⟨(i 1).val / 8192, by rw [hN]; omega⟩
  rw [mem_blk]
  intro a
  match a with
  | ⟨0, _⟩ => show win7_3.index _ (0 : Fin 2) * 64 ≤ (i 0).val ∧ (i 0).val < win7_3.index _ (0 : Fin 2) * 64 + 64; rw [e30]; omega
  | ⟨1, _⟩ => show win7_3.index _ (1 : Fin 2) * 8192 ≤ (i 1).val ∧ (i 1).val < win7_3.index _ (1 : Fin 2) * 8192 + 8192; rw [e31]; show (i 1).val / 8192 * 8192 ≤ (i 1).val ∧ (i 1).val < (i 1).val / 8192 * 8192 + 8192; omega

/-- The result array after the call is the blend of the three arrays the call reads. -/
theorem final (c : Dev nD) :
    (dat7 (F := Ideal) V c).arrAt 3 cfg7.N = GcGru.blend (V c main_v30) (V c main_v31) (V c main_v32) :=
  (dat7 (F := Ideal) V c).arrAt_eq_of_cover 3 (GcGru.blend (V c main_v30) (V c main_v31) (V c main_v32))
    (fun t _ => flushed_eq V c t) cover

end GcGru.Reg7

end
-- ==== Proof.RefA.lean ====
/-
  The reference program read at coordinates, first part: the node features.

  The reference lays a node's 65 features of all 64 batch rows along one axis of length 4160, feature-major:
  column f·64 + b holds feature f of batch row b. Its rows are the 2048 nodes. Feature 0 is the input value,
  features 1 … 64 are the hidden values.
-/
import proofs.«130559_j17334488007012_2_alg».proof.Proof.Spec
import proofs.«130559_j17334488007012_2_alg».proof.Proof.Gen.ReferenceIdeal.Read
import Idealize.ShloMosaic.Lib.IdealHost

noncomputable section

namespace GcGru.Ref

open Idealize.ShloMosaic Idealize.ShloMosaic.ValueIdx Cert.ReferenceIdeal Cert.ReferenceIdeal.Gen Cert.ReferenceIdeal.Read
open scoped BigOperators

/-- Column `f · 64 + b` of the feature-major layout. -/
def col (f : Fin 65) (b : Fin 64) : Fin 4160 := ⟨f.val * 64 + b.val, by have := f.isLt; have := b.isLt; omega⟩

/-- Row `b · 2048 + n` of the batch-major layout. -/
def row (b : Fin 64) (n : Fin 2048) : Fin 131072 := ⟨b.val * 2048 + n.val, by have := b.isLt; have := n.isLt; omega⟩

abbrev A2 (s : Shape) := (⟨s, .f32⟩ : BufTy).Contents (Elt Ideal)

/-- The joined array at (batch, node, feature): the input in slot 0, the hidden values after it. -/
theorem concat_feat (A : A2 S64x2048x1) (B : A2 S64x2048x64) (b : Fin 64) (n : Fin 2048) (f : Fin 65) :
    concatenate S64x2048x65 2 [⟨S64x2048x1, A⟩, ⟨S64x2048x64, B⟩] concatenates_S64x2048x1_S64x2048x64_S64x2048x65_d2 (ix3 b n f)
      = if h : f.val = 0 then A (ix3 b n 0) else B (ix3 b n ⟨f.val - 1, by have := f.isLt; omega⟩) := by
  by_cases h : f.val = 0
  · rw [dif_pos h]
    exact concatenate_pair_apply_left _ A B _ (ix3 b n f) rfl (ix3 b n 0) (fun a => match a with
      | ⟨0, _⟩ => rfl
      | ⟨1, _⟩ => rfl
      | ⟨2, _⟩ => by show (0 : Nat) = f.val; omega)
  · rw [dif_neg h]
    exact concatenate_pair_apply_right _ A B _ (ix3 b n f) rfl rfl (ix3 b n ⟨f.val - 1, by have := f.isLt; omega⟩)
      (fun a ha => match a, ha with
        | ⟨0, _⟩, _ => rfl
        | ⟨1, _⟩, _ => rfl
        | ⟨2, _⟩, ha => absurd rfl ha)
      (by show f.val - 1 + 1 = f.val; omega)

/-- The logistic function as the reference spells it: 1 / (1 + exp (−x)), the two ones being the word of 1.0. -/
theorem logistic_spelled (x : Ideal .f32) :
    FloatOps.hostDivf (FloatOps.ofBits .f32 0x3F800000#32 : Ideal .f32)
      (FloatOps.addf (FloatOps.ofBits .f32 0x3F800000#32) (FloatOps.hostUnary .exp (FloatOps.hostNegf x))) = Ideal.logistic x := by
  show Ideal.div (Ideal.ofBits .f32 0x3F800000#32) (Ideal.ofBits .f32 0x3F800000#32 + Ideal.exp (-x)) = _
  rw [Ideal.ofBits_one_f32]
  rfl

section
variable (x0 : A2 S64x2048) (x1 : A2 S64x131072) (x2 : A2 S2048x2048) (x4 : A2 S256x2048) (x5 : A2 S2048x256)
  (x6 : A2 S65x128) (x7 : A2 S128) (x8 : A2 S65x64) (x9 : A2 S64)

/-- The input reshaped to a unit last axis, read at (batch, node, 0). -/
theorem v0_at (b : Fin 64) (n : Fin 2048) :
    val_main_v0 (F := Ideal) x0 (ix3 b n 0) = x0 (ix2 b n) := by
  rw [val_main_v0_apply]
  congr 1
  have := n.isLt; have := b.isLt
  funext a
  apply Fin.ext
  match a with
  | ⟨0, _⟩ => show ((b.val * 2048 + n.val) * 1 + 0) / 2048 = b.val; omega
  | ⟨1, _⟩ => show ((b.val * 2048 + n.val) * 1 + 0) % 2048 = n.val; omega

/-- The state reshaped to (batch, node, unit). -/
theorem v1_at (b : Fin 64) (n : Fin 2048) (u : Fin 64) :
    val_main_v1 (F := Ideal) x1 (ix3 b n u) = st3 x1 b n u := by
  rw [val_main_v1_apply]
  unfold st3
  congr 1
  have := n.isLt; have := b.isLt; have := u.isLt
  funext a
  apply Fin.ext
  match a with
  | ⟨0, _⟩ => show ((b.val * 2048 + n.val) * 64 + u.val) / 131072 = b.val; omega
  | ⟨1, _⟩ => show ((b.val * 2048 + n.val) * 64 + u.val) % 131072 = (flat n u).val; unfold flat; show _ = n.val * 64 + u.val; omega

/-! ## The graph convolution of the state -/

/-- The flattened, transposed features are read at (node, feature-major column) from the joined array at
    (batch, node, feature). -/
theorem idx_feat1 (n : Fin 2048) (f : Fin 65) (b : Fin 64) :
    idx_main_v3 (idx_main_v4 (ix2 n (col f b))) = ix3 b n f := by
  have := n.isLt; have := f.isLt; have := b.isLt
  funext a
  apply Fin.ext
  match a with
  | ⟨0, _⟩ => show (n.val * 4160 + (f.val * 64 + b.val)) % 64 = b.val; omega
  | ⟨1, _⟩ => show (n.val * 4160 + (f.val * 64 + b.val)) / 4160 = n.val; omega
  | ⟨2, _⟩ => show (n.val * 4160 + (f.val * 64 + b.val)) / 64 % 65 = f.val; omega

/-- The feature matrix: row = node, column = feature-major (feature, batch). -/
theorem feat1_at (n : Fin 2048) (f : Fin 65) (b : Fin 64) :
    val_main_v4 (F := Ideal) x0 x1 (ix2 n (col f b)) = feat x0 (st3 x1) b n f := by
  rw [val_main_v4_apply, val_main_v3_apply, idx_feat1]
  unfold val_main_v2
  rw [concat_feat]
  unfold feat
  by_cases h : f.val = 0
  · rw [dif_pos h, dif_pos h, v0_at]
  · rw [dif_neg h, dif_neg h, v1_at]

/-- Pooling to the coarse graph: the sum over fine nodes in the spec's order. -/
theorem coarse1_at (c : Fin 256) (f : Fin 65) (b : Fin 64) :
    val_main_v5 (F := Ideal) x0 x1 x4 (ix2 c (col f b)) = coarse x4 (feat x0 (st3 x1)) c b f := by
  rw [val_main_v5_apply]
  unfold coarse
  refine Finset.sum_congr rfl fun k _ => ?_
  have el : lidx_main_v5 (ix2 c (col f b)) k = ix2 c k := funext fun a => by match a with | ⟨0, _⟩ => rfl | ⟨1, _⟩ => rfl
  have er : ridx_main_v5 (ix2 c (col f b)) k = ix2 k (col f b) := funext fun a => by match a with | ⟨0, _⟩ => rfl | ⟨1, _⟩ => rfl
  rw [el, er, feat1_at]

/-- The fine graph's own convolution of the features. -/
theorem adjconv1_at (n : Fin 2048) (f : Fin 65) (b : Fin 64) :
    val_main_v6 (F := Ideal) x0 x1 x2 (ix2 n (col f b)) = ∑ k : Fin 2048, x2 (ix2 n k) * feat x0 (st3 x1) b k f := by
  rw [val_main_v6_apply]
  refine Finset.sum_congr rfl fun k _ => ?_
  have el : lidx_main_v6 (ix2 n (col f b)) k = ix2 n k := funext fun a => by match a with | ⟨0, _⟩ => rfl | ⟨1, _⟩ => rfl
  have er : ridx_main_v6 (ix2 n (col f b)) k = ix2 k (col f b) := funext fun a => by match a with | ⟨0, _⟩ => rfl | ⟨1, _⟩ => rfl
  rw [el, er, feat1_at]

/-- What comes back from the coarse graph, before the logistic function. -/
theorem back1_at (n : Fin 2048) (f : Fin 65) (b : Fin 64) :
    val_main_v8 (F := Ideal) x0 x1 x4 x5 (ix2 n (col f b)) = ∑ c : Fin 256, x5 (ix2 n c) * coarse x4 (feat x0 (st3 x1)) c b f := by
  rw [val_main_v8_apply]
  refine Finset.sum_congr rfl fun k _ => ?_
  have el : lidx_main_v8 (ix2 n (col f b)) k = ix2 n k := funext fun a => by match a with | ⟨0, _⟩ => rfl | ⟨1, _⟩ => rfl
  have er : ridx_main_v8 (ix2 n (col f b)) k = ix2 k (col f b) := funext fun a => by match a with | ⟨0, _⟩ => rfl | ⟨1, _⟩ => rfl
  rw [el, er, coarse1_at]

/-- The fine convolution plus the logistic of the coarse graph's answer; the reference spells the logistic
    function as 1 / (1 + exp (−x)). -/
theorem fine1_at (n : Fin 2048) (f : Fin 65) (b : Fin 64) :
    val_main_v15 (F := Ideal) x0 x1 x2 x4 x5 (ix2 n (col f b)) = fine x2 x5 (feat x0 (st3 x1)) (coarse x4 (feat x0 (st3 x1))) n b f := by
  rw [val_main_v15_apply, val_main_v14_apply, val_main_v13_apply, val_main_v12_apply, val_main_v11_apply,
    val_main_v10_apply, val_main_v9_apply, val_main_cst_apply, val_main_cst_0_apply, adjconv1_at, back1_at, logistic_spelled]
  rfl

/-- Back to (batch · 2048 + node, feature): the rows of the linear layer. -/
theorem idx_rows1 (b : Fin 64) (n : Fin 2048) (f : Fin 65) :
    idx_main_v24 (idx_main_v25 (idx_main_v26 (ix2 (row b n) f))) = ix2 n (col f b) := by
  have := n.isLt; have := f.isLt; have := b.isLt
  have e26 : idx_main_v26 (ix2 (row b n) f) = ix3 b n f := by
    funext a
    apply Fin.ext
    match a with
    | ⟨0, _⟩ => show ((b.val * 2048 + n.val) * 65 + f.val) / 133120 = b.val; omega
    | ⟨1, _⟩ => show ((b.val * 2048 + n.val) * 65 + f.val) / 65 % 2048 = n.val; omega
    | ⟨2, _⟩ => show ((b.val * 2048 + n.val) * 65 + f.val) % 65 = f.val; omega
  rw [e26]
  funext a
  apply Fin.ext
  match a with
  | ⟨0, _⟩ => show ((n.val * 65 + f.val) * 64 + b.val) / 4160 = n.val; omega
  | ⟨1, _⟩ => show ((n.val * 65 + f.val) * 64 + b.val) % 4160 = f.val * 64 + b.val; omega

/-- The linear layer's left operand at (batch · 2048 + node, feature). -/
theorem rows1_at (b : Fin 64) (n : Fin 2048) (f : Fin 65) :
    val_main_v26 (F := Ideal) x0 x1 x2 x4 x5 (ix2 (row b n) f) = fine x2 x5 (feat x0 (st3 x1)) (coarse x4 (feat x0 (st3 x1))) n b f := by
  rw [val_main_v26_apply, val_main_v25_apply, val_main_v24_apply, idx_rows1, fine1_at]

/-- The linear layer with its bias, at (batch, node, output slot). -/
theorem lin1_at (b : Fin 64) (n : Fin 2048) (o : Fin 128) :
    val_main_v38 (F := Ideal) x0 x1 x2 x4 x5 x6 x7 (ix3 b n o) = lin x6 x7 (fine x2 x5 (feat x0 (st3 x1)) (coarse x4 (feat x0 (st3 x1)))) b n o := by
  have := n.isLt; have := o.isLt; have := b.isLt
  have e38 : idx_main_v38 (ix3 b n o) = ix2 (row b n) o := by
    funext a
    apply Fin.ext
    match a with
    | ⟨0, _⟩ => show ((b.val * 2048 + n.val) * 128 + o.val) / 128 = b.val * 2048 + n.val; omega
    | ⟨1, _⟩ => show ((b.val * 2048 + n.val) * 128 + o.val) % 128 = o.val; omega
  have eb : idx_main_v28 (idx_main_v29 (ix2 (row b n) o)) = ix1 o := funext fun a => by match a with | ⟨0, _⟩ => rfl
  rw [val_main_v38_apply, e38, val_main_v30_apply, val_main_v29_apply, val_main_v28_apply, eb, val_main_v27_apply]
  unfold lin
  show (∑ k : Fin 65, _) + _ = _
  congr 1
  refine Finset.sum_congr rfl fun k _ => ?_
  have el : lidx_main_v27 (ix2 (row b n) o) k = ix2 (row b n) k := funext fun a => by match a with | ⟨0, _⟩ => rfl | ⟨1, _⟩ => rfl
  have er : ridx_main_v27 (ix2 (row b n) o) k = ix2 k o := funext fun a => by match a with | ⟨0, _⟩ => rfl | ⟨1, _⟩ => rfl
  rw [el, er, rows1_at]

/-- The gates' pre-activation at (batch, node, slot). -/
theorem pre_at (b : Fin 64) (n : Fin 2048) (o : Fin 128) :
    val_main_v38 (F := Ideal) x0 x1 x2 x4 x5 x6 x7 (ix3 b n o) = pre x0 x1 x2 x4 x5 x6 x7 b n o :=
  lin1_at x0 x1 x2 x4 x5 x6 x7 b n o

end

end GcGru.Ref

end
-- ==== Proof.RefB.lean ====
/-
  The reference program read at coordinates, second part: the gates, the reset state, and the graph convolution
  of the reset state.

  The gates are the logistic function of the two halves of the 128 slots of the first convolution; the reference
  spells the logistic function as 1 / (1 + exp (−x)). The reset state is the reset gate times the state, and the
  second convolution repeats the first with the reset state in place of the state and 64 output slots.
-/
import proofs.«130559_j17334488007012_2_alg».proof.Proof.RefA

noncomputable section

namespace GcGru.Ref

open Idealize.ShloMosaic Idealize.ShloMosaic.ValueIdx Cert.ReferenceIdeal Cert.ReferenceIdeal.Gen Cert.ReferenceIdeal.Read
open scoped BigOperators

section
variable (x0 : A2 S64x2048) (x1 : A2 S64x131072) (x2 : A2 S2048x2048) (x4 : A2 S256x2048) (x5 : A2 S2048x256)
  (x6 : A2 S65x128) (x7 : A2 S128) (x8 : A2 S65x64) (x9 : A2 S64)

/-- The logistic function of the pre-activation at (batch, node, slot). -/
theorem sig_at (b : Fin 64) (n : Fin 2048) (o : Fin 128) :
    val_main_v45 (F := Ideal) x0 x1 x2 x4 x5 x6 x7 (ix3 b n o) = Ideal.logistic (pre x0 x1 x2 x4 x5 x6 x7 b n o) := by
  rw [val_main_v45_apply, val_main_v44_apply, val_main_v43_apply, val_main_v42_apply, val_main_v41_apply, val_main_v40_apply,
    val_main_cst_3_apply, val_main_cst_4_apply, pre_at, logistic_spelled]

/-- A flat position `n · 64 + u` of a state row splits back into (node, unit). -/
theorem idx_unflat (b : Fin 64) (n : Fin 2048) (u : Fin 64) :
    idx_main_v48 (ix2 b (flat n u)) = ix3 b n u := by
  have := n.isLt; have := b.isLt; have := u.isLt
  funext a
  apply Fin.ext
  match a with
  | ⟨0, _⟩ => show (b.val * 131072 + (n.val * 64 + u.val)) / 131072 = b.val; omega
  | ⟨1, _⟩ => show (b.val * 131072 + (n.val * 64 + u.val)) / 64 % 2048 = n.val; omega
  | ⟨2, _⟩ => show (b.val * 131072 + (n.val * 64 + u.val)) % 64 = u.val; omega

/-- (batch, node, unit) is the flat position `n · 64 + u` of a state row. -/
theorem idx_flat (b : Fin 64) (n : Fin 2048) (u : Fin 64) :
    idx_main_v52 (ix3 b n u) = ix2 b (flat n u) := by
  have := n.isLt; have := b.isLt; have := u.isLt
  funext a
  apply Fin.ext
  match a with
  | ⟨0, _⟩ => show ((b.val * 2048 + n.val) * 64 + u.val) / 131072 = b.val; omega
  | ⟨1, _⟩ => show ((b.val * 2048 + n.val) * 64 + u.val) % 131072 = n.val * 64 + u.val; omega

/-- The reset gate: the lower 64 slots. -/
theorem gateR_at (b : Fin 64) (n : Fin 2048) (u : Fin 64) :
    val_main_v48 (F := Ideal) x0 x1 x2 x4 x5 x6 x7 (ix2 b (flat n u)) = gateR x0 x1 x2 x4 x5 x6 x7 b n u := by
  have e46 : idx_main_v46 (ix3 b n u) = ix3 b n (lo u) := funext fun a => by
    match a with | ⟨0, _⟩ => rfl | ⟨1, _⟩ => rfl | ⟨2, _⟩ => rfl
  rw [val_main_v48_apply, idx_unflat, val_main_v46_apply, e46, sig_at]
  rfl

/-- The update gate: the upper 64 slots. -/
theorem gateU_at (b : Fin 64) (n : Fin 2048) (u : Fin 64) :
    val_main_v49 (F := Ideal) x0 x1 x2 x4 x5 x6 x7 (ix2 b (flat n u)) = gateU x0 x1 x2 x4 x5 x6 x7 b n u := by
  have e47 : idx_main_v47 (ix3 b n u) = ix3 b n (hi u) := funext fun a => by
    match a with | ⟨0, _⟩ => rfl | ⟨1, _⟩ => rfl | ⟨2, _⟩ => rfl
  have e49 : idx_main_v49 (ix2 b (flat n u)) = ix3 b n u := idx_unflat b n u
  rw [val_main_v49_apply, e49, val_main_v47_apply, e47, sig_at]
  rfl

/-- The reset state: the reset gate times the state. -/
theorem rst_at (b : Fin 64) (n : Fin 2048) (u : Fin 64) :
    val_main_v50 (F := Ideal) x0 x1 x2 x4 x5 x6 x7 (ix2 b (flat n u)) = rst x0 x1 x2 x4 x5 x6 x7 b n u := by
  rw [val_main_v50_apply, gateR_at]
  rfl

/-- The input reshaped to a unit last axis, read at (batch, node, 0). -/
theorem v51_at (b : Fin 64) (n : Fin 2048) :
    val_main_v51 (F := Ideal) x0 (ix3 b n 0) = x0 (ix2 b n) := by
  rw [val_main_v51_apply]
  congr 1
  have := n.isLt; have := b.isLt
  funext a
  apply Fin.ext
  match a with
  | ⟨0, _⟩ => show ((b.val * 2048 + n.val) * 1 + 0) / 2048 = b.val; omega
  | ⟨1, _⟩ => show ((b.val * 2048 + n.val) * 1 + 0) % 2048 = n.val; omega

/-- The reset state reshaped to (batch, node, unit). -/
theorem v52_at (b : Fin 64) (n : Fin 2048) (u : Fin 64) :
    val_main_v52 (F := Ideal) x0 x1 x2 x4 x5 x6 x7 (ix3 b n u) = rst x0 x1 x2 x4 x5 x6 x7 b n u := by
  rw [val_main_v52_apply, idx_flat, rst_at]

/-! ## The graph convolution of the reset state -/

/-- The flattened, transposed features are read at (node, feature-major column) from the joined array at
    (batch, node, feature). -/
theorem idx_feat2 (n : Fin 2048) (f : Fin 65) (b : Fin 64) :
    idx_main_v54 (idx_main_v55 (ix2 n (col f b))) = ix3 b n f := by
  have := n.isLt; have := f.isLt; have := b.isLt
  funext a
  apply Fin.ext
  match a with
  | ⟨0, _⟩ => show (n.val * 4160 + (f.val * 64 + b.val)) % 64 = b.val; omega
  | ⟨1, _⟩ => show (n.val * 4160 + (f.val * 64 + b.val)) / 4160 = n.val; omega
  | ⟨2, _⟩ => show (n.val * 4160 + (f.val * 64 + b.val)) / 64 % 65 = f.val; omega

/-- The feature matrix: row = node, column = feature-major (feature, batch). -/
theorem feat2_at (n : Fin 2048) (f : Fin 65) (b : Fin 64) :
    val_main_v55 (F := Ideal) x0 x1 x2 x4 x5 x6 x7 (ix2 n (col f b)) = feat x0 (rst x0 x1 x2 x4 x5 x6 x7) b n f := by
  rw [val_main_v55_apply, val_main_v54_apply, idx_feat2]
  unfold val_main_v53
  rw [concat_feat]
  unfold feat
  by_cases h : f.val = 0
  · rw [dif_pos h, dif_pos h, v51_at]
  · rw [dif_neg h, dif_neg h, v52_at]

/-- Pooling to the coarse graph: the sum over fine nodes in the spec's order. -/
theorem coarse2_at (c : Fin 256) (f : Fin 65) (b : Fin 64) :
    val_main_v56 (F := Ideal) x0 x1 x2 x4 x5 x6 x7 (ix2 c (col f b)) = coarse x4 (feat x0 (rst x0 x1 x2 x4 x5 x6 x7)) c b f := by
  rw [val_main_v56_apply]
  unfold coarse
  refine Finset.sum_congr rfl fun k _ => ?_
  have el : lidx_main_v56 (ix2 c (col f b)) k = ix2 c k := funext fun a => by match a with | ⟨0, _⟩ => rfl | ⟨1, _⟩ => rfl
  have er : ridx_main_v56 (ix2 c (col f b)) k = ix2 k (col f b) := funext fun a => by match a with | ⟨0, _⟩ => rfl | ⟨1, _⟩ => rfl
  rw [el, er, feat2_at]

/-- The fine graph's own convolution of the features. -/
theorem adjconv2_at (n : Fin 2048) (f : Fin 65) (b : Fin 64) :
    val_main_v57 (F := Ideal) x0 x1 x2 x4 x5 x6 x7 (ix2 n (col f b)) = ∑ k : Fin 2048, x2 (ix2 n k) * feat x0 (rst x0 x1 x2 x4 x5 x6 x7) b k f := by
  rw [val_main_v57_apply]
  refine Finset.sum_congr rfl fun k _ => ?_
  have el : lidx_main_v57 (ix2 n (col f b)) k = ix2 n k := funext fun a => by match a with | ⟨0, _⟩ => rfl | ⟨1, _⟩ => rfl
  have er : ridx_main_v57 (ix2 n (col f b)) k = ix2 k (col f b) := funext fun a => by match a with | ⟨0, _⟩ => rfl | ⟨1, _⟩ => rfl
  rw [el, er, feat2_at]

/-- What comes back from the coarse graph, before the logistic function. -/
theorem back2_at (n : Fin 2048) (f : Fin 65) (b : Fin 64) :
    val_main_v59 (F := Ideal) x0 x1 x2 x4 x5 x6 x7 (ix2 n (col f b)) = ∑ c : Fin 256, x5 (ix2 n c) * coarse x4 (feat x0 (rst x0 x1 x2 x4 x5 x6 x7)) c b f := by
  rw [val_main_v59_apply]
  refine Finset.sum_congr rfl fun k _ => ?_
  have el : lidx_main_v59 (ix2 n (col f b)) k = ix2 n k := funext fun a => by match a with | ⟨0, _⟩ => rfl | ⟨1, _⟩ => rfl
  have er : ridx_main_v59 (ix2 n (col f b)) k = ix2 k (col f b) := funext fun a => by match a with | ⟨0, _⟩ => rfl | ⟨1, _⟩ => rfl
  rw [el, er, coarse2_at]

/-- The fine convolution plus the logistic of the coarse graph's answer; the reference spells the logistic
    function as 1 / (1 + exp (−x)). -/
theorem fine2_at (n : Fin 2048) (f : Fin 65) (b : Fin 64) :
    val_main_v66 (F := Ideal) x0 x1 x2 x4 x5 x6 x7 (ix2 n (col f b)) = fine x2 x5 (feat x0 (rst x0 x1 x2 x4 x5 x6 x7)) (coarse x4 (feat x0 (rst x0 x1 x2 x4 x5 x6 x7))) n b f := by
  rw [val_main_v66_apply, val_main_v65_apply, val_main_v64_apply, val_main_v63_apply, val_main_v62_apply,
    val_main_v61_apply, val_main_v60_apply, val_main_cst_5_apply, val_main_cst_6_apply, adjconv2_at, back2_at, logistic_spelled]
  rfl

/-- Back to (batch · 2048 + node, feature): the rows of the linear layer. -/
theorem idx_rows2 (b : Fin 64) (n : Fin 2048) (f : Fin 65) :
    idx_main_v75 (idx_main_v76 (idx_main_v77 (ix2 (row b n) f))) = ix2 n (col f b) := by
  have := n.isLt; have := f.isLt; have := b.isLt
  have e26 : idx_main_v77 (ix2 (row b n) f) = ix3 b n f := by
    funext a
    apply Fin.ext
    match a with
    | ⟨0, _⟩ => show ((b.val * 2048 + n.val) * 65 + f.val) / 133120 = b.val; omega
    | ⟨1, _⟩ => show ((b.val * 2048 + n.val) * 65 + f.val) / 65 % 2048 = n.val; omega
    | ⟨2, _⟩ => show ((b.val * 2048 + n.val) * 65 + f.val) % 65 = f.val; omega
  rw [e26]
  funext a
  apply Fin.ext
  match a with
  | ⟨0, _⟩ => show ((n.val * 65 + f.val) * 64 + b.val) / 4160 = n.val; omega
  | ⟨1, _⟩ => show ((n.val * 65 + f.val) * 64 + b.val) % 4160 = f.val * 64 + b.val; omega

/-- The linear layer's left operand at (batch · 2048 + node, feature). -/
theorem rows2_at (b : Fin 64) (n : Fin 2048) (f : Fin 65) :
    val_main_v77 (F := Ideal) x0 x1 x2 x4 x5 x6 x7 (ix2 (row b n) f) = fine x2 x5 (feat x0 (rst x0 x1 x2 x4 x5 x6 x7)) (coarse x4 (feat x0 (rst x0 x1 x2 x4 x5 x6 x7))) n b f := by
  rw [val_main_v77_apply, val_main_v76_apply, val_main_v75_apply, idx_rows2, fine2_at]

/-- The linear layer with its bias, at (batch, node, output slot). -/
theorem lin2_at (b : Fin 64) (n : Fin 2048) (o : Fin 64) :
    val_main_v89 (F := Ideal) x0 x1 x2 x4 x5 x6 x7 x8 x9 (ix3 b n o) = lin x8 x9 (fine x2 x5 (feat x0 (rst x0 x1 x2 x4 x5 x6 x7)) (coarse x4 (feat x0 (rst x0 x1 x2 x4 x5 x6 x7)))) b n o := by
  have := n.isLt; have := o.isLt; have := b.isLt
  have e38 : idx_main_v89 (ix3 b n o) = ix2 (row b n) o := by
    funext a
    apply Fin.ext
    match a with
    | ⟨0, _⟩ => show ((b.val * 2048 + n.val) * 64 + o.val) / 64 = b.val * 2048 + n.val; omega
    | ⟨1, _⟩ => show ((b.val * 2048 + n.val) * 64 + o.val) % 64 = o.val; omega
  have eb : idx_main_v79 (idx_main_v80 (ix2 (row b n) o)) = ix1 o := funext fun a => by match a with | ⟨0, _⟩ => rfl
  rw [val_main_v89_apply, e38, val_main_v81_apply, val_main_v80_apply, val_main_v79_apply, eb, val_main_v78_apply]
  unfold lin
  show (∑ k : Fin 65, _) + _ = _
  congr 1
  refine Finset.sum_congr rfl fun k _ => ?_
  have el : lidx_main_v78 (ix2 (row b n) o) k = ix2 (row b n) k := funext fun a => by match a with | ⟨0, _⟩ => rfl | ⟨1, _⟩ => rfl
  have er : ridx_main_v78 (ix2 (row b n) o) k = ix2 k o := funext fun a => by match a with | ⟨0, _⟩ => rfl | ⟨1, _⟩ => rfl
  rw [el, er, rows2_at]

/-- The candidate's pre-activation at (batch, node, unit). -/
theorem cand_at (b : Fin 64) (n : Fin 2048) (u : Fin 64) :
    val_main_v89 (F := Ideal) x0 x1 x2 x4 x5 x6 x7 x8 x9 (ix3 b n u) = cand x0 x1 x2 x4 x5 x6 x7 x8 x9 b n u :=
  lin2_at x0 x1 x2 x4 x5 x6 x7 x8 x9 b n u

end

end GcGru.Ref

end
-- ==== Proof.RefSpec.lean ====
/-
  The reference program computes the specification: its result at (batch, flat position n · 64 + u) is the
  new state at (batch, node, unit), the update gate times the state plus one minus the update gate times the
  hyperbolic tangent of the candidate.
-/
import proofs.«130559_j17334488007012_2_alg».proof.Proof.RefB

noncomputable section

namespace GcGru.Ref

open Idealize.ShloMosaic Idealize.ShloMosaic.ValueIdx Cert.ReferenceIdeal Cert.ReferenceIdeal.Gen Cert.ReferenceIdeal.Read
open scoped BigOperators

/-- The reference's result at (batch, node, unit) is the specification's new state. -/
theorem ref_newAt (x0 : A2 S64x2048) (x1 : A2 S64x131072) (x2 : A2 S2048x2048) (x4 : A2 S256x2048) (x5 : A2 S2048x256)
    (x6 : A2 S65x128) (x7 : A2 S128) (x8 : A2 S65x64) (x9 : A2 S64) (b : Fin 64) (n : Fin 2048) (u : Fin 64) :
    Cert.ReferenceIdeal.Read.val_main_v97 (F := Ideal) x0 x1 x2 x4 x5 x6 x7 x8 x9 (ix2 b (GcGru.flat n u))
      = GcGru.newAt x0 x1 x2 x4 x5 x6 x7 x8 x9 b n u := by
  have e92 : idx_main_v92 (ix2 b (flat n u)) = ix3 b n u := idx_unflat b n u
  rw [val_main_v97_apply, val_main_v96_apply, val_main_v95_apply, val_main_v94_apply, val_main_cst_9_apply, val_main_v93_apply,
    val_main_v92_apply, e92, val_main_v91_apply, cand_at, gateU_at]
  rfl

end GcGru.Ref

end
-- ==== Proof.lean ====
/-
  The certificate of one step of a graph-convolutional GRU: a kernel program of eight kernel calls against a plain
  reference, equal at the exact instance (floats are extended reals, every operation exact, a change of float format
  the identity).

  THE MATHEMATICS. 2048 fine nodes, 256 coarse nodes, batch 64, 64 hidden units; a node's 65 features are its input
  and its 64 hidden values. One convolution pools the features to the coarse graph (a matrix product), convolves them
  on the fine graph and adds the logistic of what comes back from the coarse graph (two more products), and applies a
  linear layer to each node's 65 features. The step computes the two gates from the convolution of the state, the
  candidate from the convolution of (reset gate · state), and blends: u · state + (1 − u) · tanh(candidate).

  WHY THE TWO PROGRAMS AGREE. They apply the same operations to the same operands in the same order; they differ in
  where entries are stored. The kernel keeps a node's (batch, feature) pairs batch-major (column b · 65 + f, rows
  n · 64 + b), the reference feature-major (column f · 64 + b, rows b · 2048 + n); the kernel cuts every product into
  row blocks; the reference also computes a coarse output that its result never reads; and the reference spells the
  logistic function as 1 / (1 + exp(−x)) where the kernel has one operation, which is that expression by definition.
  Every sum runs over the same index with the same factors on both sides, so no law of the extended reals is used
  and the precondition is never opened: both results are proved equal, entry by entry at (batch, node, unit), to one
  specification stated on coordinates (Proof/Spec.lean).

  THE PARTS. Proof/KRun.lean: the kernel's run with its result array named at the last segment boundary.
  Proof/Reg0 … Reg7.lean: what each kernel call leaves in its output array, as one whole-array function of the arrays it
  reads, for arbitrary entry contents. Proof/Carry.lean, Host.lean, Bridge.lean, Fold.lean: the walk through the entry
  point's boundaries down to the launch arguments. Proof/RefA.lean, RefB.lean, RefSpec.lean: the reference's generated
  run, read stage by stage, is the same specification. The three frames are the generated frame runs; the idealization
  rewrote no operation, so its conjunct is trivial.
-/
import proofs.«130559_j17334488007012_2_alg».proof.Defs
import proofs.«130559_j17334488007012_2_alg».proof.Proof.Gen.Kernel
import proofs.«130559_j17334488007012_2_alg».proof.Proof.Gen.Kernel.Skeleton
import proofs.«130559_j17334488007012_2_alg».proof.Proof.Gen.Kernel.Launch
import proofs.«130559_j17334488007012_2_alg».proof.Proof.Gen.Kernel.Points
import proofs.«130559_j17334488007012_2_alg».proof.Proof.Gen.Kernel.Frame
import proofs.«130559_j17334488007012_2_alg».proof.Proof.Gen.KernelIdeal
import proofs.«130559_j17334488007012_2_alg».proof.Proof.Gen.KernelIdeal.Skeleton
import proofs.«130559_j17334488007012_2_alg».proof.Proof.Gen.KernelIdeal.Launch
import proofs.«130559_j17334488007012_2_alg».proof.Proof.Gen.KernelIdeal.Points
import proofs.«130559_j17334488007012_2_alg».proof.Proof.Gen.KernelIdeal.Frame
import proofs.«130559_j17334488007012_2_alg».proof.Proof.Gen.ReferenceIdeal
import proofs.«130559_j17334488007012_2_alg».proof.Proof.Gen.Pre_finite_inputs
import proofs.«130559_j17334488007012_2_alg».proof.Proof.Gen.ReferenceIdeal.Run
import proofs.«130559_j17334488007012_2_alg».proof.Proof.Gen.ReferenceIdeal.Read
import proofs.«130559_j17334488007012_2_alg».proof.Proof.KRun
import proofs.«130559_j17334488007012_2_alg».proof.Proof.Fold
import proofs.«130559_j17334488007012_2_alg».proof.Proof.Reg0
import proofs.«130559_j17334488007012_2_alg».proof.Proof.Reg1
import proofs.«130559_j17334488007012_2_alg».proof.Proof.Reg2
import proofs.«130559_j17334488007012_2_alg».proof.Proof.Reg3
import proofs.«130559_j17334488007012_2_alg».proof.Proof.Reg4
import proofs.«130559_j17334488007012_2_alg».proof.Proof.Reg5
import proofs.«130559_j17334488007012_2_alg».proof.Proof.Reg6
import proofs.«130559_j17334488007012_2_alg».proof.Proof.Reg7
import proofs.«130559_j17334488007012_2_alg».proof.Proof.RefSpec
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no kernel call: its frame is its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end with the specification's new state of the (agreeing) arguments in their result arrays: the kernel's
    by the walk through its boundaries, the reference's by its generated run read stage by stage; two [64, 131072]
    arrays equal at every (batch, node, unit) are equal. -/
theorem algebraic : Cert.algebraic_KernelIdeal_ReferenceIdeal := by
  intro m ρ m' ρ' _ hagree
  refine ⟨fun c => Cert.KernelIdeal.Gen.W14 m ρ c (Proc.devRef .tc Cert.KernelIdeal.main_v33), GcGru.KRun.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v97_eq]
  obtain ⟨h0, h1, h2, -, h4, h5, h6, h7, h8, h9, -⟩ := hagree c
  rw [h0, h1, h2, h4, h5, h6, h7, h8, h9]
  refine GcGru.ext_bnu fun b n u => ?_
  rw [GcGru.Ref.ref_newAt]
  exact (GcGru.Fold.result GcGru.Reg0.final GcGru.Reg1.final GcGru.Reg2.final GcGru.Reg3.final2 GcGru.Reg3.final3
    GcGru.Reg4.final GcGru.Reg5.final GcGru.Reg6.final GcGru.Reg7.final m ρ c b n u).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
